-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x256 : Shape := ⟨2, ![256, 256]⟩
abbrev S256x8 : Shape := ⟨2, ![256, 8]⟩
abbrev S8 : Shape := ⟨1, ![8]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x8 .f32) (main_arg6 : FVec F S8 .f32) (main_arg7 : FVec F S256x256 .f32) (main_arg8 : FVec F S256 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S256x8 .f32 := Host.absf main_arg5
  let main_cst_6 : FVec F S_ .f32 := constant S_ .f32 0x7F800000#32
  let main_v20 : FVec F S256x8 .f32 := broadcastInDim S256x8 ![] bcast_S_S256x8 main_cst_6
  let main_v21 : IVec S256x8 1 := cmpf .olt main_v19 main_v20
  let main_c_7 : IVec S_ 1 := constantI S_ 1 1#1
  let main_v22 : IVec S_ 1 := (fun x v => Host.reduce IntOp.andi x v reducesTo_S256x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_v33

def fn {F : FTy → Type} [FloatOps F] (main_arg0 : FVec F S20000x256 .f32) (main_arg1 : IVec S2x320000 32) (main_arg2 : FVec F S256x256 .f32) (main_arg3 : FVec F S256x8 .f32) (main_arg4 : FVec F S8 .f32) (main_arg5 : FVec F S256x8 .f32) (main_arg6 : FVec F S8 .f32) (main_arg7 : FVec F S256x256 .f32) (main_arg8 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x8 .f32 := Host.absf main_arg3
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_arg7 main_arg8 main_v13 main_v16
-- ==== Kernel.lean ====
abbrev S20000x256 : Shape := ⟨2, ![20000, 256]⟩
abbrev S2x320000 : Shape := ⟨2, ![2, 320000]⟩
abbrev S256x256 : Shape := ⟨2, ![256, 256]⟩
abbrev S256x8 : Shape := ⟨2, ![256, 8]⟩
abbrev S8 : Shape := ⟨1, ![8]⟩
abbrev S256 : Shape := ⟨1, ![256]⟩
abbrev S1x320000 : Shape := ⟨2, ![1, 320000]⟩
abbrev S320000 : Shape := ⟨1, ![320000]⟩
abbrev S1x8 : Shape := ⟨2, ![1, 8]⟩
abbrev S20000x8 : Shape := ⟨2, ![20000, 8]⟩
abbrev S2000x256 : Shape := ⟨2, ![2000, 256]⟩
abbrev S2000x8 : Shape := ⟨2, ![2000, 8]⟩
abbrev S_ : Shape := ⟨0, ![]⟩
abbrev S320000x1 : Shape := ⟨2, ![320000, 1]⟩
abbrev S320000x8 : Shape := ⟨2, ![320000, 8]⟩
abbrev S20000x128 : Shape := ⟨2, ![20000, 128]⟩
abbrev S80x128 : Shape := ⟨2, ![80, 128]⟩
abbrev S2000x128 : Shape := ⟨2, ![2000, 128]⟩
abbrev S8x128 : Shape := ⟨2, ![8, 128]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S20000x8x32 : Shape := ⟨3, ![20000, 8, 32]⟩
abbrev S320000x8x32 : Shape := ⟨3, ![320000, 8, 32]⟩
abbrev S320000x8x1 : Shape := ⟨3, ![320000, 8, 1]⟩
abbrev S1x256 : Shape := ⟨2, ![1, 256]⟩

abbrev nBuf : Space → Nat
  | .hbm => 85
  | .vmem => 38
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256x8, .f32⟩
  | .hbm, ⟨4, _⟩ => ⟨S8, .f32⟩
  | .hbm, ⟨5, _⟩ => ⟨S256x8, .f32⟩
  | .hbm, ⟨6, _⟩ => ⟨S8, .f32⟩
  | .hbm, ⟨7, _⟩ => ⟨S256x256, .f32⟩
  | .hbm, ⟨8, _⟩ => ⟨S256, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S1x8, .f32⟩
  | .hbm, ⟨14, _⟩ => ⟨S1x8, .f32⟩
  | .hbm, ⟨15, _⟩ => ⟨S20000x256, .f32⟩
  | .hbm, ⟨16, _⟩ => ⟨S20000x256, .bf16⟩
  | .hbm, ⟨17, _⟩ => ⟨S20000x256, .f32⟩
  | .hbm, ⟨18, _⟩ => ⟨S20000x8, .f32⟩
  | .hbm, ⟨19, _⟩ => ⟨S20000x8, .f32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x8, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x8, .f32⟩
  | .hbm, ⟨38, _⟩ => ⟨S20000x128, .f32⟩
  | .hbm, ⟨39, _⟩ => ⟨S20000x128, .f32⟩
  | .hbm, ⟨40, _⟩ => ⟨S20000x128, .f32⟩
  | .hbm, ⟨41, _⟩ => ⟨S80x128, .f32⟩
  | .hbm, ⟨42, _⟩ => ⟨S_, .f32⟩
  | .hbm, ⟨43, _⟩ => ⟨S_, .f32⟩
  | .hbm, ⟨44, _⟩ => ⟨S1x1, .f32⟩
  | .hbm, ⟨45, _⟩ => ⟨S20000x128, .f32⟩
  | .hbm, ⟨46, _⟩ => ⟨S320000x8, .f32⟩
  | .hbm, ⟨47, _⟩ => ⟨S_, .f32⟩
  | .hbm, ⟨48, _⟩ => ⟨S20000x8, .f32⟩
  | .hbm, ⟨49, _⟩ => ⟨S320000x1, .i32⟩
  | .hbm, ⟨50, _⟩ => ⟨S20000x8, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x8, .f32⟩
  | .hbm, ⟨60, _⟩ => ⟨S_, .f32⟩
  | .hbm, ⟨61, _⟩ => ⟨S320000x8, .f32⟩
  | .hbm, ⟨62, _⟩ => ⟨S320000x8, .f32⟩
  | .hbm, ⟨63, _⟩ => ⟨S320000x8, .f32⟩
  | .hbm, ⟨64, _⟩ => ⟨S20000x8x32, .bf16⟩
  | .hbm, ⟨65, _⟩ => ⟨S_, .i32⟩
  | .hbm, ⟨66, _⟩ => ⟨S320000, .i32⟩
  | .hbm, ⟨67, _⟩ => ⟨S320000, .i1⟩
  | .hbm, ⟨68, _⟩ => ⟨S_, .i32⟩
  | .hbm, ⟨69, _⟩ => ⟨S320000, .i32⟩
  | .hbm, ⟨70, _⟩ => ⟨S320000, .i32⟩
  | .hbm, ⟨71, _⟩ => ⟨S320000, .i32⟩
  | .hbm, ⟨72, _⟩ => ⟨S320000x1, .i32⟩
  | .hbm, ⟨73, _⟩ => ⟨S320000x8x32, .bf16⟩
  | .hbm, ⟨74, _⟩ => ⟨S320000x8x32, .f32⟩
  | .hbm, ⟨75, _⟩ => ⟨S320000x8x1, .f32⟩
  | .hbm, ⟨76, _⟩ => ⟨S320000x8x32, .f32⟩
  | .hbm, ⟨77, _⟩ => ⟨S320000x8x32, .f32⟩
  | .hbm, ⟨78, _⟩ => ⟨S_, .f32⟩
  | .hbm, ⟨79, _⟩ => ⟨S20000x8x32, .f32⟩
  | .hbm, ⟨80, _⟩ => ⟨S320000x1, .i32⟩
  | .hbm, ⟨81, _⟩ => ⟨S20000x8x32, .f32⟩
  | .hbm, ⟨82, _⟩ => ⟨S20000x256, .f32⟩
  | .hbm, ⟨83, _⟩ => ⟨S1x256, .f32⟩
  | .hbm, ⟨84, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S256x8, .f32⟩
  | .local _ .vmem, ⟨5, _⟩ => ⟨S256x8, .f32⟩
  | .local _ .vmem, ⟨6, _⟩ => ⟨S1x8, .f32⟩
  | .local _ .vmem, ⟨7, _⟩ => ⟨S1x8, .f32⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S2000x256, .f32⟩
  | .local _ .vmem, ⟨13, _⟩ => ⟨S2000x256, .f32⟩
  | .local _ .vmem, ⟨14, _⟩ => ⟨S2000x8, .f32⟩
  | .local _ .vmem, ⟨15, _⟩ => ⟨S2000x8, .f32⟩
  | .local _ .vmem, ⟨16, _⟩ => ⟨S2000x8, .f32⟩
  | .local _ .vmem, ⟨17, _⟩ => ⟨S2000x8, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S8x128, .f32⟩
  | .local _ .vmem, ⟨25, _⟩ => ⟨S8x128, .f32⟩
  | .local _ .vmem, ⟨26, _⟩ => ⟨S2000x128, .f32⟩
  | .local _ .vmem, ⟨27, _⟩ => ⟨S2000x128, .f32⟩
  | .local _ .vmem, ⟨28, _⟩ => ⟨S1x1, .f32⟩
  | .local _ .vmem, ⟨29, _⟩ => ⟨S2000x128, .f32⟩
  | .local _ .vmem, ⟨30, _⟩ => ⟨S2000x128, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S8_S1x8 : S8.ShapeCasts S1x8
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S2000x256_S2000x256_0_0 : (Rect.unit (s := S2000x256) ![0, 0] S2000x256.size inb_S2000x256_S2000x256_0_0).PackedRows (EltTy.packing .bf16)
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  bcast_S_S320000 : S_.BroadcastsInDim S320000 (![] : Fin 0 → Fin S320000.rank)
  bcast_S320000_S320000x1_0 : S320000.BroadcastsInDim S320000x1 (![0] : Fin 1 → Fin S320000x1.rank)
  shapeCasts_S320000x8_S20000x128 : S320000x8.ShapeCasts S20000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  reduces_S2000x1_S1 : S2000x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S80x128_S_d0_1 : S80x128.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S20000x128_S320000x8 : S20000x128.ShapeCasts S320000x8
  bcast_S_S20000x8 : S_.BroadcastsInDim S20000x8 (![] : Fin 0 → Fin S20000x8.rank)
  bcast_S_S320000x8 : S_.BroadcastsInDim S320000x8 (![] : Fin 0 → Fin S320000x8.rank)
  shapeCasts_S20000x256_S20000x8x32 : S20000x256.ShapeCasts S20000x8x32
  bcast_S320000x8_S320000x8x1_0_1 : S320000x8.BroadcastsInDim S320000x8x1 (![0, 1] : Fin 2 → Fin S320000x8x1.rank)
  bcast_S320000x8x1_S320000x8x32_0_1_2 : S320000x8x1.BroadcastsInDim S320000x8x32 (![0, 1, 2] : Fin 3 → Fin S320000x8x32.rank)
  bcast_S_S20000x8x32 : S_.BroadcastsInDim S20000x8x32 (![] : Fin 0 → Fin S20000x8x32.rank)
  shapeCasts_S20000x8x32_S20000x256 : S20000x8x32.ShapeCasts S20000x256
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x256_S256x256_S2000x256_1_0_0_1_n_n_wf : DotDims.WF S2000x256 S256x256 S2000x256 [1] [0] [0] [1] [] []
  dot_S2000x256_S256x8_S2000x8_1_0_0_1_n_n_wf : DotDims.WF S2000x256 S256x8 S2000x8 [1] [0] [0] [1] [] []
  gather_S20000x8_S320000x1_S320000x8_1_0_n_n_0_1_18_wf : GatherDims.WF S20000x8 S320000x1 S320000x8 [1] [0] [] [0] [] 1 ![1, 8]
  scatter_S20000x8_S320000x1_S320000x8_1_0_0_1_wf : ScatterDims.WF S20000x8 S320000x1 S320000x8 [1] [0] [0] 1
  gather_S20000x8x32_S320000x1_S320000x8x32_12_0_n_n_0_1_1832_wf : GatherDims.WF S20000x8x32 S320000x1 S320000x8x32 [1, 2] [0] [] [0] [] 1 ![1, 8, 32]
  scatter_S20000x8x32_S320000x1_S320000x8x32_12_0_0_1_wf : ScatterDims.WF S20000x8x32 S320000x1 S320000x8x32 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S256x8.size a
  hwx0_3 : ∀ i : grid0.Coords, EltTy.bits .f32 = 32 ∨ (Rect.block (s := S256x8) S256x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x8.size a ≤ S256x8.size a
  hwx0_4 : ∀ i : grid0.Coords, EltTy.bits .f32 = 32 ∨ (Rect.block (s := S256x8) S256x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S20000x256.size a
  hwx0_7 : ∀ i : grid0.Coords, EltTy.bits .f32 = 32 ∨ (Rect.block (s := S20000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S20000x256.size a
  hwx0_8 : ∀ i : grid0.Coords, EltTy.bits .bf16 = 32 ∨ (Rect.block (s := S20000x256) S2000x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S20000x256.size a
  hwx0_9 : ∀ i : grid0.Coords, EltTy.bits .f32 = 32 ∨ (Rect.block (s := S20000x256) S2000x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x8.size a ≤ S20000x8.size a
  hwx0_10 : ∀ i : grid0.Coords, EltTy.bits .f32 = 32 ∨ (Rect.block (s := S20000x8) S2000x8.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x8.size a ≤ S20000x8.size a
  hwx0_11 : ∀ i : grid0.Coords, EltTy.bits .f32 = 32 ∨ (Rect.block (s := S20000x8) S2000x8.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S20000x128.size a
  hwx1_2 : ∀ i : grid1.Coords, EltTy.bits .f32 = 32 ∨ (Rect.block (s := S20000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S80x128.size a
  hwx1_3 : ∀ i : grid1.Coords, EltTy.bits .f32 = 32 ∨ (Rect.block (s := S80x128) S8x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S20000x128.size a
  hwx2_2 : ∀ i : grid2.Coords, EltTy.bits .f32 = 32 ∨ (Rect.block (s := S20000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S20000x256.size a
  hwx3_3 : ∀ i : grid3.Coords, EltTy.bits .f32 = 32 ∨ (Rect.block (s := S20000x256) S2000x256.size (cc3_transform_3 i) (hinb3_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x8_S2000x8_1_0_0_1_n_n : DotDims S2000x256 S256x8 S2000x8 where
  lhsContracting := [1]
  rhsContracting := [0]
  lhsNonContracting := [0]
  rhsNonContracting := [1]
  lhsBatch := []
  rhsBatch := []
  wf := dot_S2000x256_S256x8_S2000x8_1_0_0_1_n_n_wf
def gather_S20000x8_S320000x1_S320000x8_1_0_n_n_0_1_18 : GatherDims S20000x8 S320000x1 S320000x8 where
  offsetDims := [1]
  collapsedSliceDims := [0]
  operandBatchingDims := []
  startIndicesBatchingDims := []
  startIndexMap := [0]
  indexVectorDim := 1
  sliceSizes := ![1, 8]
  wf := gather_S20000x8_S320000x1_S320000x8_1_0_n_n_0_1_18_wf
def scatter_S20000x8_S320000x1_S320000x8_1_0_0_1 : ScatterDims S20000x8 S320000x1 S320000x8 where
  updateWindowDims := [1]
  insertedWindowDims := [0]
  scatterDimsToOperandDims := [0]
  indexVectorDim := 1
  wf := scatter_S20000x8_S320000x1_S320000x8_1_0_0_1_wf
def gather_S20000x8x32_S320000x1_S320000x8x32_12_0_n_n_0_1_1832 : GatherDims S20000x8x32 S320000x1 S320000x8x32 where
  offsetDims := [1, 2]
  collapsedSliceDims := [0]
  operandBatchingDims := []
  startIndicesBatchingDims := []
  startIndexMap := [0]
  indexVectorDim := 1
  sliceSizes := ![1, 8, 32]
  wf := gather_S20000x8x32_S320000x1_S320000x8x32_12_0_n_n_0_1_1832_wf
def scatter_S20000x8x32_S320000x1_S320000x8x32_12_0_0_1 : ScatterDims S20000x8x32 S320000x1 S320000x8x32 where
  updateWindowDims := [1, 2]
  insertedWindowDims := [0]
  scatterDimsToOperandDims := [0]
  indexVectorDim := 1
  wf := scatter_S20000x8x32_S320000x1_S320000x8x32_12_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S2000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S2000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_3) S2000x8.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_4) S2000x8.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23_1) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6_2) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x256 : Shape := ⟨2, ![256, 256]⟩
abbrev S256x8 : Shape := ⟨2, ![256, 8]⟩
abbrev S8 : Shape := ⟨1, ![8]⟩
abbrev S256 : Shape := ⟨1, ![256]⟩
abbrev S1x320000 : Shape := ⟨2, ![1, 320000]⟩
abbrev S320000 : Shape := ⟨1, ![320000]⟩
abbrev S20000x8 : Shape := ⟨2, ![20000, 8]⟩
abbrev S1x8 : Shape := ⟨2, ![1, 8]⟩
abbrev S_ : Shape := ⟨0, ![]⟩
abbrev S320000x1 : Shape := ⟨2, ![320000, 1]⟩
abbrev S320000x8 : Shape := ⟨2, ![320000, 8]⟩
abbrev S320000x8x1 : Shape := ⟨3, ![320000, 8, 1]⟩
abbrev S20000x8x32 : Shape := ⟨3, ![20000, 8, 32]⟩
abbrev S320000x8x32 : Shape := ⟨3, ![320000, 8, 32]⟩
abbrev S1x256 : Shape := ⟨2, ![1, 256]⟩

abbrev nBuf : Space → Nat
  | .hbm => 117
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256x8, .f32⟩
  | .hbm, ⟨4, _⟩ => ⟨S8, .f32⟩
  | .hbm, ⟨5, _⟩ => ⟨S256x8, .f32⟩
  | .hbm, ⟨6, _⟩ => ⟨S8, .f32⟩
  | .hbm, ⟨7, _⟩ => ⟨S256x256, .f32⟩
  | .hbm, ⟨8, _⟩ => ⟨S256, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S20000x256, .f32⟩
  | .hbm, ⟨14, _⟩ => ⟨S20000x8, .f32⟩
  | .hbm, ⟨15, _⟩ => ⟨S1x8, .f32⟩
  | .hbm, ⟨16, _⟩ => ⟨S20000x8, .f32⟩
  | .hbm, ⟨17, _⟩ => ⟨S20000x8, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x8, .f32⟩
  | .hbm, ⟨27, _⟩ => ⟨S20000x8, .f32⟩
  | .hbm, ⟨28, _⟩ => ⟨S1x8, .f32⟩
  | .hbm, ⟨29, _⟩ => ⟨S20000x8, .f32⟩
  | .hbm, ⟨30, _⟩ => ⟨S20000x8, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x8, .f32⟩
  | .hbm, ⟨40, _⟩ => ⟨S320000x8, .f32⟩
  | .hbm, ⟨41, _⟩ => ⟨S_, .f32⟩
  | .hbm, ⟨42, _⟩ => ⟨S320000x8, .f32⟩
  | .hbm, ⟨43, _⟩ => ⟨S320000x8, .i1⟩
  | .hbm, ⟨44, _⟩ => ⟨S_, .f32⟩
  | .hbm, ⟨45, _⟩ => ⟨S320000x8, .f32⟩
  | .hbm, ⟨46, _⟩ => ⟨S320000x8, .i1⟩
  | .hbm, ⟨47, _⟩ => ⟨S_, .f32⟩
  | .hbm, ⟨48, _⟩ => ⟨S_, .f32⟩
  | .hbm, ⟨49, _⟩ => ⟨S320000x8, .f32⟩
  | .hbm, ⟨50, _⟩ => ⟨S320000x8, .f32⟩
  | .hbm, ⟨51, _⟩ => ⟨S320000x8, .f32⟩
  | .hbm, ⟨52, _⟩ => ⟨S_, .f32⟩
  | .hbm, ⟨53, _⟩ => ⟨S320000x8, .f32⟩
  | .hbm, ⟨54, _⟩ => ⟨S320000x8, .f32⟩
  | .hbm, ⟨55, _⟩ => ⟨S320000x8, .f32⟩
  | .hbm, ⟨56, _⟩ => ⟨S_, .f32⟩
  | .hbm, ⟨57, _⟩ => ⟨S_, .f32⟩
  | .hbm, ⟨58, _⟩ => ⟨S320000x8, .f32⟩
  | .hbm, ⟨59, _⟩ => ⟨S320000x8, .f32⟩
  | .hbm, ⟨60, _⟩ => ⟨S320000x8, .f32⟩
  | .hbm, ⟨61, _⟩ => ⟨S_, .f32⟩
  | .hbm, ⟨62, _⟩ => ⟨S20000x8, .f32⟩
  | .hbm, ⟨63, _⟩ => ⟨S320000x1, .i32⟩
  | .hbm, ⟨64, _⟩ => ⟨S20000x8, .f32⟩
  | .hbm, ⟨65, _⟩ => ⟨S_, .i32⟩
  | .hbm, ⟨66, _⟩ => ⟨S320000, .i32⟩
  | .hbm, ⟨67, _⟩ => ⟨S320000, .i1⟩
  | .hbm, ⟨68, _⟩ => ⟨S_, .i32⟩
  | .hbm, ⟨69, _⟩ => ⟨S320000, .i32⟩
  | .hbm, ⟨70, _⟩ => ⟨S320000, .i32⟩
  | .hbm, ⟨71, _⟩ => ⟨S320000, .i32⟩
  | .hbm, ⟨72, _⟩ => ⟨S320000x1, .i32⟩
  | .hbm, ⟨73, _⟩ => ⟨S320000x8, .f32⟩
  | .hbm, ⟨74, _⟩ => ⟨S_, .f32⟩
  | .hbm, ⟨75, _⟩ => ⟨S320000x8, .f32⟩
  | .hbm, ⟨76, _⟩ => ⟨S320000x8, .f32⟩
  | .hbm, ⟨77, _⟩ => ⟨S320000x8, .f32⟩
  | .hbm, ⟨78, _⟩ => ⟨S320000x8x1, .f32⟩
  | .hbm, ⟨79, _⟩ => ⟨S20000x8x32, .f32⟩
  | .hbm, ⟨80, _⟩ => ⟨S_, .i32⟩
  | .hbm, ⟨81, _⟩ => ⟨S320000, .i32⟩
  | .hbm, ⟨82, _⟩ => ⟨S320000, .i1⟩
  | .hbm, ⟨83, _⟩ => ⟨S_, .i32⟩
  | .hbm, ⟨84, _⟩ => ⟨S320000, .i32⟩
  | .hbm, ⟨85, _⟩ => ⟨S320000, .i32⟩
  | .hbm, ⟨86, _⟩ => ⟨S320000, .i32⟩
  | .hbm, ⟨87, _⟩ => ⟨S320000x1, .i32⟩
  | .hbm, ⟨88, _⟩ => ⟨S320000x8x32, .f32⟩
  | .hbm, ⟨89, _⟩ => ⟨S320000x8x32, .f32⟩
  | .hbm, ⟨90, _⟩ => ⟨S320000x8x32, .f32⟩
  | .hbm, ⟨91, _⟩ => ⟨S_, .f32⟩
  | .hbm, ⟨92, _⟩ => ⟨S20000x8x32, .f32⟩
  | .hbm, ⟨93, _⟩ => ⟨S320000x1, .i32⟩
  | .hbm, ⟨94, _⟩ => ⟨S20000x8x32, .f32⟩
  | .hbm, ⟨95, _⟩ => ⟨S20000x256, .f32⟩
  | .hbm, ⟨96, _⟩ => ⟨S20000x8x32, .f32⟩
  | .hbm, ⟨97, _⟩ => ⟨S20000x8x32, .f32⟩
  | .hbm, ⟨98, _⟩ => ⟨S20000x256, .f32⟩
  | .hbm, ⟨99, _⟩ => ⟨S1x256, .f32⟩
  | .hbm, ⟨100, _⟩ => ⟨S20000x256, .f32⟩
  | .hbm, ⟨101, _⟩ => ⟨S20000x256, .f32⟩
  | .hbm, ⟨102, _⟩ => ⟨S_, .f32⟩
  | .hbm, ⟨103, _⟩ => ⟨S20000x256, .f32⟩
  | .hbm, ⟨104, _⟩ => ⟨S20000x256, .i1⟩
  | .hbm, ⟨105, _⟩ => ⟨S_, .f32⟩
  | .hbm, ⟨106, _⟩ => ⟨S20000x256, .f32⟩
  | .hbm, ⟨107, _⟩ => ⟨S20000x256, .i1⟩
  | .hbm, ⟨108, _⟩ => ⟨S_, .f32⟩
  | .hbm, ⟨109, _⟩ => ⟨S_, .f32⟩
  | .hbm, ⟨110, _⟩ => ⟨S20000x256, .f32⟩
  | .hbm, ⟨111, _⟩ => ⟨S20000x256, .f32⟩
  | .hbm, ⟨112, _⟩ => ⟨S20000x256, .f32⟩
  | .hbm, ⟨113, _⟩ => ⟨S_, .f32⟩
  | .hbm, ⟨114, _⟩ => ⟨S20000x256, .f32⟩
  | .hbm, ⟨115, _⟩ => ⟨S20000x256, .f32⟩
  | .hbm, ⟨116, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_cst_1 : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_v4 : Ref sig .tc := ⟨.hbm, 50, rfl⟩
abbrev main_call0_v5 : Ref sig .tc := ⟨.hbm, 51, rfl⟩
abbrev main_call0_cst_2 : Ref sig .tc := ⟨.hbm, 52, rfl⟩
abbrev main_call0_v6 : Ref sig .tc := ⟨.hbm, 53, rfl⟩
abbrev main_call0_v7 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_4 : Ref sig .tc := ⟨.hbm, 65, rfl⟩
abbrev main_v36 : Ref sig .tc := ⟨.hbm, 66, rfl⟩
abbrev main_v37 : Ref sig .tc := ⟨.hbm, 67, rfl⟩
abbrev main_c_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_cst_1 : Ref sig .tc := ⟨.hbm, 108, rfl⟩
abbrev main_call1_call0_v0 : Ref sig .tc := ⟨.hbm, 109, rfl⟩
abbrev main_call1_call0_v1 : Ref sig .tc := ⟨.hbm, 110, rfl⟩
abbrev main_call1_v4 : Ref sig .tc := ⟨.hbm, 111, rfl⟩
abbrev main_call1_v5 : Ref sig .tc := ⟨.hbm, 112, rfl⟩
abbrev main_call1_cst_2 : Ref sig .tc := ⟨.hbm, 113, rfl⟩
abbrev main_call1_v6 : Ref sig .tc := ⟨.hbm, 114, rfl⟩
abbrev main_call1_v7 : Ref sig .tc := ⟨.hbm, 115, rfl⟩
abbrev main_v67 : Ref sig .tc := ⟨.hbm, 116, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S8_S1x8_1 : S8.BroadcastsInDim S1x8 (![1] : Fin 1 → Fin S1x8.rank)
  bcast_S1x8_S20000x8_0_1 : S1x8.BroadcastsInDim S20000x8 (![0, 1] : Fin 2 → Fin S20000x8.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x8 : S_.BroadcastsInDim S320000x8 (![] : Fin 0 → Fin S320000x8.rank)
  reducesTo_S320000x8_S_d0_1 : S320000x8.ReducesTo [0, 1] S_
  h_S_ : 0 < S_.numel
  bcast_S_S20000x8 : S_.BroadcastsInDim S20000x8 (![] : Fin 0 → Fin S20000x8.rank)
  bcast_S320000x8_S320000x8x1_0_1 : S320000x8.BroadcastsInDim S320000x8x1 (![0, 1] : Fin 2 → Fin S320000x8x1.rank)
  shapeCasts_S20000x256_S20000x8x32 : S20000x256.ShapeCasts S20000x8x32
  bcast_S320000x8x1_S320000x8x32_0_1_2 : S320000x8x1.BroadcastsInDim S320000x8x32 (![0, 1, 2] : Fin 3 → Fin S320000x8x32.rank)
  bcast_S_S20000x8x32 : S_.BroadcastsInDim S20000x8x32 (![] : Fin 0 → Fin S20000x8x32.rank)
  shapeCasts_S20000x8x32_S20000x256 : S20000x8x32.ShapeCasts S20000x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  dot_S20000x256_S256x256_S20000x256_1_0_0_1_n_n_wf : DotDims.WF S20000x256 S256x256 S20000x256 [1] [0] [0] [1] [] []
  dot_S20000x256_S256x8_S20000x8_1_0_0_1_n_n_wf : DotDims.WF S20000x256 S256x8 S20000x8 [1] [0] [0] [1] [] []
  gather_S20000x8_S320000x1_S320000x8_1_0_n_n_0_1_18_wf : GatherDims.WF S20000x8 S320000x1 S320000x8 [1] [0] [] [0] [] 1 ![1, 8]
  scatter_S20000x8_S320000x1_S320000x8_1_0_0_1_wf : ScatterDims.WF S20000x8 S320000x1 S320000x8 [1] [0] [0] 1
  gather_S20000x8x32_S320000x1_S320000x8x32_12_0_n_n_0_1_1832_wf : GatherDims.WF S20000x8x32 S320000x1 S320000x8x32 [1, 2] [0] [] [0] [] 1 ![1, 8, 32]
  scatter_S20000x8x32_S320000x1_S320000x8x32_12_0_0_1_wf : ScatterDims.WF S20000x8x32 S320000x1 S320000x8x32 [1, 2] [0] [0] 1

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x8_S20000x8_1_0_0_1_n_n : DotDims S20000x256 S256x8 S20000x8 where
  lhsContracting := [1]
  rhsContracting := [0]
  lhsNonContracting := [0]
  rhsNonContracting := [1]
  lhsBatch := []
  rhsBatch := []
  wf := dot_S20000x256_S256x8_S20000x8_1_0_0_1_n_n_wf
def gather_S20000x8_S320000x1_S320000x8_1_0_n_n_0_1_18 : GatherDims S20000x8 S320000x1 S320000x8 where
  offsetDims := [1]
  collapsedSliceDims := [0]
  operandBatchingDims := []
  startIndicesBatchingDims := []
  startIndexMap := [0]
  indexVectorDim := 1
  sliceSizes := ![1, 8]
  wf := gather_S20000x8_S320000x1_S320000x8_1_0_n_n_0_1_18_wf
def scatter_S20000x8_S320000x1_S320000x8_1_0_0_1 : ScatterDims S20000x8 S320000x1 S320000x8 where
  updateWindowDims := [1]
  insertedWindowDims := [0]
  scatterDimsToOperandDims := [0]
  indexVectorDim := 1
  wf := scatter_S20000x8_S320000x1_S320000x8_1_0_0_1_wf
def gather_S20000x8x32_S320000x1_S320000x8x32_12_0_n_n_0_1_1832 : GatherDims S20000x8x32 S320000x1 S320000x8x32 where
  offsetDims := [1, 2]
  collapsedSliceDims := [0]
  operandBatchingDims := []
  startIndicesBatchingDims := []
  startIndexMap := [0]
  indexVectorDim := 1
  sliceSizes := ![1, 8, 32]
  wf := gather_S20000x8x32_S320000x1_S320000x8x32_12_0_n_n_0_1_1832_wf
def scatter_S20000x8x32_S320000x1_S320000x8x32_12_0_0_1 : ScatterDims S20000x8x32 S320000x1 S320000x8x32 where
  updateWindowDims := [1, 2]
  insertedWindowDims := [0]
  scatterDimsToOperandDims := [0]
  indexVectorDim := 1
  wf := scatter_S20000x8x32_S320000x1_S320000x8x32_12_0_0_1_wf

class Facts : Prop extends Facts₀ where

variable [Facts]
-- ==== Proof.KRun.lean ====
/-
  The idealized kernel's run with its result named: every weakly fair execution of @main terminates without a
  fault, the result buffer ends at the contents the last segment boundary assigns to it, and the nine argument
  arrays end as launched. The boundary contents are a fold through @main: host stretches applied in order, each
  kernel region's arrays replaced by what its write-backs leave.
-/
import proofs.«164815_j20770461843840_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_value : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.KRun

end
-- ==== Proof.Glue.lean ====
/-
  What the host stretches of the idealized kernel's @main compute, and what each kernel region finds in its
  input arrays. The buffers at a segment boundary are a fold from the launch memory; every buffer a later
  region reads is either an argument, a row of the edge list, a region's output array, or a host operation's
  result of such. Nothing here opens a region: the regions' output arrays stay named.
-/
import proofs.«164815_j20770461843840_2_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.Glue

open Idealize.ShloMosaic Idealize.ShloMosaic.TcCoe Idealize.SL.Sem
open Cert.KernelIdeal Cert.KernelIdeal.Gen

/-! ## The host stretches as functions -/

/-- Row `k` of the edge list as a flat vector of node numbers. -/
def srcK (ei : IVec S2x320000 32) : IVec S320000 32 :=
  shapeCast S320000 (extractStridedSlice S1x320000 ![0, 0] ei slices_S2x320000_S1x320000_0_0) shapeCasts_S1x320000_S320000
def tgtK (ei : IVec S2x320000 32) : IVec S320000 32 :=
  shapeCast S320000 (extractStridedSlice S1x320000 ![1, 0] ei slices_S2x320000_S1x320000_1_0) shapeCasts_S1x320000_S320000

/-- A negative node number counts from the end; the result as a column of start indices. -/
def wrapIdx (x : IVec S320000 32) : IVec S320000x1 32 :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 20000#32))) x)

/-- Per-edge rows of a per-node score array, laid out flat as [20000,128]. -/
def scoresFlat (s : FVec Ideal S20000x8 .f32) (ix : IVec S320000 32) : FVec Ideal S20000x128 .f32 :=
  shapeCast S20000x128 (Host.gather gather_S20000x8_S320000x1_S320000x8_1_0_n_n_0_1_18 s (wrapIdx ix)) shapeCasts_S320000x8_S20000x128

/-- From the exponentials (flat) to the aggregated features: normalise by the per-target sums, weight the
    gathered source rows, add them up per target. -/
def tailK (e : FVec Ideal S20000x128 .f32) (tgt src : IVec S320000 32) (p : FVec Ideal S20000x256 .bf16) : FVec Ideal S20000x256 .f32 :=
  shapeCast S20000x256
    (Host.scatterAdd scatter_S20000x8x32_S320000x1_S320000x8x32_12_0_0_1
      (broadcastInDim S20000x8x32 ![] bcast_S_S20000x8x32 (constant (F := Ideal) S_ .f32 0x00000000#32))
      (broadcastInDim S320000x1 ![0] bcast_S320000_S320000x1_0 tgt)
      (mulf
        (extf .f32 (Host.gather gather_S20000x8x32_S320000x1_S320000x8x32_12_0_n_n_0_1_1832
          (shapeCast S20000x8x32 p shapeCasts_S20000x256_S20000x8x32) (wrapIdx src)) bitsLt_bf16_f32)
        (broadcastInDim S320000x8x32 ![0, 1, 2] bcast_S320000x8x1_S320000x8x32_0_1_2
          (broadcastInDim S320000x8x1 ![0, 1] bcast_S320000x8_S320000x8x1_0_1
            (Host.divf (shapeCast S320000x8 e shapeCasts_S20000x128_S320000x8)
              (addf
                (Host.gather gather_S20000x8_S320000x1_S320000x8_1_0_n_n_0_1_18
                  (Host.scatterAdd scatter_S20000x8_S320000x1_S320000x8_1_0_0_1
                    (broadcastInDim S20000x8 ![] bcast_S_S20000x8 (constant (F := Ideal) S_ .f32 0x00000000#32))
                    (broadcastInDim S320000x1 ![0] bcast_S320000_S320000x1_0 tgt)
                    (shapeCast S320000x8 e shapeCasts_S20000x128_S320000x8))
                  (wrapIdx tgt))
                (broadcastInDim S320000x8 ![] bcast_S_S320000x8 (constant (F := Ideal) S_ .f32 0x2EDBE6FF#32))))))))
    shapeCasts_S20000x8x32_S20000x256

section Stretches
variable (W : Valuation τ sig (Elt Ideal))

theorem s0_v1 : (StableHlo.after (hostOps0 (F := Ideal)) W (Proc.devRef .tc main_v1) : IVec S320000 32) = srcK (W (Proc.devRef .tc main_arg1)) := by
  after_results; rfl
theorem s0_v3 : (StableHlo.after (hostOps0 (F := Ideal)) W (Proc.devRef .tc main_v3) : IVec S320000 32) = tgtK (W (Proc.devRef .tc main_arg1)) := by
  after_results; rfl
theorem s0_v4 : (StableHlo.after (hostOps0 (F := Ideal)) W (Proc.devRef .tc main_v4) : FVec Ideal S1x8 .f32) = shapeCast S1x8 (W (Proc.devRef .tc main_arg4) : FVec Ideal S8 .f32) shapeCasts_S8_S1x8 := by
  after_results; rfl
theorem s0_v5 : (StableHlo.after (hostOps0 (F := Ideal)) W (Proc.devRef .tc main_v5) : FVec Ideal S1x8 .f32) = shapeCast S1x8 (W (Proc.devRef .tc main_arg6) : FVec Ideal S8 .f32) shapeCasts_S8_S1x8 := by
  after_results; rfl
theorem s0_keep (b : Ref sig .tc) (h0 : b ≠ main_v0) (h1 : b ≠ main_v1) (h2 : b ≠ main_v2) (h3 : b ≠ main_v3) (h4 : b ≠ main_v4) (h5 : b ≠ main_v5) :
    StableHlo.after (hostOps0 (F := Ideal)) W (Proc.devRef .tc b) = W (Proc.devRef .tc b) := by
  simp only [StableHlo.after_cons, StableHlo.after_nil]
  rw [StableHlo.reshape_result_ne _ _ _ _ _ _ _ h5, StableHlo.reshape_result_ne _ _ _ _ _ _ _ h4, StableHlo.reshape_result_ne _ _ _ _ _ _ _ h3,
    StableHlo.unary_result_ne _ _ _ _ _ _ h2, StableHlo.reshape_result_ne _ _ _ _ _ _ _ h1, StableHlo.unary_result_ne _ _ _ _ _ _ h0]

theorem s1_v21 : (StableHlo.after (hostOps1 (F := Ideal)) W (Proc.devRef .tc main_v21) : FVec Ideal S20000x128 .f32)
    = scoresFlat (W (Proc.devRef .tc main_v6_3)) (W (Proc.devRef .tc main_v1)) := by
  after_results_simp; rfl
theorem s1_v22 : (StableHlo.after (hostOps1 (F := Ideal)) W (Proc.devRef .tc main_v22) : FVec Ideal S20000x128 .f32)
    = scoresFlat (W (Proc.devRef .tc main_v6_4)) (W (Proc.devRef .tc main_v3)) := by
  after_results_simp; rfl

theorem s2_v25 :
    (StableHlo.after (hostOps2 (F := Ideal)) W (Proc.devRef .tc main_v25) : FVec Ideal S1x1 .f32)
      = shapeCast S1x1 (Host.reduce FloatOps.maximumf (W (Proc.devRef .tc main_v23_1) : FVec Ideal S80x128 .f32)
          (constant (F := Ideal) S_ .f32 0xFF800000#32) reducesTo_S80x128_S_d0_1 h_S_) shapeCasts_S_S1x1 := by
  after_results; rfl

theorem s3_v56 : (StableHlo.after (hostOps3 (F := Ideal)) W (Proc.devRef .tc main_v56) : FVec Ideal S20000x256 .f32)
    = tailK (W (Proc.devRef .tc main_v26)) (W (Proc.devRef .tc main_v3)) (W (Proc.devRef .tc main_v1)) (W (Proc.devRef .tc main_v6_1)) := by
  after_results_simp; rfl
theorem s3_v57 : (StableHlo.after (hostOps3 (F := Ideal)) W (Proc.devRef .tc main_v57) : FVec Ideal S1x256 .f32)
    = shapeCast S1x256 (W (Proc.devRef .tc main_arg8) : FVec Ideal S256 .f32) shapeCasts_S256_S1x256 := by
  after_results_simp; rfl

end Stretches

section Keeps
variable (W : Valuation τ sig (Elt Ideal))

theorem s1_keep_v1 : StableHlo.after (hostOps1 (F := Ideal)) W (Proc.devRef .tc main_v1) = W (Proc.devRef .tc main_v1) := by after_results_simp
theorem s1_keep_v3 : StableHlo.after (hostOps1 (F := Ideal)) W (Proc.devRef .tc main_v3) = W (Proc.devRef .tc main_v3) := by after_results_simp
theorem s1_keep_v6_1 : StableHlo.after (hostOps1 (F := Ideal)) W (Proc.devRef .tc main_v6_1) = W (Proc.devRef .tc main_v6_1) := by after_results_simp
theorem s1_keep_v6_2 : StableHlo.after (hostOps1 (F := Ideal)) W (Proc.devRef .tc main_v6_2) = W (Proc.devRef .tc main_v6_2) := by after_results_simp
theorem s1_keep_arg8 : StableHlo.after (hostOps1 (F := Ideal)) W (Proc.devRef .tc main_arg8) = W (Proc.devRef .tc main_arg8) := by after_results_simp

theorem s2_keep_v1 : StableHlo.after (hostOps2 (F := Ideal)) W (Proc.devRef .tc main_v1) = W (Proc.devRef .tc main_v1) := by after_results
theorem s2_keep_v3 : StableHlo.after (hostOps2 (F := Ideal)) W (Proc.devRef .tc main_v3) = W (Proc.devRef .tc main_v3) := by after_results
theorem s2_keep_v6_1 : StableHlo.after (hostOps2 (F := Ideal)) W (Proc.devRef .tc main_v6_1) = W (Proc.devRef .tc main_v6_1) := by after_results
theorem s2_keep_v6_2 : StableHlo.after (hostOps2 (F := Ideal)) W (Proc.devRef .tc main_v6_2) = W (Proc.devRef .tc main_v6_2) := by after_results
theorem s2_keep_arg8 : StableHlo.after (hostOps2 (F := Ideal)) W (Proc.devRef .tc main_arg8) = W (Proc.devRef .tc main_arg8) := by after_results
theorem s2_keep_v23_0 : StableHlo.after (hostOps2 (F := Ideal)) W (Proc.devRef .tc main_v23_0) = W (Proc.devRef .tc main_v23_0) := by after_results

theorem s3_keep_v6_2 : StableHlo.after (hostOps3 (F := Ideal)) W (Proc.devRef .tc main_v6_2) = W (Proc.devRef .tc main_v6_2) := by after_results_simp

end Keeps

/-! ## The boundaries' contents at the buffers the regions read -/

section Run
variable (m : (ℓ : Loc nD τ sig) → Buf (Elt Ideal) ℓ) (ρ : Dev nD → PrngReg) (c : Dev nD)

/-- The two rows of the edge list reach every later boundary unchanged. -/
theorem W1_v1 : (W1 m ρ c (Proc.devRef .tc main_v1) : IVec S320000 32) = srcK (m ((c : Thread nD τ).loc main_arg1)) := s0_v1 (W0 m ρ c)
theorem W1_v3 : (W1 m ρ c (Proc.devRef .tc main_v3) : IVec S320000 32) = tgtK (m ((c : Thread nD τ).loc main_arg1)) := s0_v3 (W0 m ρ c)
theorem W2_v1 : (W2 m ρ c (Proc.devRef .tc main_v1) : IVec S320000 32) = srcK (m ((c : Thread nD τ).loc main_arg1)) :=
  (W2_of_ne m ρ c main_v1 (by decide)).trans (W1_v1 m ρ c)
theorem W2_v3 : (W2 m ρ c (Proc.devRef .tc main_v3) : IVec S320000 32) = tgtK (m ((c : Thread nD τ).loc main_arg1)) :=
  (W2_of_ne m ρ c main_v3 (by decide)).trans (W1_v3 m ρ c)
theorem W6_v1 : (W6 m ρ c (Proc.devRef .tc main_v1) : IVec S320000 32) = srcK (m ((c : Thread nD τ).loc main_arg1)) :=
  (W6_of_ne m ρ c main_v1 (by decide)).trans ((s2_keep_v1 (W4 m ρ c)).trans ((W4_of_ne m ρ c main_v1 (by decide)).trans
    ((s1_keep_v1 (W2 m ρ c)).trans (W2_v1 m ρ c))))
theorem W6_v3 : (W6 m ρ c (Proc.devRef .tc main_v3) : IVec S320000 32) = tgtK (m ((c : Thread nD τ).loc main_arg1)) :=
  (W6_of_ne m ρ c main_v3 (by decide)).trans ((s2_keep_v3 (W4 m ρ c)).trans ((W4_of_ne m ρ c main_v3 (by decide)).trans
    ((s1_keep_v3 (W2 m ρ c)).trans (W2_v3 m ρ c))))

/-- Region 0's outputs reach the later boundaries unchanged. -/
theorem W6_v6_1 : W6 m ρ c (Proc.devRef .tc main_v6_1) = (dat0 (V1 m ρ) c).arrAt 8 cfg0.N :=
  (W6_of_ne m ρ c main_v6_1 (by decide)).trans ((s2_keep_v6_1 (W4 m ρ c)).trans ((W4_of_ne m ρ c main_v6_1 (by decide)).trans
    ((s1_keep_v6_1 (W2 m ρ c)).trans (W2_arr m ρ c 8))))
theorem W7_v6_2 : W7 m ρ c (Proc.devRef .tc main_v6_2) = (dat0 (V1 m ρ) c).arrAt 9 cfg0.N :=
  (s3_keep_v6_2 (W6 m ρ c)).trans ((W6_of_ne m ρ c main_v6_2 (by decide)).trans ((s2_keep_v6_2 (W4 m ρ c)).trans ((W4_of_ne m ρ c main_v6_2 (by decide)).trans
    ((s1_keep_v6_2 (W2 m ρ c)).trans (W2_arr m ρ c 9)))))
theorem W6_arg8 : W6 m ρ c (Proc.devRef .tc main_arg8) = m ((c : Thread nD τ).loc main_arg8) :=
  (W6_of_ne m ρ c main_arg8 (by decide)).trans ((s2_keep_arg8 (W4 m ρ c)).trans ((W4_of_ne m ρ c main_arg8 (by decide)).trans
    ((s1_keep_arg8 (W2 m ρ c)).trans ((W2_of_ne m ρ c main_arg8 (by decide)).trans
      (s0_keep (W0 m ρ c) main_arg8 (by decide) (by decide) (by decide) (by decide) (by decide) (by decide))))))

/-- What region 0 finds: the arguments, and the two biases as rows. -/
theorem V1_arg0 : V1 m ρ c main_arg0 = m ((c : Thread nD τ).loc main_arg0) := s0_keep (W0 m ρ c) main_arg0 (by decide) (by decide) (by decide) (by decide) (by decide) (by decide)
theorem V1_arg2 : V1 m ρ c main_arg2 = m ((c : Thread nD τ).loc main_arg2) := s0_keep (W0 m ρ c) main_arg2 (by decide) (by decide) (by decide) (by decide) (by decide) (by decide)
theorem V1_arg7 : V1 m ρ c main_arg7 = m ((c : Thread nD τ).loc main_arg7) := s0_keep (W0 m ρ c) main_arg7 (by decide) (by decide) (by decide) (by decide) (by decide) (by decide)
theorem V1_arg3 : V1 m ρ c main_arg3 = m ((c : Thread nD τ).loc main_arg3) := s0_keep (W0 m ρ c) main_arg3 (by decide) (by decide) (by decide) (by decide) (by decide) (by decide)
theorem V1_arg5 : V1 m ρ c main_arg5 = m ((c : Thread nD τ).loc main_arg5) := s0_keep (W0 m ρ c) main_arg5 (by decide) (by decide) (by decide) (by decide) (by decide) (by decide)
theorem V1_v4 : (V1 m ρ c main_v4 : FVec Ideal S1x8 .f32) = shapeCast S1x8 (m ((c : Thread nD τ).loc main_arg4) : FVec Ideal S8 .f32) shapeCasts_S8_S1x8 := s0_v4 (W0 m ρ c)
theorem V1_v5 : (V1 m ρ c main_v5 : FVec Ideal S1x8 .f32) = shapeCast S1x8 (m ((c : Thread nD τ).loc main_arg6) : FVec Ideal S8 .f32) shapeCasts_S8_S1x8 := s0_v5 (W0 m ρ c)

/-- What region 1 finds: the gathered score rows, flat. -/
theorem V3_v21 : (V3 m ρ c main_v21 : FVec Ideal S20000x128 .f32)
    = scoresFlat ((dat0 (V1 m ρ) c).arrAt 10 cfg0.N) (srcK (m ((c : Thread nD τ).loc main_arg1))) := by
  refine (s1_v21 (W2 m ρ c)).trans ?_
  rw [W2_v1 m ρ c, W2_arr m ρ c 10]
theorem V3_v22 : (V3 m ρ c main_v22 : FVec Ideal S20000x128 .f32)
    = scoresFlat ((dat0 (V1 m ρ) c).arrAt 11 cfg0.N) (tgtK (m ((c : Thread nD τ).loc main_arg1))) := by
  refine (s1_v22 (W2 m ρ c)).trans ?_
  rw [W2_v3 m ρ c, W2_arr m ρ c 11]

/-- What region 2 finds: region 1's elu array, and the maximum of its block maxima as a [1,1] array. -/
theorem V5_v23_0 : V5 m ρ c main_v23_0 = (dat1 (V3 m ρ) c).arrAt 2 cfg1.N :=
  (s2_keep_v23_0 (W4 m ρ c)).trans (W4_arr m ρ c 2)
theorem V5_v25 : (V5 m ρ c main_v25 : FVec Ideal S1x1 .f32)
    = shapeCast S1x1 (Host.reduce FloatOps.maximumf ((dat1 (V3 m ρ) c).arrAt 3 cfg1.N : FVec Ideal S80x128 .f32)
        (constant (F := Ideal) S_ .f32 0xFF800000#32) reducesTo_S80x128_S_d0_1 h_S_) shapeCasts_S_S1x1 := by
  refine (s2_v25 (W4 m ρ c)).trans ?_
  rw [W4_arr m ρ c 3]

/-- What region 3 finds: the aggregated features, the skip product, the bias as a row. -/
theorem V7_v56 : (V7 m ρ c main_v56 : FVec Ideal S20000x256 .f32)
    = tailK ((dat2 (V5 m ρ) c).arrAt 2 cfg2.N) (tgtK (m ((c : Thread nD τ).loc main_arg1))) (srcK (m ((c : Thread nD τ).loc main_arg1)))
        ((dat0 (V1 m ρ) c).arrAt 8 cfg0.N) := by
  refine (s3_v56 (W6 m ρ c)).trans ?_
  rw [W6_v1 m ρ c, W6_v3 m ρ c, W6_v6_1 m ρ c, W6_arr m ρ c 2]
theorem V7_v6_2 : V7 m ρ c main_v6_2 = (dat0 (V1 m ρ) c).arrAt 9 cfg0.N := W7_v6_2 m ρ c
theorem V7_v57 : (V7 m ρ c main_v57 : FVec Ideal S1x256 .f32) = shapeCast S1x256 (m ((c : Thread nD τ).loc main_arg8) : FVec Ideal S256 .f32) shapeCasts_S256_S1x256 := by
  refine (s3_v57 (W6 m ρ c)).trans ?_
  rw [W6_arg8 m ρ c]

/-- The result buffer at the last boundary is region 3's output array. -/
theorem W8_v58 : W8 m ρ c (Proc.devRef .tc main_v58) = (dat3 (V7 m ρ) c).arrAt 3 cfg3.N := W8_arr m ρ c 3

end Run

end Cert.KernelIdeal.Glue

end
-- ==== Proof.Spec.lean ====
/-
  The one pointwise function both edge-level and node-level stages of the layer share:
  elu with its exponential written out, `x` where `x > 0` and `exp x - 1` elsewhere, on extended reals,
  entry by entry, for an array of any shape.
-/
import Idealize.ShloMosaic.PureOps.Ideal
import Idealize.ShloMosaic.Lib.ValueIdx

noncomputable section

open Idealize.ShloMosaic

namespace Cert.Spec

/-- `elu x = x` where `x > 0`, `exp x - 1` elsewhere (the words `0x00000000` and `0x3F800000` are the f32 patterns of 0 and 1). -/
def eluK {s : Shape} (x : FVec Ideal s .f32) : FVec Ideal s .f32 :=
  select (cmpf .ogt x (broadcast s (Scalar.ofBits .f32 0x00000000#32))) x
    (subf (exp x) (broadcast s (Scalar.ofBits .f32 0x3F800000#32)))

theorem eluK_apply {s : Shape} (x : FVec Ideal s .f32) (i : s.Idx) :
    eluK x i = Scalar.select (FloatOps.cmpf .ogt (x i) (Scalar.ofBits .f32 0x00000000#32)) (x i)
      (FloatOps.subf (FloatOps.exp (x i)) (Scalar.ofBits .f32 0x3F800000#32)) := rfl

end Cert.Spec

end
-- ==== Proof.KSpec.lean ====
/-
  The idealized kernel's result as a function of its nine arguments: the projections as sums of products, the
  per-edge score sums gathered and laid out flat, their elu, the maximum over all of it, the shifted exponentials,
  the aggregation per target node, and the final elu of aggregate + skip + bias.
-/
import proofs.«164815_j20770461843840_2_alg».proof.Proof.Glue
import proofs.«164815_j20770461843840_2_alg».proof.Proof.Spec

set_option maxRecDepth 16384

noncomputable section

open Idealize.ShloMosaic Idealize.ShloMosaic.ValueIdx
open scoped BigOperators

/-! ## The kernel's value -/
namespace Cert.Bridge.K
open Cert.KernelIdeal Cert.KernelIdeal.Glue

/-- The two coordinates of a rank-2 index, with literal bounds. -/
abbrev row {a b : Nat} (i : (⟨2, ![a, b]⟩ : Shape).Idx) : Fin a := ⟨(i 0).val, idx2_lt0 i⟩
abbrev col {a b : Nat} (i : (⟨2, ![a, b]⟩ : Shape).Idx) : Fin b := ⟨(i 1).val, idx2_lt1 i⟩

/-- x · w, entry (r, j) the sum over k of x (r, k) · w (k, j). -/
def projArr (x : FVec Ideal S20000x256 .f32) (w : FVec Ideal S256x256 .f32) : S20000x256.Idx → EReal :=
  fun i => ∑ k : Fin 256, x (ix2 (row i) k) * w (ix2 k (col i))
/-- p · w + b along the rows. -/
def scoreArr (p : S20000x256.Idx → EReal) (w : FVec Ideal S256x8 .f32) (b : FVec Ideal S8 .f32) : S20000x8.Idx → EReal :=
  fun i => (∑ k : Fin 256, p (ix2 (row i) k) * w (ix2 k (col i))) + b (ix1 (col i))

/-- The elu of the per-edge score sums, flat. -/
def Y (x : FVec Ideal S20000x256 .f32) (ei : IVec S2x320000 32) (wp : FVec Ideal S256x256 .f32) (ws : FVec Ideal S256x8 .f32) (bs : FVec Ideal S8 .f32)
    (wt : FVec Ideal S256x8 .f32) (bt : FVec Ideal S8 .f32) : FVec Ideal S20000x128 .f32 :=
  Cert.Spec.eluK (addf (scoresFlat (scoreArr (projArr x wp) ws bs) (srcK ei)) (scoresFlat (scoreArr (projArr x wp) wt bt) (tgtK ei)))

/-- The kernel's result as a function of its nine arguments. -/
def out (x : FVec Ideal S20000x256 .f32) (ei : IVec S2x320000 32) (wp : FVec Ideal S256x256 .f32) (ws : FVec Ideal S256x8 .f32) (bs : FVec Ideal S8 .f32)
    (wt : FVec Ideal S256x8 .f32) (bt : FVec Ideal S8 .f32) (wk : FVec Ideal S256x256 .f32) (b : FVec Ideal S256 .f32) : FVec Ideal S20000x256 .f32 :=
  Cert.Spec.eluK (addf (addf
    (tailK (exp (subf (Y x ei wp ws bs wt bt) (broadcast S20000x128 (⨆ i, Y x ei wp ws bs wt bt i)))) (tgtK ei) (srcK ei) (projArr x wp))
    (projArr x wk)) (fun i => b (ix1 (col i))))

end Cert.Bridge.K

end
-- ==== Proof.BridgeLib.lean ====
import Idealize.ShloMosaic.PureOps.Ideal
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Bridge

variable {α : Type}

/-- A scalar broadcast to any shape holds the scalar everywhere. -/
theorem bcastScalar {t : Shape} (h : (⟨0, ![]⟩ : Shape).BroadcastsInDim t (![] : Fin 0 → Fin t.rank)) (v : (⟨0, ![]⟩ : Shape).Idx → α) :
    broadcastInDim t ![] h v = broadcast t (v ix0) := by
  funext j
  unfold broadcastInDim
  exact congrArg v (funext fun a => a.elim0)

/-- A length-8 vector broadcast to a row and then down the rows reads its own entry in every row. -/
theorem bcastRows8 (h1 : (⟨1, ![8]⟩ : Shape).BroadcastsInDim ⟨2, ![1, 8]⟩ (![1] : Fin 1 → Fin 2))
    (h2 : (⟨2, ![1, 8]⟩ : Shape).BroadcastsInDim ⟨2, ![20000, 8]⟩ (![0, 1] : Fin 2 → Fin 2))
    (x : (⟨1, ![8]⟩ : Shape).Idx → α) (r : Fin 20000) (j : Fin 8) :
    broadcastInDim ⟨2, ![20000, 8]⟩ ![0, 1] h2 (broadcastInDim ⟨2, ![1, 8]⟩ ![1] h1 x) (ix2 r j) = x (ix1 j) :=
  (broadcastInDim_apply _ h2 _ (ix2 r j) (ix2 (0 : Fin 1) j) (fun a => by match a with | ⟨0, _⟩ => rfl | ⟨1, _⟩ => rfl)).trans
    (broadcastInDim_apply _ h1 x (ix2 (0 : Fin 1) j) (ix1 j) (fun a => by match a with | ⟨0, _⟩ => rfl))

/-- The same for a length-256 vector over 20000 rows. -/
theorem bcastRows256 (h1 : (⟨1, ![256]⟩ : Shape).BroadcastsInDim ⟨2, ![1, 256]⟩ (![1] : Fin 1 → Fin 2))
    (h2 : (⟨2, ![1, 256]⟩ : Shape).BroadcastsInDim ⟨2, ![20000, 256]⟩ (![0, 1] : Fin 2 → Fin 2))
    (x : (⟨1, ![256]⟩ : Shape).Idx → α) (r : Fin 20000) (j : Fin 256) :
    broadcastInDim ⟨2, ![20000, 256]⟩ ![0, 1] h2 (broadcastInDim ⟨2, ![1, 256]⟩ ![1] h1 x) (ix2 r j) = x (ix1 j) :=
  (broadcastInDim_apply _ h2 _ (ix2 r j) (ix2 (0 : Fin 1) j) (fun a => by match a with | ⟨0, _⟩ => rfl | ⟨1, _⟩ => rfl)).trans
    (broadcastInDim_apply _ h1 x (ix2 (0 : Fin 1) j) (ix1 j) (fun a => by match a with | ⟨0, _⟩ => rfl))

/-- A scalar cast to a [1,1] array holds the scalar. -/
theorem cast11 (h : (⟨0, ![]⟩ : Shape).ShapeCasts ⟨2, ![1, 1]⟩) (v : (⟨0, ![]⟩ : Shape).Idx → α) :
    shapeCast ⟨2, ![1, 1]⟩ v h (ix2 (0 : Fin 1) (0 : Fin 1)) = v ix0 :=
  congrArg v (funext fun a => a.elim0)

/-- At the ideal instance a change of float format is the identity. -/
theorem extf_id {s : Shape} {φ ψ : FTy} (x : FVec Ideal s φ) (h : φ.bits < ψ.bits) : (extf ψ x h : s.Idx → EReal) = x := rfl
theorem truncf_id {s : Shape} {φ ψ : FTy} (x : FVec Ideal s φ) (h : ψ.bits < φ.bits) : (truncf ψ x h : s.Idx → EReal) = x := rfl

end Cert.Bridge

end
-- ==== Proof.EdgeElu.lean ====
/-
  The second region of the graph-attention layer, read as mathematics on extended reals.

  Its two inputs are [20000,128] arrays (the gathered source and target scores of the 320000 × 8 edge-head pairs,
  flattened row-major). Grid point `t` (of ten) takes rows `2000 t … 2000 t + 1999` of both, adds them, applies elu
  (`x` where `x > 0`, `exp x - 1` elsewhere) and writes the result to the same rows of the score array; it also
  takes the maximum of that block — along the lanes, then down the rows, both from minus infinity — and writes
  it to every entry of rows `8 t … 8 t + 7` of an [80,128] array.

  Proved here, for any contents the region may find in its buffers:
  * the score array ends as elu of the entrywise sum of the two inputs (`final2`);
  * entry `(a, b)` of the [80,128] array ends as the supremum of row block `a / 8` of the scores (`final3`);
  * a maximum over every axis, started from minus infinity, is the supremum of all entries (`max_total`), so the
    maximum over the [80,128] array is the supremum of the whole score array (`gmax_eq`): a supremum over blocks
    of suprema within blocks is the supremum over everything;
  * a reshape is a bijection of index sets and keeps the supremum (`iSup_shapeCast`).
-/
import proofs.«164815_j20770461843840_2_alg».proof.Proof.Gen.KernelIdeal.Frame
import proofs.«164815_j20770461843840_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open Idealize.ShloMosaic Idealize.ShloMosaic.TcCoe Idealize.SL.Sem
open Idealize.ShloMosaic.Pipeline (Dat)
open Idealize.ShloMosaic.ValueIdx

namespace Cert.KernelIdeal.EdgeElu

open Cert.KernelIdeal Cert.KernelIdeal.Gen

/-! ## Maxima as suprema of extended reals -/

/-- The word of minus infinity is the least extended real. -/
theorem ofBits_neg_inf : Ideal.ofBits .f32 0xFF800000#32 = (⊥ : EReal) := by
  simp [Ideal.ofBits, Ideal.ieee]

/-- Folding `max` from the least element over a finite set is the supremum over it. -/
theorem fold_max_bot {ι : Type} (S : Finset ι) (f : ι → EReal) :
    S.fold max (⊥ : EReal) f = S.sup f := rfl

/-- Over a whole finite type, that supremum is the indexed supremum. -/
theorem fold_max_univ {ι : Type} [Fintype ι] (f : ι → EReal) :
    (Finset.univ : Finset ι).fold max (⊥ : EReal) f = ⨆ i, f i :=
  (fold_max_bot _ f).trans (Finset.sup_univ_eq_iSup f)

/-- The host's maximum over every axis, started from minus infinity, is the supremum of all entries:
    every index reduces to the one scalar index, and `max` from the least element is the supremum. -/
theorem max_total {s : Shape} {axes : List (Fin s.rank)} (x : FVec Ideal s .f32)
    (red : s.ReducesTo axes (⟨0, ![]⟩ : Shape)) (h : 0 < (⟨0, ![]⟩ : Shape).numel) :
    Host.reduce (FloatOps.maximumf (F := Ideal) (φ := .f32)) x (constant (F := Ideal) (⟨0, ![]⟩ : Shape) .f32 0xFF800000#32) red h
      = fun _ => ⨆ i : s.Idx, (x i : EReal) := by
  funext j
  rw [Host.reduce_eq_fold]
  have hall : (Finset.univ.filter fun i : s.Idx => red.drop i = j) = Finset.univ :=
    Finset.filter_true_of_mem fun i _ => funext fun b => b.elim0
  rw [hall]
  show Finset.fold max (Ideal.ofBits .f32 0xFF800000#32) x Finset.univ = _
  rw [ofBits_neg_inf]
  exact fold_max_univ x

/-- A reshape lists the same entries in the same row-major order under another shape: a bijection of the
    index sets, so the supremum of the entries is unchanged. -/
theorem iSup_shapeCast {s t : Shape} (x : s.Idx → EReal) (h : s.ShapeCasts t) :
    (⨆ i : t.Idx, shapeCast t x h i) = ⨆ j : s.Idx, x j :=
  (Shape.reshapeEquiv h).iSup_comp (g := x)

/-! ## The per-edge scores: elu of the two gathered score arrays' sum, on the flattened [20000,128] view -/

/-- elu on one extended real: `x` where `x > 0`, `exp x - 1` elsewhere. -/
def eluS (x : EReal) : EReal :=
  Scalar.select (FloatOps.cmpf (F := Ideal) (φ := .f32) .ogt x (Scalar.ofBits .f32 0x00000000#32)) x
    (FloatOps.subf (F := Ideal) (φ := .f32) (FloatOps.exp (F := Ideal) (φ := .f32) x) (Scalar.ofBits .f32 0x3F800000#32))

theorem eluK_eq_eluS {s : Shape} (x : FVec Ideal s .f32) (i : s.Idx) : Cert.Spec.eluK x i = eluS (x i) := rfl

theorem hz : (![0, 0] : Fin 2 → Nat) = fun _ => 0 := funext fun a => by fin_cases a <;> rfl

/-- The body's first payload is elu of the sum of its two loaded blocks (the two shape casts are to the same shape). -/
theorem pay1_eq (x0 x1 : Vec Ideal S2000x128 .f32) : Gen.k1_pay1 x0 x1 = Cert.Spec.eluK (addf x0 x1) := by
  unfold Gen.k1_pay1 Cert.Spec.eluK
  simp only [shapeCast_self]

variable (V : (c : Dev nD) → (b : Ref sig .tc) → Buf (Elt Ideal) ((c : Thread nD τ).loc b)) (c : Dev nD)

/-- The whole array of per-edge scores: elu of the entrywise sum of the two [20000,128] input arrays. -/
abbrev eluSum : FVec Ideal S20000x128 .f32 :=
  Cert.Spec.eluK (addf (V c main_v21 : FVec Ideal S20000x128 .f32) (V c main_v22 : FVec Ideal S20000x128 .f32))

/-- Every window of the region sits at row block `t`, column block 0, at grid point `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back into the score array is block `t` of `eluSum`. -/
theorem flushed2_eq (t : Fin cfg1.N) :
    (Gen.dat1 V c).flushed 2 t = ((cfg1.win 2).blk t).view.read (Elt Ideal) (eluSum V c) := by
  show (cfg1.win 2).cut (grid1.coords t) ((Gen.dat1 V c).after 2 t) = _
  rw [Gen.after1_2]
  unfold Gen.out1_2
  rw [View.canon_unit_zero hz]
  simp only [View.ld_unit_zero (S := S2000x128) hz]
  rw [pay1_eq]
  obtain ⟨e0, e1, e2, e3, e4, e5, -, -⟩ := idx_facts t
  funext j
  show eluS (FloatOps.addf (F := Ideal) (φ := .f32) (V c main_v21 (((cfg1.win 0).blk t).view.emb j)) (V c main_v22 (((cfg1.win 1).blk t).view.emb j)))
     = eluS (FloatOps.addf (F := Ideal) (φ := .f32) (V c main_v21 (((cfg1.win 2).blk t).view.emb j)) (V c main_v22 (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 128 + 1 * (j 1).val = win1_2.index t (1 : Fin 2) * 128 + 1 * (j 1).val; omega
  rw [h0, h1]

/-- An index of the score array is in point `t`'s block iff each coordinate is in the block's range on its axis. -/
theorem mem_blk2 (t : Fin cfg1.N) (i : S20000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v23_0).slice (win1_2.rect t)).set ↔ _
  rw [View.set_slice_whole, Rect.mem_set_unit]
  exact Iff.rfl

/-- Row `r` of the score array is written by grid point `r / 2000`. -/
theorem cover2 (i : S20000x128.Idx) :
    ∃ t : Fin cfg1.N, (cfg1.win 2).flush t = true ∧ i ∈ ((cfg1.win 2).blk t).view.set := by
  have hi0 : (i 0).val < 20000 := (i 0).isLt
  have hi1 : (i 1).val < 128 := (i 1).isLt
  have hN : grid1.N = 10 := Gen.N_1
  obtain ⟨t, ht⟩ : ∃ t : Fin cfg1.N, t.val = (i 0).val / 2000 :=
    ⟨⟨(i 0).val / 2000, by show _ < grid1.N; rw [hN]; omega⟩, rfl⟩
  obtain ⟨-, -, -, -, e4, e5, -, -⟩ := idx_facts t
  refine ⟨t, Gen.flush1_2 t, ?_⟩
  rw [mem_blk2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region the score array holds elu of the two input arrays' sum, entry by entry. -/
theorem final2 : (Gen.dat1 V c).arrAt 2 cfg1.N = eluSum V c :=
  (Gen.dat1 V c).arrAt_eq_of_cover 2 (eluSum V c) (fun t _ => flushed2_eq V c t) cover2

/-! ## The per-block maxima: block `t` of the [80,128] array is constant, the maximum of block `t` of the scores -/

/-- A maximum along the lanes, from minus infinity: entry `k` is the supremum of row `k`. -/
theorem rowMax_apply (src : FVec Ideal S2000x128 .f32) (h : S2000x128.Reduces [1] S2000) (hφ : FKind.Formats .f32)
    (hacc : (0xFF800000#32 : BitVec 32) = FKind.maximumf.neutral .f32 hφ) (k : Fin 2000) :
    multiReduction .maximumf [1] S2000 src 0xFF800000#32 h hφ hacc (ix1 k) = ⨆ l : Fin 128, src (ix2 k l) := by
  refine (Ideal.multiReduction_maximumf_single src _ h hφ hacc (ix1 k)).trans ?_
  show Finset.fold max (Ideal.ofBits .f32 0xFF800000#32) (src ∘ h.lift (ix1 k)) (Finset.univ : Finset (Fin 128)) = _
  rw [ofBits_neg_inf]
  refine (fold_max_univ _).trans (iSup_congr fun l => congrArg src ?_)
  funext a; apply Fin.ext
  match a with
  | ⟨0, _⟩ => rfl
  | ⟨1, _⟩ => rfl

/-- A maximum down a one-column array, from minus infinity: the supremum of the column. -/
theorem colMax_apply (src : FVec Ideal S2000x1 .f32) (h : S2000x1.Reduces [0] S1) (hφ : FKind.Formats .f32)
    (hacc : (0xFF800000#32 : BitVec 32) = FKind.maximumf.neutral .f32 hφ) (u : Fin 1) :
    multiReduction .maximumf [0] S1 src 0xFF800000#32 h hφ hacc (ix1 u) = ⨆ k : Fin 2000, src (ix2 k u) := by
  refine (Ideal.multiReduction_maximumf_single src _ h hφ hacc (ix1 u)).trans ?_
  show Finset.fold max (Ideal.ofBits .f32 0xFF800000#32) (src ∘ h.lift (ix1 u)) (Finset.univ : Finset (Fin 2000)) = _
  rw [ofBits_neg_inf]
  refine (fold_max_univ _).trans (iSup_congr fun k => congrArg src ?_)
  funext a; apply Fin.ext
  match a with
  | ⟨0, _⟩ => rfl
  | ⟨1, _⟩ => rfl

/-- A vector of length 2000 viewed as one column reads, at `(k, 0)`, entry `k`. -/
theorem colCast_apply {α : Type} (v : S2000.Idx → α) (h : S2000.ShapeCasts S2000x1) (k : Fin 2000) (u : Fin 1) :
    shapeCast S2000x1 v h (ix2 k u) = v (ix1 k) :=
  shapeCast_apply v h _ _ (by
    have hu : u.val = 0 := by omega
    rw [Shape.rowMajor_val_two, Shape.rowMajor_val_one]
    show k.val = k.val * 1 + u.val
    omega)

/-- A one-entry array broadcast over an [8,128] tile reads that entry everywhere. -/
theorem tile_apply {α : Type} (v : S1x1.Idx → α) (h : S1x1.Broadcasts S8x128) (p : Fin 8) (q : Fin 128) :
    broadcastTo S8x128 v h (ix2 p q) = v (ix2 (0 : Fin 1) (0 : Fin 1)) :=
  broadcastTo_apply v h _ _ (fun a => by
    match a with
    | ⟨0, _⟩ => rfl
    | ⟨1, _⟩ => rfl)

/-- The body's second payload is constant over its [8,128] tile: the supremum of elu of the sum of the two loaded blocks. -/
theorem pay2_apply (x0 x1 : Vec Ideal S2000x128 .f32) (p : Fin 8) (q : Fin 128) :
    Gen.k1_pay2 x0 x1 (ix2 p q) = ⨆ k : Fin 2000, ⨆ l : Fin 128, Cert.Spec.eluK (addf x0 x1) (ix2 k l) := by
  unfold Gen.k1_pay2
  refine (tile_apply _ _ p q).trans ?_
  refine (congrFun (shapeCast_self _ _) _).trans ?_
  refine (shapeCast_a_1a_apply _ _ (0 : Fin 1) (0 : Fin 1)).trans ?_
  refine (colMax_apply _ _ _ _ (0 : Fin 1)).trans ?_
  refine iSup_congr fun k => ?_
  refine (colCast_apply _ _ k (0 : Fin 1)).trans ?_
  refine (rowMax_apply _ _ _ _ k).trans ?_
  rw [pay1_eq]

/-- Row `k` of row block `a / 8` of the scores, as a row of the whole [20000,128] array. -/
def rowOf (a : Fin 80) (k : Fin 2000) : Fin 20000 :=
  ⟨2000 * (a.val / 8) + k.val, by have := a.isLt; have := k.isLt; omega⟩

/-- What the [80,128] array ends holding: entry `(a, b)` is the supremum of row block `a / 8` of the scores. -/
def blockSup : FVec Ideal S80x128 .f32 := fun i =>
  ⨆ k : Fin 2000, ⨆ l : Fin 128, eluSum V c (ix2 (rowOf ⟨(i 0).val, idx2_lt0 i⟩ k) l)

/-- Block `t` of the first input array at `(k, l)` is the array at row `2000 t + k`. -/
theorem iblk0_apply (t : Fin cfg1.N) (k : Fin 2000) (l : Fin 128) (r : Fin 20000) (hr : r.val = 2000 * t.val + k.val) :
    (Gen.iblk1 V c 0 t : Vec Ideal S2000x128 .f32) (ix2 k l) = (V c main_v21 : FVec Ideal S20000x128 .f32) (ix2 r l) := by
  obtain ⟨e0, e1, -⟩ := idx_facts t
  unfold Gen.iblk1
  rw [View.read_apply]
  show V c main_v21 _ = V c main_v21 _
  refine congrArg (V c main_v21) ?_
  funext a; apply Fin.ext
  match a with
  | ⟨0, _⟩ => show win1_0.index t (0 : Fin 2) * 2000 + 1 * k.val = r.val; omega
  | ⟨1, _⟩ => show win1_0.index t (1 : Fin 2) * 128 + 1 * l.val = l.val; omega

/-- Block `t` of the second input array at `(k, l)` is the array at row `2000 t + k`. -/
theorem iblk1_apply (t : Fin cfg1.N) (k : Fin 2000) (l : Fin 128) (r : Fin 20000) (hr : r.val = 2000 * t.val + k.val) :
    (Gen.iblk1 V c 1 t : Vec Ideal S2000x128 .f32) (ix2 k l) = (V c main_v22 : FVec Ideal S20000x128 .f32) (ix2 r l) := by
  obtain ⟨-, -, e2, e3, -⟩ := idx_facts t
  unfold Gen.iblk1
  rw [View.read_apply]
  show V c main_v22 _ = V c main_v22 _
  refine congrArg (V c main_v22) ?_
  funext a; apply Fin.ext
  match a with
  | ⟨0, _⟩ => show win1_1.index t (0 : Fin 2) * 2000 + 1 * k.val = r.val; omega
  | ⟨1, _⟩ => show win1_1.index t (1 : Fin 2) * 128 + 1 * l.val = l.val; omega

/-- What point `t` writes back into the [80,128] array is block `t` of `blockSup`: rows `8 t … 8 t + 7`, each entry the
    supremum of rows `2000 t … 2000 t + 1999` of the scores. -/
theorem flushed3_eq (t : Fin cfg1.N) :
    (Gen.dat1 V c).flushed 3 t = ((cfg1.win 3).blk t).view.read (Elt Ideal) (blockSup V c) := by
  show (cfg1.win 3).cut (grid1.coords t) ((Gen.dat1 V c).after 3 t) = _
  rw [Gen.after1_3]
  unfold Gen.out1_3
  rw [View.canon_unit_zero hz]
  simp only [View.ld_unit_zero (S := S2000x128) hz]
  obtain ⟨-, -, -, -, -, -, e6, e7⟩ := idx_facts t
  show (Gen.k1_pay2 (Gen.iblk1 V c 0 t) (Gen.iblk1 V c 1 t) : S8x128.Idx → EReal)
    = fun j : S8x128.Idx => blockSup V c (((cfg1.win 3).blk t).view.emb j)
  funext j
  obtain ⟨p, q, rfl⟩ : ∃ (p : Fin 8) (q : Fin 128), j = ix2 p q := ⟨j 0, j 1, eq_ix2 j⟩
  refine (pay2_apply (Gen.iblk1 V c 0 t) (Gen.iblk1 V c 1 t) p q).trans ?_
  refine iSup_congr fun k => iSup_congr fun l => ?_
  have hr : (rowOf ⟨((((cfg1.win 3).blk t).view.emb (ix2 p q)) 0).val, idx2_lt0 _⟩ k).val = 2000 * t.val + k.val := by
    show 2000 * ((win1_3.index t (0 : Fin 2) * 8 + 1 * p.val) / 8) + k.val = 2000 * t.val + k.val
    omega
  exact congrArg₂ (fun a b => eluS (FloatOps.addf (F := Ideal) (φ := .f32) a b))
    (iblk0_apply V c t k l _ hr) (iblk1_apply V c t k l _ hr)

/-- An index of the [80,128] array is in point `t`'s block iff each coordinate is in the block's range on its axis. -/
theorem mem_blk3 (t : Fin cfg1.N) (i : S80x128.Idx) :
    i ∈ ((cfg1.win 3).blk t).view.set ↔ ∀ a : Fin 2, win1_3.index t a * S8x128.size a ≤ (i a).val ∧ (i a).val < win1_3.index t a * S8x128.size a + S8x128.size a := by
  show i ∈ ((View.whole main_v23_1).slice (win1_3.rect t)).set ↔ _
  rw [View.set_slice_whole, Rect.mem_set_unit]
  exact Iff.rfl

/-- Row `a` of the [80,128] array is written by grid point `a / 8`. -/
theorem cover3 (i : S80x128.Idx) :
    ∃ t : Fin cfg1.N, (cfg1.win 3).flush t = true ∧ i ∈ ((cfg1.win 3).blk t).view.set := by
  have hi0 : (i 0).val < 80 := (i 0).isLt
  have hi1 : (i 1).val < 128 := (i 1).isLt
  have hN : grid1.N = 10 := Gen.N_1
  obtain ⟨t, ht⟩ : ∃ t : Fin cfg1.N, t.val = (i 0).val / 8 :=
    ⟨⟨(i 0).val / 8, by show _ < grid1.N; rw [hN]; omega⟩, rfl⟩
  obtain ⟨-, -, -, -, -, -, e6, e7⟩ := idx_facts t
  refine ⟨t, Gen.flush1_3 t, ?_⟩
  rw [mem_blk3]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 128 ≤ (i 1).val ∧ (i 1).val < win1_3.index t (1 : Fin 2) * 128 + 128; omega

/-- After the region the [80,128] array holds, in every entry of rows `8 t … 8 t + 7`, the supremum of row block `t` of the scores. -/
theorem final3_arr : (Gen.dat1 V c).arrAt 3 cfg1.N = blockSup V c :=
  (Gen.dat1 V c).arrAt_eq_of_cover 3 (blockSup V c) (fun t _ => flushed3_eq V c t) (cover3)

/-- Entry `(a, b)` of it is the supremum of rows `2000 (a / 8) … 2000 (a / 8) + 1999` of the scores. -/
theorem final3 (a : Fin 80) (b : Fin 128) :
    ((Gen.dat1 V c).arrAt 3 cfg1.N : S80x128.Idx → EReal) (ix2 a b)
      = ⨆ k : Fin 2000, ⨆ l : Fin 128, eluSum V c (ix2 (rowOf a k) l) :=
  congrFun (final3_arr V c) (ix2 a b)

/-! ## The global maximum -/

/-- The host's maximum over the [80,128] array of block maxima is the supremum of the whole score array: every block
    supremum is below the total one, and every entry lies in some block. -/
theorem gmax_eq :
    Host.reduce (FloatOps.maximumf (F := Ideal) (φ := .f32)) ((Gen.dat1 V c).arrAt 3 cfg1.N : FVec Ideal S80x128 .f32)
        (constant (F := Ideal) S_ .f32 0xFF800000#32) Facts₀.reducesTo_S80x128_S_d0_1 Facts₀.h_S_
      = fun _ => ⨆ i : S20000x128.Idx, eluSum V c i := by
  rw [final3_arr V c]
  refine (max_total (blockSup V c) Facts₀.reducesTo_S80x128_S_d0_1 Facts₀.h_S_).trans ?_
  funext _
  show (⨆ j : S80x128.Idx, ⨆ k : Fin 2000, ⨆ l : Fin 128, eluSum V c (ix2 (rowOf ⟨(j 0).val, idx2_lt0 j⟩ k) l))
    = ⨆ i : S20000x128.Idx, eluSum V c i
  refine le_antisymm (iSup_le fun j => iSup_le fun k => iSup_le fun l => le_iSup (eluSum V c) _) (iSup_le fun i => ?_)
  have hi0 : (i 0).val < 20000 := (i 0).isLt
  refine le_iSup_of_le (ix2 (⟨8 * ((i 0).val / 2000), by omega⟩ : Fin 80) (0 : Fin 128)) ?_
  refine le_iSup_of_le (⟨(i 0).val % 2000, by omega⟩ : Fin 2000) ?_
  refine le_iSup_of_le (⟨(i 1).val, idx2_lt1 i⟩ : Fin 128) ?_
  refine le_of_eq (congrArg (eluSum V c) ?_)
  funext a; apply Fin.ext
  match a with
  | ⟨0, _⟩ => show (i 0).val = 2000 * ((8 * ((i 0).val / 2000)) / 8) + (i 0).val % 2000; omega
  | ⟨1, _⟩ => rfl

end Cert.KernelIdeal.EdgeElu

end
-- ==== Proof.NodeProj.lean ====
/-
  The node projections of the layer, read off the first pipelined region.

  Region 0 walks the 20000 node rows in 10 blocks of 2000 rows. On each block it forms
  two products of the block of node features x with the whole 256-by-256 weight matrices
  (the projection and the skip connection), and from the projection two 8-column score
  arrays, each a product with a 256-by-8 matrix plus a bias row broadcast over the rows.
  Changing the float format is the identity on extended reals, and a product accumulated
  into the zero block is the plain sum over the contracted coordinate, so at row r of the
  whole array each result is a sum over k of entries of row r of x: the row block that
  contains r is the only one that matters, and it is block r / 2000.

  First each payload of the body is read at a row and a column of its block; then each
  input block is read as rows of its array; then what a point writes back is block t of
  one whole-array function, the blocks cover the array, and so the array ends holding that
  function. The last two statements are the reference's two products at an index.
-/
import proofs.«164815_j20770461843840_2_alg».proof.Proof.Gen.KernelIdeal.Frame
import proofs.«164815_j20770461843840_2_alg».proof.ReferenceIdeal
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx Idealize.SL.Sem
open Idealize.ShloMosaic.Pipeline (Dat)
open scoped BigOperators

namespace Cert.KernelIdeal.NodeProj

open Cert.KernelIdeal Cert.KernelIdeal.Facts₀ Cert.KernelIdeal.Facts

abbrev D256 := dot_S2000x256_S256x256_S2000x256_1_0_0_1_n_n
abbrev D8 := dot_S2000x256_S256x8_S2000x8_1_0_0_1_n_n

theorem lhs256 (p : Fin 2000) (j c : Fin 256) :
    D256.lhsIdx (ix2 p j) ((contrEquiv1 D256 256 rfl rfl).symm c) = ix2 p c := by
  have c2 := contrEquiv1_symm_val D256 256 rfl rfl c
  funext ax; apply Fin.ext
  match ax with
  | ⟨0, _⟩ => simp [DotDims.lhsIdx, D256, dot_S2000x256_S256x256_S2000x256_1_0_0_1_n_n]; rfl
  | ⟨1, _⟩ => simp [DotDims.lhsIdx, D256, dot_S2000x256_S256x256_S2000x256_1_0_0_1_n_n]; exact c2

theorem rhs256 (p : Fin 2000) (j c : Fin 256) :
    D256.rhsIdx (ix2 p j) ((contrEquiv1 D256 256 rfl rfl).symm c) = ix2 c j := by
  have c2 := contrEquiv1_symm_val D256 256 rfl rfl c
  funext ax; apply Fin.ext
  match ax with
  | ⟨0, _⟩ => simp [DotDims.rhsIdx, D256, dot_S2000x256_S256x256_S2000x256_1_0_0_1_n_n]; exact c2
  | ⟨1, _⟩ => simp [DotDims.rhsIdx, D256, dot_S2000x256_S256x256_S2000x256_1_0_0_1_n_n]; rfl

theorem lhs8 (p : Fin 2000) (j : Fin 8) (c : Fin 256) :
    D8.lhsIdx (ix2 p j) ((contrEquiv1 D8 256 rfl rfl).symm c) = ix2 p c := by
  have c2 := contrEquiv1_symm_val D8 256 rfl rfl c
  funext ax; apply Fin.ext
  match ax with
  | ⟨0, _⟩ => simp [DotDims.lhsIdx, D8, dot_S2000x256_S256x8_S2000x8_1_0_0_1_n_n]; rfl
  | ⟨1, _⟩ => simp [DotDims.lhsIdx, D8, dot_S2000x256_S256x8_S2000x8_1_0_0_1_n_n]; exact c2

theorem rhs8 (p : Fin 2000) (j : Fin 8) (c : Fin 256) :
    D8.rhsIdx (ix2 p j) ((contrEquiv1 D8 256 rfl rfl).symm c) = ix2 c j := by
  have c2 := contrEquiv1_symm_val D8 256 rfl rfl c
  funext ax; apply Fin.ext
  match ax with
  | ⟨0, _⟩ => simp [DotDims.rhsIdx, D8, dot_S2000x256_S256x8_S2000x8_1_0_0_1_n_n]; exact c2
  | ⟨1, _⟩ => simp [DotDims.rhsIdx, D8, dot_S2000x256_S256x8_S2000x8_1_0_0_1_n_n]; rfl

/-- A [2000,256] by [256,256] product into the zero block, at row p and column j. -/
theorem mm256_apply {φ₁ φ₂ : FTy} (prec : Option ContractPrecision) (a : FVec Ideal S2000x256 φ₁) (w : FVec Ideal S256x256 φ₂)
    (p : Fin 2000) (j : Fin 256) :
    matmul D256 prec a w (constant S2000x256 .f32 0x00000000#32) (ix2 p j) = ∑ k : Fin 256, a (ix2 p k) * w (ix2 k j) := by
  show FloatOps.matmul D256 prec a w _ (ix2 p j) = _
  rw [Ideal.matmul_constant_zero_apply, ← Equiv.sum_comp (contrEquiv1 D256 256 rfl rfl).symm]
  refine Finset.sum_congr rfl fun c _ => ?_
  rw [lhs256, rhs256]

theorem mm8_apply {φ₁ φ₂ : FTy} (prec : Option ContractPrecision) (a : FVec Ideal S2000x256 φ₁) (w : FVec Ideal S256x8 φ₂)
    (p : Fin 2000) (j : Fin 8) :
    matmul D8 prec a w (constant S2000x8 .f32 0x00000000#32) (ix2 p j) = ∑ k : Fin 256, a (ix2 p k) * w (ix2 k j) := by
  show FloatOps.matmul D8 prec a w _ (ix2 p j) = _
  rw [Ideal.matmul_constant_zero_apply, ← Equiv.sum_comp (contrEquiv1 D8 256 rfl rfl).symm]
  refine Finset.sum_congr rfl fun c _ => ?_
  rw [lhs8, rhs8]

theorem pay2_apply (x : Vec Ideal S2000x256 .f32) (w : Vec Ideal S256x256 .f32) (p : Fin 2000) (j : Fin 256) :
    Gen.k0_pay2 x w (ix2 p j) = ∑ k : Fin 256, x (ix2 p k) * w (ix2 k j) := by
  unfold Gen.k0_pay2 Gen.k0_pay1
  refine (mm256_apply none _ _ p j).trans ?_
  rfl

theorem pay3_apply (x : Vec Ideal S2000x256 .f32) (w : Vec Ideal S256x256 .f32) (p : Fin 2000) (j : Fin 256) :
    Gen.k0_pay3 x w (ix2 p j) = ∑ k : Fin 256, x (ix2 p k) * w (ix2 k j) := by
  unfold Gen.k0_pay3 Gen.k0_pay1
  refine (mm256_apply none _ _ p j).trans ?_
  rfl

theorem pay4_apply (x : Vec Ideal S2000x256 .f32) (w : Vec Ideal S256x256 .f32) (p : Fin 2000) (j : Fin 256) :
    Gen.k0_pay4 x w (ix2 p j) = ∑ k : Fin 256, x (ix2 p k) * w (ix2 k j) := by
  unfold Gen.k0_pay4
  exact pay2_apply x w p j

theorem pay5_apply (x : Vec Ideal S2000x256 .f32) (w : Vec Ideal S256x256 .f32) (w3 : Vec Ideal S256x8 .f32) (b : Vec Ideal S1x8 .f32)
    (p : Fin 2000) (h : Fin 8) :
    Gen.k0_pay5 x w w3 b (ix2 p h)
      = (∑ k : Fin 256, (∑ l : Fin 256, x (ix2 p l) * w (ix2 l k)) * w3 (ix2 k h)) + b (ix2 (0 : Fin 1) h) := by
  unfold Gen.k0_pay5
  show (matmul D8 (some .fp32) (Gen.k0_pay2 x w) w3 (constant S2000x8 .f32 0x00000000#32)) (ix2 p h)
      + (broadcastTo S2000x8 (shapeCast S1x8 b shapeCasts_S1x8_S1x8) broadcasts_S1x8_S2000x8) (ix2 p h) = _
  rw [mm8_apply, broadcastTo_1b_ab_apply, shapeCast_self]
  simp only [pay2_apply]

theorem pay6_apply (x : Vec Ideal S2000x256 .f32) (w : Vec Ideal S256x256 .f32) (w3 : Vec Ideal S256x8 .f32) (b : Vec Ideal S1x8 .f32)
    (p : Fin 2000) (h : Fin 8) :
    Gen.k0_pay6 x w w3 b (ix2 p h)
      = (∑ k : Fin 256, (∑ l : Fin 256, x (ix2 p l) * w (ix2 l k)) * w3 (ix2 k h)) + b (ix2 (0 : Fin 1) h) := by
  unfold Gen.k0_pay6
  show (matmul D8 (some .fp32) (Gen.k0_pay2 x w) w3 (constant S2000x8 .f32 0x00000000#32)) (ix2 p h)
      + (broadcastTo S2000x8 (shapeCast S1x8 b shapeCasts_S1x8_S1x8) broadcasts_S1x8_S2000x8) (ix2 p h) = _
  rw [mm8_apply, broadcastTo_1b_ab_apply, shapeCast_self]
  simp only [pay2_apply]

/-! ## The specification's two functions -/

/-- Row `r` of `x` against column `j` of `w`. -/
def xw (x : FVec Ideal S20000x256 .f32) (w : FVec Ideal S256x256 .f32) (r : Fin 20000) (j : Fin 256) : EReal :=
  ∑ k : Fin 256, x (ix2 r k) * w (ix2 k j)

/-- Row `r` of a projected array `p` against column `h` of `w`, plus the bias row's entry `h`. -/
def score (p : Fin 20000 → Fin 256 → EReal) (w : FVec Ideal S256x8 .f32) (b : FVec Ideal S1x8 .f32) (r : Fin 20000) (h : Fin 8) : EReal :=
  (∑ k : Fin 256, p r k * w (ix2 k h)) + b (ix2 0 h)

/-! ## The input blocks as rows of their arrays -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index of each window at a point: the row-blocked windows sit at block `t` of the rows, the
    whole-array windows at block zero. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The block of `x` at point `t` is rows `2000 t … 2000 t + 1999` of `x`. -/
theorem iblk_x (t : Fin cfg0.N) (y : S2000x256.Idx) (k : S20000x256.Idx)
    (hk0 : (k 0).val = 2000 * t.val + (y 0).val) (hk1 : (k 1).val = (y 1).val) :
    (Gen.iblk0 V c 0 t : Vec Ideal S2000x256 .f32) y = (V c main_arg0 : S20000x256.Idx → EReal) k := by
  obtain ⟨⟨e0, e1⟩, -⟩ := idx_facts t
  unfold Gen.iblk0
  rw [View.read_apply]
  show V c main_arg0 _ = V c main_arg0 _
  refine congrArg (V c main_arg0) ?_
  funext a
  apply Fin.ext
  match a with
  | ⟨0, _⟩ => show win0_0.index t 0 * 2000 + 1 * (y 0).val = (k 0).val; rw [e0, hk0]; omega
  | ⟨1, _⟩ => show win0_0.index t 1 * 256 + 1 * (y 1).val = (k 1).val; rw [e1, hk1]; omega

/-- The projection weights' block at any point is the whole matrix. -/
theorem iblk_wproj (t : Fin cfg0.N) (y : S256x256.Idx) :
    (Gen.iblk0 V c 1 t : Vec Ideal S256x256 .f32) y = (V c main_arg2 : S256x256.Idx → EReal) y := by
  obtain ⟨-, ⟨e0, e1⟩, -⟩ := idx_facts t
  unfold Gen.iblk0
  rw [View.read_apply]
  show V c main_arg2 _ = V c main_arg2 _
  refine congrArg (V c main_arg2) ?_
  funext a
  apply Fin.ext
  match a with
  | ⟨0, _⟩ => show win0_1.index t 0 * 256 + 1 * (y 0).val = (y 0).val; rw [e0]; omega
  | ⟨1, _⟩ => show win0_1.index t 1 * 256 + 1 * (y 1).val = (y 1).val; rw [e1]; omega

/-- The skip weights' block at any point is the whole matrix. -/
theorem iblk_wskip (t : Fin cfg0.N) (y : S256x256.Idx) :
    (Gen.iblk0 V c 2 t : Vec Ideal S256x256 .f32) y = (V c main_arg7 : S256x256.Idx → EReal) y := by
  obtain ⟨-, -, ⟨e0, e1⟩, -⟩ := idx_facts t
  unfold Gen.iblk0
  rw [View.read_apply]
  show V c main_arg7 _ = V c main_arg7 _
  refine congrArg (V c main_arg7) ?_
  funext a
  apply Fin.ext
  match a with
  | ⟨0, _⟩ => show win0_2.index t 0 * 256 + 1 * (y 0).val = (y 0).val; rw [e0]; omega
  | ⟨1, _⟩ => show win0_2.index t 1 * 256 + 1 * (y 1).val = (y 1).val; rw [e1]; omega

/-- The source-score weights' block at any point is the whole matrix. -/
theorem iblk_wsrc (t : Fin cfg0.N) (y : S256x8.Idx) :
    (Gen.iblk0 V c 3 t : Vec Ideal S256x8 .f32) y = (V c main_arg3 : S256x8.Idx → EReal) y := by
  obtain ⟨-, -, -, ⟨e0, e1⟩, -⟩ := idx_facts t
  unfold Gen.iblk0
  rw [View.read_apply]
  show V c main_arg3 _ = V c main_arg3 _
  refine congrArg (V c main_arg3) ?_
  funext a
  apply Fin.ext
  match a with
  | ⟨0, _⟩ => show win0_3.index t 0 * 256 + 1 * (y 0).val = (y 0).val; rw [e0]; omega
  | ⟨1, _⟩ => show win0_3.index t 1 * 8 + 1 * (y 1).val = (y 1).val; rw [e1]; omega

/-- The target-score weights' block at any point is the whole matrix. -/
theorem iblk_wtgt (t : Fin cfg0.N) (y : S256x8.Idx) :
    (Gen.iblk0 V c 4 t : Vec Ideal S256x8 .f32) y = (V c main_arg5 : S256x8.Idx → EReal) y := by
  obtain ⟨-, -, -, -, ⟨e0, e1⟩, -⟩ := idx_facts t
  unfold Gen.iblk0
  rw [View.read_apply]
  show V c main_arg5 _ = V c main_arg5 _
  refine congrArg (V c main_arg5) ?_
  funext a
  apply Fin.ext
  match a with
  | ⟨0, _⟩ => show win0_4.index t 0 * 256 + 1 * (y 0).val = (y 0).val; rw [e0]; omega
  | ⟨1, _⟩ => show win0_4.index t 1 * 8 + 1 * (y 1).val = (y 1).val; rw [e1]; omega

/-- The source bias row's block at any point is the whole row. -/
theorem iblk_bsrc (t : Fin cfg0.N) (y : S1x8.Idx) :
    (Gen.iblk0 V c 5 t : Vec Ideal S1x8 .f32) y = (V c main_v4 : S1x8.Idx → EReal) y := by
  obtain ⟨-, -, -, -, -, ⟨e0, e1⟩, -⟩ := idx_facts t
  unfold Gen.iblk0
  rw [View.read_apply]
  show V c main_v4 _ = V c main_v4 _
  refine congrArg (V c main_v4) ?_
  funext a
  apply Fin.ext
  match a with
  | ⟨0, _⟩ => show win0_5.index t 0 * 1 + 1 * (y 0).val = (y 0).val; rw [e0]; omega
  | ⟨1, _⟩ => show win0_5.index t 1 * 8 + 1 * (y 1).val = (y 1).val; rw [e1]; omega

/-- The target bias row's block at any point is the whole row. -/
theorem iblk_btgt (t : Fin cfg0.N) (y : S1x8.Idx) :
    (Gen.iblk0 V c 6 t : Vec Ideal S1x8 .f32) y = (V c main_v5 : S1x8.Idx → EReal) y := by
  obtain ⟨-, -, -, -, -, -, ⟨e0, e1⟩, -⟩ := idx_facts t
  unfold Gen.iblk0
  rw [View.read_apply]
  show V c main_v5 _ = V c main_v5 _
  refine congrArg (V c main_v5) ?_
  funext a
  apply Fin.ext
  match a with
  | ⟨0, _⟩ => show win0_6.index t 0 * 1 + 1 * (y 0).val = (y 0).val; rw [e0]; omega
  | ⟨1, _⟩ => show win0_6.index t 1 * 8 + 1 * (y 1).val = (y 1).val; rw [e1]; omega

/-! ## One point's block of a result is a block of the whole result

Stated over plain blocks and arrays: `x0` is rows `2000 T …` of `X`, the other blocks are their whole arrays. -/

/-- The skip payload at an entry of the block is the whole product at the entry's place in the array. -/
theorem point_skip (x0 : Vec Ideal S2000x256 .f32) (x2 : Vec Ideal S256x256 .f32)
    (X : FVec Ideal S20000x256 .f32) (W : FVec Ideal S256x256 .f32) (T : Nat)
    (hx : ∀ (y : S2000x256.Idx) (k : S20000x256.Idx), (k 0).val = 2000 * T + (y 0).val → (k 1).val = (y 1).val → x0 y = X k)
    (hw : ∀ y, x2 y = W y)
    (y : S2000x256.Idx) (i : S20000x256.Idx) (hi0 : (i 0).val = 2000 * T + (y 0).val) (hi1 : (i 1).val = (y 1).val) :
    Gen.k0_pay3 x0 x2 y = xw X W (i 0) (i 1) := by
  obtain ⟨p, q, rfl⟩ : ∃ (p : Fin 2000) (q : Fin 256), y = ix2 p q := ⟨y 0, y 1, eq_ix2 y⟩
  rw [pay3_apply]
  unfold xw
  have hq : (i 1 : Fin 256) = q := Fin.ext hi1
  rw [hq]
  refine Finset.sum_congr rfl fun k _ => ?_
  rw [hx (ix2 p k) (ix2 (i 0) k) hi0 rfl, hw]

/-- The same for the projection stored in the narrower format. -/
theorem point_proj (x0 : Vec Ideal S2000x256 .f32) (x1 : Vec Ideal S256x256 .f32)
    (X : FVec Ideal S20000x256 .f32) (W : FVec Ideal S256x256 .f32) (T : Nat)
    (hx : ∀ (y : S2000x256.Idx) (k : S20000x256.Idx), (k 0).val = 2000 * T + (y 0).val → (k 1).val = (y 1).val → x0 y = X k)
    (hw : ∀ y, x1 y = W y)
    (y : S2000x256.Idx) (i : S20000x256.Idx) (hi0 : (i 0).val = 2000 * T + (y 0).val) (hi1 : (i 1).val = (y 1).val) :
    Gen.k0_pay4 x0 x1 y = xw X W (i 0) (i 1) := by
  obtain ⟨p, q, rfl⟩ : ∃ (p : Fin 2000) (q : Fin 256), y = ix2 p q := ⟨y 0, y 1, eq_ix2 y⟩
  rw [pay4_apply]
  unfold xw
  have hq : (i 1 : Fin 256) = q := Fin.ext hi1
  rw [hq]
  refine Finset.sum_congr rfl fun k _ => ?_
  rw [hx (ix2 p k) (ix2 (i 0) k) hi0 rfl, hw]

/-- The source score's payload at an entry of the block is the score of the whole projection there. -/
theorem point_src (x0 : Vec Ideal S2000x256 .f32) (x1 : Vec Ideal S256x256 .f32) (x3 : Vec Ideal S256x8 .f32) (x5 : Vec Ideal S1x8 .f32)
    (X : FVec Ideal S20000x256 .f32) (W : FVec Ideal S256x256 .f32) (W3 : FVec Ideal S256x8 .f32) (B : FVec Ideal S1x8 .f32) (T : Nat)
    (hx : ∀ (y : S2000x256.Idx) (k : S20000x256.Idx), (k 0).val = 2000 * T + (y 0).val → (k 1).val = (y 1).val → x0 y = X k)
    (hw : ∀ y, x1 y = W y) (hw3 : ∀ y, x3 y = W3 y) (hb : ∀ y, x5 y = B y)
    (y : S2000x8.Idx) (i : S20000x8.Idx) (hi0 : (i 0).val = 2000 * T + (y 0).val) (hi1 : (i 1).val = (y 1).val) :
    Gen.k0_pay5 x0 x1 x3 x5 y = score (xw X W) W3 B (i 0) (i 1) := by
  obtain ⟨p, q, rfl⟩ : ∃ (p : Fin 2000) (q : Fin 8), y = ix2 p q := ⟨y 0, y 1, eq_ix2 y⟩
  rw [pay5_apply]
  unfold score xw
  have hq : (i 1 : Fin 8) = q := Fin.ext hi1
  rw [hq, hb]
  refine congrArg (· + B (ix2 0 q)) ?_
  refine Finset.sum_congr rfl fun k _ => ?_
  rw [hw3]
  refine congrArg (· * W3 (ix2 k q)) ?_
  refine Finset.sum_congr rfl fun l _ => ?_
  rw [hx (ix2 p l) (ix2 (i 0) l) hi0 rfl, hw]

/-- The same for the target score. -/
theorem point_tgt (x0 : Vec Ideal S2000x256 .f32) (x1 : Vec Ideal S256x256 .f32) (x4 : Vec Ideal S256x8 .f32) (x6 : Vec Ideal S1x8 .f32)
    (X : FVec Ideal S20000x256 .f32) (W : FVec Ideal S256x256 .f32) (W3 : FVec Ideal S256x8 .f32) (B : FVec Ideal S1x8 .f32) (T : Nat)
    (hx : ∀ (y : S2000x256.Idx) (k : S20000x256.Idx), (k 0).val = 2000 * T + (y 0).val → (k 1).val = (y 1).val → x0 y = X k)
    (hw : ∀ y, x1 y = W y) (hw3 : ∀ y, x4 y = W3 y) (hb : ∀ y, x6 y = B y)
    (y : S2000x8.Idx) (i : S20000x8.Idx) (hi0 : (i 0).val = 2000 * T + (y 0).val) (hi1 : (i 1).val = (y 1).val) :
    Gen.k0_pay6 x0 x1 x4 x6 y = score (xw X W) W3 B (i 0) (i 1) := by
  obtain ⟨p, q, rfl⟩ : ∃ (p : Fin 2000) (q : Fin 8), y = ix2 p q := ⟨y 0, y 1, eq_ix2 y⟩
  rw [pay6_apply]
  unfold score xw
  have hq : (i 1 : Fin 8) = q := Fin.ext hi1
  rw [hq, hb]
  refine congrArg (· + B (ix2 0 q)) ?_
  refine Finset.sum_congr rfl fun k _ => ?_
  rw [hw3]
  refine congrArg (· * W3 (ix2 k q)) ?_
  refine Finset.sum_congr rfl fun l _ => ?_
  rw [hx (ix2 p l) (ix2 (i 0) l) hi0 rfl, hw]

/-! ## Window 8: the projection, stored in the narrower format -/

/-- What the array ends holding. -/
abbrev G8 : S20000x256.Idx → EReal := fun i => xw (V c main_arg0) (V c main_arg2) (i 0) (i 1)

/-- What point `t` writes back is block `t` of that function. -/
theorem flushed8_eq (t : Fin cfg0.N) :
    (Gen.dat0 V c).flushed 8 t = ((cfg0.win 8).blk t).view.read (Elt Ideal) (G8 V c) := by
  show (cfg0.win 8).cut (grid0.coords t) ((Gen.dat0 V c).after 8 t) = _
  rw [Gen.after0_8]
  unfold Gen.out0_8
  rw [View.canon_unit_zero hz]
  simp only [View.ld_unit_zero (S := S2000x256) hz, View.ld_unit_zero (S := S256x256) hz]
  obtain ⟨-, -, -, -, -, -, -, ⟨e0, e1⟩, -⟩ := idx_facts t
  funext y
  show Gen.k0_pay4 (Gen.iblk0 V c 0 t) (Gen.iblk0 V c 1 t) y
      = xw (V c main_arg0) (V c main_arg2) ((((cfg0.win 8).blk t).view.emb y) 0) ((((cfg0.win 8).blk t).view.emb y) 1)
  refine point_proj (Gen.iblk0 V c 0 t) (Gen.iblk0 V c 1 t) (V c main_arg0) (V c main_arg2) t.val
    (fun y k h0 h1 => iblk_x V c t y k h0 h1) (fun y => iblk_wproj V c t y) y (((cfg0.win 8).blk t).view.emb y) ?_ ?_
  · show win0_8.index t 0 * 2000 + 1 * (y 0).val = 2000 * t.val + (y 0).val; rw [e0]; omega
  · show win0_8.index t 1 * 256 + 1 * (y 1).val = (y 1).val; rw [e1]; omega

/-- An index is in point `t`'s block iff each coordinate is in the block's range on its axis. -/
theorem mem_blk8 (t : Fin cfg0.N) (i : S20000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v6_1).slice (win0_8.rect t)).set ↔ _
  rw [View.set_slice_whole, Rect.mem_set_unit]
  exact Iff.rfl

/-- Row `r` lies in the block of point `r / 2000`. -/
theorem cover8 (i : S20000x256.Idx) :
    ∃ t : Fin cfg0.N, (cfg0.win 8).flush t = true ∧ i ∈ ((cfg0.win 8).blk t).view.set := by
  have hi0 : (i 0).val < 20000 := (i 0).isLt
  have hi1 : (i 1).val < 256 := (i 1).isLt
  have hN : cfg0.N = 10 := Gen.N_0
  let t : Fin cfg0.N := ⟨(i 0).val / 2000, by rw [hN]; omega⟩
  obtain ⟨-, -, -, -, -, -, -, ⟨e0, e1⟩, -⟩ := idx_facts t
  refine ⟨t, Gen.flush0_8 t, ?_⟩
  rw [mem_blk8]
  intro a
  match a with
  | ⟨0, _⟩ => show win0_8.index t 0 * 2000 ≤ (i 0).val ∧ (i 0).val < win0_8.index t 0 * 2000 + 2000; rw [e0]; show (i 0).val / 2000 * 2000 ≤ (i 0).val ∧ (i 0).val < (i 0).val / 2000 * 2000 + 2000; omega
  | ⟨1, _⟩ => show win0_8.index t 1 * 256 ≤ (i 1).val ∧ (i 1).val < win0_8.index t 1 * 256 + 256; rw [e1]; omega

/-! ## Window 9: the skip projection -/

/-- What the array ends holding. -/
abbrev G9 : S20000x256.Idx → EReal := fun i => xw (V c main_arg0) (V c main_arg7) (i 0) (i 1)

/-- What point `t` writes back is block `t` of that function. -/
theorem flushed9_eq (t : Fin cfg0.N) :
    (Gen.dat0 V c).flushed 9 t = ((cfg0.win 9).blk t).view.read (Elt Ideal) (G9 V c) := by
  show (cfg0.win 9).cut (grid0.coords t) ((Gen.dat0 V c).after 9 t) = _
  rw [Gen.after0_9]
  unfold Gen.out0_9
  rw [View.canon_unit_zero hz]
  simp only [View.ld_unit_zero (S := S2000x256) hz, View.ld_unit_zero (S := S256x256) hz]
  obtain ⟨-, -, -, -, -, -, -, -, ⟨e0, e1⟩, -⟩ := idx_facts t
  funext y
  show Gen.k0_pay3 (Gen.iblk0 V c 0 t) (Gen.iblk0 V c 2 t) y
      = xw (V c main_arg0) (V c main_arg7) ((((cfg0.win 9).blk t).view.emb y) 0) ((((cfg0.win 9).blk t).view.emb y) 1)
  refine point_skip (Gen.iblk0 V c 0 t) (Gen.iblk0 V c 2 t) (V c main_arg0) (V c main_arg7) t.val
    (fun y k h0 h1 => iblk_x V c t y k h0 h1) (fun y => iblk_wskip V c t y) y (((cfg0.win 9).blk t).view.emb y) ?_ ?_
  · show win0_9.index t 0 * 2000 + 1 * (y 0).val = 2000 * t.val + (y 0).val; rw [e0]; omega
  · show win0_9.index t 1 * 256 + 1 * (y 1).val = (y 1).val; rw [e1]; omega

/-- An index is in point `t`'s block iff each coordinate is in the block's range on its axis. -/
theorem mem_blk9 (t : Fin cfg0.N) (i : S20000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v6_2).slice (win0_9.rect t)).set ↔ _
  rw [View.set_slice_whole, Rect.mem_set_unit]
  exact Iff.rfl

/-- Row `r` lies in the block of point `r / 2000`. -/
theorem cover9 (i : S20000x256.Idx) :
    ∃ t : Fin cfg0.N, (cfg0.win 9).flush t = true ∧ i ∈ ((cfg0.win 9).blk t).view.set := by
  have hi0 : (i 0).val < 20000 := (i 0).isLt
  have hi1 : (i 1).val < 256 := (i 1).isLt
  have hN : cfg0.N = 10 := Gen.N_0
  let t : Fin cfg0.N := ⟨(i 0).val / 2000, by rw [hN]; omega⟩
  obtain ⟨-, -, -, -, -, -, -, -, ⟨e0, e1⟩, -⟩ := idx_facts t
  refine ⟨t, Gen.flush0_9 t, ?_⟩
  rw [mem_blk9]
  intro a
  match a with
  | ⟨0, _⟩ => show win0_9.index t 0 * 2000 ≤ (i 0).val ∧ (i 0).val < win0_9.index t 0 * 2000 + 2000; rw [e0]; show (i 0).val / 2000 * 2000 ≤ (i 0).val ∧ (i 0).val < (i 0).val / 2000 * 2000 + 2000; omega
  | ⟨1, _⟩ => show win0_9.index t 1 * 256 ≤ (i 1).val ∧ (i 1).val < win0_9.index t 1 * 256 + 256; rw [e1]; omega

/-! ## Window 10: the source scores -/

/-- What the array ends holding. -/
abbrev G10 : S20000x8.Idx → EReal := fun i => score (xw (V c main_arg0) (V c main_arg2)) (V c main_arg3) (V c main_v4) (i 0) (i 1)

/-- What point `t` writes back is block `t` of that function. -/
theorem flushed10_eq (t : Fin cfg0.N) :
    (Gen.dat0 V c).flushed 10 t = ((cfg0.win 10).blk t).view.read (Elt Ideal) (G10 V c) := by
  show (cfg0.win 10).cut (grid0.coords t) ((Gen.dat0 V c).after 10 t) = _
  rw [Gen.after0_10]
  unfold Gen.out0_10
  rw [View.canon_unit_zero hz]
  simp only [View.ld_unit_zero (S := S2000x256) hz, View.ld_unit_zero (S := S256x256) hz, View.ld_unit_zero (S := S256x8) hz, View.ld_unit_zero (S := S1x8) hz]
  obtain ⟨-, -, -, -, -, -, -, -, -, ⟨e0, e1⟩, -⟩ := idx_facts t
  funext y
  show Gen.k0_pay5 (Gen.iblk0 V c 0 t) (Gen.iblk0 V c 1 t) (Gen.iblk0 V c 3 t) (Gen.iblk0 V c 5 t) y
      = score (xw (V c main_arg0) (V c main_arg2)) (V c main_arg3) (V c main_v4) ((((cfg0.win 10).blk t).view.emb y) 0) ((((cfg0.win 10).blk t).view.emb y) 1)
  refine point_src (Gen.iblk0 V c 0 t) (Gen.iblk0 V c 1 t) (Gen.iblk0 V c 3 t) (Gen.iblk0 V c 5 t)
    (V c main_arg0) (V c main_arg2) (V c main_arg3) (V c main_v4) t.val
    (fun y k h0 h1 => iblk_x V c t y k h0 h1) (fun y => iblk_wproj V c t y) (fun y => iblk_wsrc V c t y) (fun y => iblk_bsrc V c t y)
    y (((cfg0.win 10).blk t).view.emb y) ?_ ?_
  · show win0_10.index t 0 * 2000 + 1 * (y 0).val = 2000 * t.val + (y 0).val; rw [e0]; omega
  · show win0_10.index t 1 * 8 + 1 * (y 1).val = (y 1).val; rw [e1]; omega

/-- An index is in point `t`'s block iff each coordinate is in the block's range on its axis. -/
theorem mem_blk10 (t : Fin cfg0.N) (i : S20000x8.Idx) :
    i ∈ ((cfg0.win 10).blk t).view.set ↔ ∀ a : Fin 2, win0_10.index t a * S2000x8.size a ≤ (i a).val ∧ (i a).val < win0_10.index t a * S2000x8.size a + S2000x8.size a := by
  show i ∈ ((View.whole main_v6_3).slice (win0_10.rect t)).set ↔ _
  rw [View.set_slice_whole, Rect.mem_set_unit]
  exact Iff.rfl

/-- Row `r` lies in the block of point `r / 2000`. -/
theorem cover10 (i : S20000x8.Idx) :
    ∃ t : Fin cfg0.N, (cfg0.win 10).flush t = true ∧ i ∈ ((cfg0.win 10).blk t).view.set := by
  have hi0 : (i 0).val < 20000 := (i 0).isLt
  have hi1 : (i 1).val < 8 := (i 1).isLt
  have hN : cfg0.N = 10 := Gen.N_0
  let t : Fin cfg0.N := ⟨(i 0).val / 2000, by rw [hN]; omega⟩
  obtain ⟨-, -, -, -, -, -, -, -, -, ⟨e0, e1⟩, -⟩ := idx_facts t
  refine ⟨t, Gen.flush0_10 t, ?_⟩
  rw [mem_blk10]
  intro a
  match a with
  | ⟨0, _⟩ => show win0_10.index t 0 * 2000 ≤ (i 0).val ∧ (i 0).val < win0_10.index t 0 * 2000 + 2000; rw [e0]; show (i 0).val / 2000 * 2000 ≤ (i 0).val ∧ (i 0).val < (i 0).val / 2000 * 2000 + 2000; omega
  | ⟨1, _⟩ => show win0_10.index t 1 * 8 ≤ (i 1).val ∧ (i 1).val < win0_10.index t 1 * 8 + 8; rw [e1]; omega

/-! ## Window 11: the target scores -/

/-- What the array ends holding. -/
abbrev G11 : S20000x8.Idx → EReal := fun i => score (xw (V c main_arg0) (V c main_arg2)) (V c main_arg5) (V c main_v5) (i 0) (i 1)

/-- What point `t` writes back is block `t` of that function. -/
theorem flushed11_eq (t : Fin cfg0.N) :
    (Gen.dat0 V c).flushed 11 t = ((cfg0.win 11).blk t).view.read (Elt Ideal) (G11 V c) := by
  show (cfg0.win 11).cut (grid0.coords t) ((Gen.dat0 V c).after 11 t) = _
  rw [Gen.after0_11]
  unfold Gen.out0_11
  rw [View.canon_unit_zero hz]
  simp only [View.ld_unit_zero (S := S2000x256) hz, View.ld_unit_zero (S := S256x256) hz, View.ld_unit_zero (S := S256x8) hz, View.ld_unit_zero (S := S1x8) hz]
  obtain ⟨-, -, -, -, -, -, -, -, -, -, ⟨e0, e1⟩⟩ := idx_facts t
  funext y
  show Gen.k0_pay6 (Gen.iblk0 V c 0 t) (Gen.iblk0 V c 1 t) (Gen.iblk0 V c 4 t) (Gen.iblk0 V c 6 t) y
      = score (xw (V c main_arg0) (V c main_arg2)) (V c main_arg5) (V c main_v5) ((((cfg0.win 11).blk t).view.emb y) 0) ((((cfg0.win 11).blk t).view.emb y) 1)
  refine point_tgt (Gen.iblk0 V c 0 t) (Gen.iblk0 V c 1 t) (Gen.iblk0 V c 4 t) (Gen.iblk0 V c 6 t)
    (V c main_arg0) (V c main_arg2) (V c main_arg5) (V c main_v5) t.val
    (fun y k h0 h1 => iblk_x V c t y k h0 h1) (fun y => iblk_wproj V c t y) (fun y => iblk_wtgt V c t y) (fun y => iblk_btgt V c t y)
    y (((cfg0.win 11).blk t).view.emb y) ?_ ?_
  · show win0_11.index t 0 * 2000 + 1 * (y 0).val = 2000 * t.val + (y 0).val; rw [e0]; omega
  · show win0_11.index t 1 * 8 + 1 * (y 1).val = (y 1).val; rw [e1]; omega

/-- An index is in point `t`'s block iff each coordinate is in the block's range on its axis. -/
theorem mem_blk11 (t : Fin cfg0.N) (i : S20000x8.Idx) :
    i ∈ ((cfg0.win 11).blk t).view.set ↔ ∀ a : Fin 2, win0_11.index t a * S2000x8.size a ≤ (i a).val ∧ (i a).val < win0_11.index t a * S2000x8.size a + S2000x8.size a := by
  show i ∈ ((View.whole main_v6_4).slice (win0_11.rect t)).set ↔ _
  rw [View.set_slice_whole, Rect.mem_set_unit]
  exact Iff.rfl

/-- Row `r` lies in the block of point `r / 2000`. -/
theorem cover11 (i : S20000x8.Idx) :
    ∃ t : Fin cfg0.N, (cfg0.win 11).flush t = true ∧ i ∈ ((cfg0.win 11).blk t).view.set := by
  have hi0 : (i 0).val < 20000 := (i 0).isLt
  have hi1 : (i 1).val < 8 := (i 1).isLt
  have hN : cfg0.N = 10 := Gen.N_0
  let t : Fin cfg0.N := ⟨(i 0).val / 2000, by rw [hN]; omega⟩
  obtain ⟨-, -, -, -, -, -, -, -, -, -, ⟨e0, e1⟩⟩ := idx_facts t
  refine ⟨t, Gen.flush0_11 t, ?_⟩
  rw [mem_blk11]
  intro a
  match a with
  | ⟨0, _⟩ => show win0_11.index t 0 * 2000 ≤ (i 0).val ∧ (i 0).val < win0_11.index t 0 * 2000 + 2000; rw [e0]; show (i 0).val / 2000 * 2000 ≤ (i 0).val ∧ (i 0).val < (i 0).val / 2000 * 2000 + 2000; omega
  | ⟨1, _⟩ => show win0_11.index t 1 * 8 ≤ (i 1).val ∧ (i 1).val < win0_11.index t 1 * 8 + 8; rw [e1]; omega

/-! ## The four arrays after the region -/

/-- The projection array: row `r` of `x` against column `j` of the projection weights. -/
theorem final8 (r : Fin 20000) (j : Fin 256) :
    ((Gen.dat0 V c).arrAt 8 cfg0.N : S20000x256.Idx → EReal) (ix2 r j) = xw (V c main_arg0) (V c main_arg2) r j :=
  congrFun ((Gen.dat0 V c).arrAt_eq_of_cover 8 (G8 V c) (fun t _ => flushed8_eq V c t) cover8) (ix2 r j)

/-- The skip array: row `r` of `x` against column `j` of the skip weights. -/
theorem final9 (r : Fin 20000) (j : Fin 256) :
    ((Gen.dat0 V c).arrAt 9 cfg0.N : S20000x256.Idx → EReal) (ix2 r j) = xw (V c main_arg0) (V c main_arg7) r j :=
  congrFun ((Gen.dat0 V c).arrAt_eq_of_cover 9 (G9 V c) (fun t _ => flushed9_eq V c t) cover9) (ix2 r j)

/-- The source scores: row `r` of the projection against column `h` of the source weights, plus the bias. -/
theorem final10 (r : Fin 20000) (h : Fin 8) :
    ((Gen.dat0 V c).arrAt 10 cfg0.N : S20000x8.Idx → EReal) (ix2 r h)
      = score (xw (V c main_arg0) (V c main_arg2)) (V c main_arg3) (V c main_v4) r h :=
  congrFun ((Gen.dat0 V c).arrAt_eq_of_cover 10 (G10 V c) (fun t _ => flushed10_eq V c t) cover10) (ix2 r h)

/-- The target scores: row `r` of the projection against column `h` of the target weights, plus the bias. -/
theorem final11 (r : Fin 20000) (h : Fin 8) :
    ((Gen.dat0 V c).arrAt 11 cfg0.N : S20000x8.Idx → EReal) (ix2 r h)
      = score (xw (V c main_arg0) (V c main_arg2)) (V c main_arg5) (V c main_v5) r h :=
  congrFun ((Gen.dat0 V c).arrAt_eq_of_cover 11 (G11 V c) (fun t _ => flushed11_eq V c t) cover11) (ix2 r h)

/-! ## The reference's two products at an index

The host's `dot_general` over the whole arrays, with one contracted axis, is the same sum over the contracted
coordinate, with no accumulator and whatever the schedule. -/

section Reference
variable [Cert.ReferenceIdeal.Facts]

abbrev RD256 := Cert.ReferenceIdeal.dot_S20000x256_S256x256_S20000x256_1_0_0_1_n_n
abbrev RD8 := Cert.ReferenceIdeal.dot_S20000x256_S256x8_S20000x8_1_0_0_1_n_n

theorem rlhs256 (p : Fin 20000) (j c : Fin 256) :
    RD256.lhsIdx (ix2 p j) ((contrEquiv1 RD256 256 rfl rfl).symm c) = ix2 p c := by
  have c2 := contrEquiv1_symm_val RD256 256 rfl rfl c
  funext ax; apply Fin.ext
  match ax with
  | ⟨0, _⟩ => simp [DotDims.lhsIdx, RD256, Cert.ReferenceIdeal.dot_S20000x256_S256x256_S20000x256_1_0_0_1_n_n]; rfl
  | ⟨1, _⟩ => simp [DotDims.lhsIdx, RD256, Cert.ReferenceIdeal.dot_S20000x256_S256x256_S20000x256_1_0_0_1_n_n]; exact c2

theorem rrhs256 (p : Fin 20000) (j c : Fin 256) :
    RD256.rhsIdx (ix2 p j) ((contrEquiv1 RD256 256 rfl rfl).symm c) = ix2 c j := by
  have c2 := contrEquiv1_symm_val RD256 256 rfl rfl c
  funext ax; apply Fin.ext
  match ax with
  | ⟨0, _⟩ => simp [DotDims.rhsIdx, RD256, Cert.ReferenceIdeal.dot_S20000x256_S256x256_S20000x256_1_0_0_1_n_n]; exact c2
  | ⟨1, _⟩ => simp [DotDims.rhsIdx, RD256, Cert.ReferenceIdeal.dot_S20000x256_S256x256_S20000x256_1_0_0_1_n_n]; rfl

theorem rlhs8 (p : Fin 20000) (j : Fin 8) (c : Fin 256) :
    RD8.lhsIdx (ix2 p j) ((contrEquiv1 RD8 256 rfl rfl).symm c) = ix2 p c := by
  have c2 := contrEquiv1_symm_val RD8 256 rfl rfl c
  funext ax; apply Fin.ext
  match ax with
  | ⟨0, _⟩ => simp [DotDims.lhsIdx, RD8, Cert.ReferenceIdeal.dot_S20000x256_S256x8_S20000x8_1_0_0_1_n_n]; rfl
  | ⟨1, _⟩ => simp [DotDims.lhsIdx, RD8, Cert.ReferenceIdeal.dot_S20000x256_S256x8_S20000x8_1_0_0_1_n_n]; exact c2

theorem rrhs8 (p : Fin 20000) (j : Fin 8) (c : Fin 256) :
    RD8.rhsIdx (ix2 p j) ((contrEquiv1 RD8 256 rfl rfl).symm c) = ix2 c j := by
  have c2 := contrEquiv1_symm_val RD8 256 rfl rfl c
  funext ax; apply Fin.ext
  match ax with
  | ⟨0, _⟩ => simp [DotDims.rhsIdx, RD8, Cert.ReferenceIdeal.dot_S20000x256_S256x8_S20000x8_1_0_0_1_n_n]; exact c2
  | ⟨1, _⟩ => simp [DotDims.rhsIdx, RD8, Cert.ReferenceIdeal.dot_S20000x256_S256x8_S20000x8_1_0_0_1_n_n]; rfl

/-- The whole [20000,256] by [256,256] product at row `r` and column `j`. -/
theorem ref_dot256 (x : FVec Ideal S20000x256 .f32) (w : FVec Ideal S256x256 .f32) (r : Fin 20000) (j : Fin 256) :
    Host.dotGeneral (F := Ideal) Cert.ReferenceIdeal.dot_S20000x256_S256x256_S20000x256_1_0_0_1_n_n none x w (ix2 r j)
      = ∑ k : Fin 256, x (ix2 r k) * w (ix2 k j) := by
  show FloatOps.dotGeneral RD256 none _ x w (ix2 r j) = _
  rw [Ideal.dotGeneral_apply, ← Equiv.sum_comp (contrEquiv1 RD256 256 rfl rfl).symm]
  refine Finset.sum_congr rfl fun c _ => ?_
  rw [rlhs256, rrhs256]

/-- The whole [20000,256] by [256,8] product at row `r` and column `h`. -/
theorem ref_dot8 (p : FVec Ideal S20000x256 .f32) (w : FVec Ideal S256x8 .f32) (r : Fin 20000) (h : Fin 8) :
    Host.dotGeneral (F := Ideal) Cert.ReferenceIdeal.dot_S20000x256_S256x8_S20000x8_1_0_0_1_n_n none p w (ix2 r h)
      = ∑ k : Fin 256, p (ix2 r k) * w (ix2 k h) := by
  show FloatOps.dotGeneral RD8 none _ p w (ix2 r h) = _
  rw [Ideal.dotGeneral_apply, ← Equiv.sum_comp (contrEquiv1 RD8 256 rfl rfl).symm]
  refine Finset.sum_congr rfl fun c _ => ?_
  rw [rlhs8, rrhs8]

end Reference

end Cert.KernelIdeal.NodeProj

end
-- ==== Proof.ExpFinal.lean ====
/-
  The values the last two kernel regions of the layer leave, and the pointwise laws that join the kernel's spelling
  of the layer to the reference's.

  Region 2 (edge exponentials): the output's row block t is the input's row block t, every entry minus ONE scalar (the
  single entry of a [1,1] array), exponentiated.  The ten row blocks of 2000 rows tile the [20000,128] array, so the
  whole output is that one pointwise function of the whole input.

  Region 3 (the node stage): the output's row block t is the sum of the two inputs' row blocks t plus the one row of a
  [1,256] array added to every row, passed through elu.  Again the ten row blocks tile the [20000,256] array.

  In both regions a block's entry (p, q) at grid point t is the array's entry (2000 t + p, q); the row r of the array
  lies in the block of point r / 2000.

  The pure laws: the reference's elu (a select around exp(x) - 1 applied to a clamped argument, times one) is the
  kernel's elu (a select between x and exp(x) - 1) on every extended real; a reshape there and back is the identity;
  a reshape commutes with every entry-by-entry operation and with a constant array.
-/
import proofs.«164815_j20770461843840_2_alg».proof.Proof.Gen.KernelIdeal.Frame
import proofs.«164815_j20770461843840_2_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.ExpFinal

open Cert.KernelIdeal Cert.KernelIdeal.Gen

section Regions

variable (V : (c : Dev nD) → (b : Ref sig .tc) → Buf (Elt Ideal) ((c : Thread nD τ).loc b)) (c : Dev nD)

/-- The zero offsets of a whole-block access, as a constant function. -/
theorem hz : (![0, 0] : Fin 2 → Nat) = fun _ => 0 := funext fun a => by fin_cases a <;> rfl

/-! ## Region 2: the edge exponentials -/

/-- The edge stage's whole-array function: every entry shifted by one scalar, then exponentiated. -/
def expShift (a : FVec Ideal S20000x128 .f32) (g : EReal) : FVec Ideal S20000x128 .f32 :=
  exp (subf a (broadcast S20000x128 g))

/-- The body's stored value: the loaded block minus the one entry of the [1,1] block, exponentiated. -/
theorem pay2_eq (x0 : Vec Ideal S2000x128 .f32) (x1 : Vec Ideal S1x1 .f32) :
    k2_pay1 x0 x1 = exp (subf x0 (broadcast S2000x128 ((x1 : S1x1.Idx → EReal) (ix2 0 0)))) := by
  unfold k2_pay1
  simp only [shapeCast_self]
  have e : extractAt ![0, 0] x1 inpos_S1x1_p0_0 = (x1 : S1x1.Idx → EReal) (ix2 0 0) := by
    unfold extractAt
    exact congrArg x1 (funext fun a => Fin.ext (by match a with | ⟨0, _⟩ => rfl | ⟨1, _⟩ => rfl))
  rw [e]

/-- The index maps over the grid: the row-block windows sit at block (t, 0), the scalar window at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is row block t of the whole-array function: a block's entry (p, q) is the array's
    entry (2000 t + p, q) in the input as in the output, and the scalar window's one entry is the [1,1] array's. -/
theorem flushed2_eq (t : Fin cfg2.N) :
    (dat2 V c).flushed 2 t = ((cfg2.win 2).blk t).view.read (Elt Ideal)
      (expShift (V c main_v23_0) ((V c main_v25 : S1x1.Idx → EReal) (ix2 0 0))) := by
  show (cfg2.win 2).cut (grid2.coords t) ((dat2 V c).after 2 t) = _
  rw [after2_2]
  unfold out2_2
  rw [View.canon_unit_zero hz]
  simp only [View.ld_unit_zero (S := S2000x128) hz, View.ld_unit_zero (S := S1x1) hz]
  rw [pay2_eq]
  obtain ⟨e0, e1, e2, e3, e4, e5⟩ := idx_facts2 t
  funext j
  show FloatOps.exp (F := Ideal) (φ := .f32) (FloatOps.subf (F := Ideal) (φ := .f32) (V c main_v23_0 (((cfg2.win 0).blk t).view.emb j)) (V c main_v25 (((cfg2.win 1).blk t).view.emb (ix2 0 0))))
     = FloatOps.exp (F := Ideal) (φ := .f32) (FloatOps.subf (F := Ideal) (φ := .f32) (V c main_v23_0 (((cfg2.win 2).blk t).view.emb j)) (V c main_v25 (ix2 0 0)))
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb (ix2 0 0) = (ix2 0 0 : S1x1.Idx) := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  rw [h0, h1]

/-- An index of the array is in point t's block iff each coordinate is in the block's range on its axis. -/
theorem mem_blk2 (t : Fin cfg2.N) (i : S20000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v26).slice (win2_2.rect t)).set ↔ _
  rw [View.set_slice_whole, Rect.mem_set_unit]
  exact Iff.rfl

/-- Row r of the array lies in the block of point r / 2000: the ten row blocks tile the array. -/
theorem cover2 (i : S20000x128.Idx) : ∃ t : Fin cfg2.N, (cfg2.win 2).flush t = true ∧ i ∈ ((cfg2.win 2).blk t).view.set := by
  have hN : cfg2.N = 10 := N_2
  have hi0 : (i 0).val < 20000 := (i 0).isLt
  have hi1 : (i 1).val < 128 := (i 1).isLt
  obtain ⟨t, ht⟩ : ∃ t : Fin cfg2.N, t.val = (i 0).val / 2000 := ⟨⟨(i 0).val / 2000, by omega⟩, rfl⟩
  refine ⟨t, flush2_2 t, ?_⟩
  rw [mem_blk2]
  obtain ⟨e0, e1, e2, e3, e4, e5⟩ := idx_facts2 t
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- REGION 2's output array after the region: every entry of the first window's array minus the one entry of the
    [1,1] array, exponentiated. -/
theorem final2_2 : @Eq (FVec Ideal S20000x128 .f32) ((dat2 V c).arrAt 2 cfg2.N)
    (exp (subf (V c main_v23_0) (broadcast S20000x128 ((V c main_v25 : S1x1.Idx → EReal) (ix2 0 0))))) :=
  (dat2 V c).arrAt_eq_of_cover 2 (expShift (V c main_v23_0) ((V c main_v25 : S1x1.Idx → EReal) (ix2 0 0)))
    (fun t _ => flushed2_eq V c t) cover2

/-! ## Region 3: the node stage -/

/-- The scalar elu on extended reals: x where x > 0, exp x - 1 elsewhere. -/
def eluS (x : EReal) : EReal :=
  Scalar.select (FloatOps.cmpf (F := Ideal) (φ := .f32) .ogt x (Scalar.ofBits .f32 0x00000000#32)) x
    (FloatOps.subf (F := Ideal) (φ := .f32) (FloatOps.exp (F := Ideal) (φ := .f32) x) (Scalar.ofBits .f32 0x3F800000#32))

/-- The array-level elu is the scalar one entry by entry. -/
theorem eluK_eq_eluS {s : Shape} (x : FVec Ideal s .f32) (i : s.Idx) : Cert.Spec.eluK x i = eluS (x i) := rfl

/-- The node stage's whole-array function: the two [20000,256] arrays added, the one row of the [1,256] array added
    to every row, then elu. -/
def finalNode (a b : FVec Ideal S20000x256 .f32) (bias : FVec Ideal S1x256 .f32) : FVec Ideal S20000x256 .f32 :=
  Cert.Spec.eluK (addf (addf a b) (fun i => bias (ix2 0 (i 1))))

/-- The body's stored value: the two loaded blocks added, the [1,256] block's row added to every row, then elu. -/
theorem pay3_eq (x0 x1 : Vec Ideal S2000x256 .f32) (x2 : Vec Ideal S1x256 .f32) :
    k3_pay1 x0 x1 x2 = Cert.Spec.eluK (addf (addf x0 x1) (fun j => (x2 : S1x256.Idx → EReal) (ix2 0 (j 1)))) := by
  unfold k3_pay1
  simp only [shapeCast_self]
  have e : broadcastTo S2000x256 x2 broadcasts_S1x256_S2000x256 = fun j => (x2 : S1x256.Idx → EReal) (ix2 0 (j 1)) := by
    funext j
    obtain ⟨p, q, rfl⟩ : ∃ (p : Fin 2000) (q : Fin 256), j = ix2 p q := ⟨j 0, j 1, eq_ix2 j⟩
    exact broadcastTo_1b_ab_apply x2 broadcasts_S1x256_S2000x256 p q
  rw [e]
  rfl

/-- The index maps over the grid: the row-block windows sit at block (t, 0), the bias window at (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is row block t of the whole-array function: a block's entry (p, q) is the array's
    entry (2000 t + p, q) in both inputs as in the output, and the bias window's row is the [1,256] array's. -/
theorem flushed3_eq (t : Fin cfg3.N) :
    (dat3 V c).flushed 3 t = ((cfg3.win 3).blk t).view.read (Elt Ideal)
      (finalNode (V c main_v56) (V c main_v6_2) (V c main_v57)) := by
  show (cfg3.win 3).cut (grid3.coords t) ((dat3 V c).after 3 t) = _
  rw [after3_3]
  unfold out3_3
  rw [View.canon_unit_zero hz]
  simp only [View.ld_unit_zero (S := S2000x256) hz, View.ld_unit_zero (S := S1x256) hz]
  rw [pay3_eq]
  obtain ⟨e0, e1, e2, e3, e4, e5, e6, e7⟩ := idx_facts3 t
  funext j
  show eluS (FloatOps.addf (F := Ideal) (φ := .f32) (FloatOps.addf (F := Ideal) (φ := .f32) (V c main_v56 (((cfg3.win 0).blk t).view.emb j)) (V c main_v6_2 (((cfg3.win 1).blk t).view.emb j))) (V c main_v57 (((cfg3.win 2).blk t).view.emb (ix2 0 (j 1) : S1x256.Idx))))
     = eluS (FloatOps.addf (F := Ideal) (φ := .f32) (FloatOps.addf (F := Ideal) (φ := .f32) (V c main_v56 (((cfg3.win 3).blk t).view.emb j)) (V c main_v6_2 (((cfg3.win 3).blk t).view.emb j))) (V c main_v57 (ix2 0 ((((cfg3.win 3).blk t).view.emb j) 1) : S1x256.Idx)))
  have h0 : ((cfg3.win 0).blk t).view.emb j = ((cfg3.win 3).blk t).view.emb j := by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 256 + 1 * (j 1).val = win3_3.index t (1 : Fin 2) * 256 + 1 * (j 1).val; omega
  have h1 : ((cfg3.win 1).blk t).view.emb j = ((cfg3.win 3).blk t).view.emb j := by
    funext a; apply Fin.ext
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 256 + 1 * (j 1).val = win3_3.index t (1 : Fin 2) * 256 + 1 * (j 1).val; omega
  have h2 : ((cfg3.win 2).blk t).view.emb (ix2 0 (j 1) : S1x256.Idx) = (ix2 0 ((((cfg3.win 3).blk t).view.emb j) 1) : S1x256.Idx) := by
    funext a; apply Fin.ext
    match a with
    | ⟨0, _⟩ => show win3_2.index t (0 : Fin 2) * 1 + 1 * 0 = 0; omega
    | ⟨1, _⟩ => show win3_2.index t (1 : Fin 2) * 256 + 1 * (j 1).val = win3_3.index t (1 : Fin 2) * 256 + 1 * (j 1).val; omega
  rw [h0, h1, h2]

/-- An index of the array is in point t's block iff each coordinate is in the block's range on its axis. -/
theorem mem_blk3 (t : Fin cfg3.N) (i : S20000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v58).slice (win3_3.rect t)).set ↔ _
  rw [View.set_slice_whole, Rect.mem_set_unit]
  exact Iff.rfl

/-- Row r of the array lies in the block of point r / 2000: the ten row blocks tile the array. -/
theorem cover3 (i : S20000x256.Idx) : ∃ t : Fin cfg3.N, (cfg3.win 3).flush t = true ∧ i ∈ ((cfg3.win 3).blk t).view.set := by
  have hN : cfg3.N = 10 := N_3
  have hi0 : (i 0).val < 20000 := (i 0).isLt
  have hi1 : (i 1).val < 256 := (i 1).isLt
  obtain ⟨t, ht⟩ : ∃ t : Fin cfg3.N, t.val = (i 0).val / 2000 := ⟨⟨(i 0).val / 2000, by omega⟩, rfl⟩
  refine ⟨t, flush3_3 t, ?_⟩
  rw [mem_blk3]
  obtain ⟨e0, e1, e2, e3, e4, e5, e6, e7⟩ := idx_facts3 t
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- REGION 3's output array after the region: the two [20000,256] arrays added, the one row of the [1,256] array
    added to every row, then elu. -/
theorem final3_3 : @Eq (FVec Ideal S20000x256 .f32) ((dat3 V c).arrAt 3 cfg3.N)
    (Cert.Spec.eluK (addf (addf (V c main_v56) (V c main_v6_2)) (fun i => (V c main_v57 : S1x256.Idx → EReal) (ix2 0 (i 1))))) :=
  (dat3 V c).arrAt_eq_of_cover 3 (finalNode (V c main_v56) (V c main_v6_2) (V c main_v57))
    (fun t _ => flushed3_eq V c t) cover3

end Regions

/-! ## The pure laws -/

section Pure

/-- The f32 word of 1.0 is the extended real 1. -/
theorem ofBits_one_f32 : Ideal.ofBits .f32 0x3F800000#32 = 1 := by
  simp [Ideal.ofBits, Ideal.ieee, -EReal.coe_mul]; norm_num

/-- On every extended real: a select on "a > 0" between a and 1 * (exp of (a clamped to 0 where a > 0) - 1) is the
    select between a and exp a - 1.  Where a > 0 both are a; elsewhere the clamp leaves a, and 1 * y = y. -/
theorem elu_scalar (a : EReal) :
    Scalar.select (Ideal.cmp .ogt a 0) a (1 * (Ideal.exp (Scalar.select (Ideal.cmp .ogt a 0) 0 a) - 1))
      = Scalar.select (Ideal.cmp .ogt a 0) a (Ideal.exp a - 1) := by
  by_cases h : (0 : EReal) < a
  · simp [Scalar.select, Ideal.cmp, h]
  · simp [Scalar.select, Ideal.cmp, h]

/-- The reference's elu — compare with 0, clamp the argument to 0 where positive, exp(.) - 1 on the host, times 1,
    select — is the kernel's elu, entry by entry, on every extended real. -/
theorem elu_ref_eq {s : Shape} (hb : (⟨0, ![]⟩ : Shape).BroadcastsInDim s (![] : Fin 0 → Fin s.rank)) (x : FVec Ideal s .f32) :
    select (cmpf .ogt x (broadcastInDim s ![] hb (constant (F := Ideal) ⟨0, ![]⟩ .f32 0x00000000#32))) x
      (mulf (broadcastInDim s ![] hb (constant (F := Ideal) ⟨0, ![]⟩ .f32 0x3F800000#32))
        (Host.expm1 (select (cmpf .ogt x (broadcastInDim s ![] hb (constant (F := Ideal) ⟨0, ![]⟩ .f32 0x00000000#32)))
          (broadcastInDim s ![] hb (id (constant (F := Ideal) ⟨0, ![]⟩ .f32 0x00000000#32))) x)))
      = Cert.Spec.eluK x := by
  funext i
  have hc : ∀ b : BitVec 32, broadcastInDim s ![] hb (constant (F := Ideal) ⟨0, ![]⟩ .f32 b) i = Ideal.ofBits .f32 b :=
    fun b => broadcastInDim_apply ![] hb _ i ix0 (fun a => a.elim0)
  have hs : ∀ b : BitVec 32, Scalar.ofBits (F := Ideal) .f32 b = Ideal.ofBits .f32 b := fun _ => rfl
  have he : ∀ (v : FVec Ideal s .f32), Host.expm1 v i = Ideal.exp (v i) - 1 := fun _ => rfl
  rw [Cert.Spec.eluK_apply]
  simp only [select_apply, cmpf_apply, mulf_apply, he, id, hc, hs, Ideal.cmpf_def, Ideal.exp_def, subf_apply,
    Ideal.ofBits_zero_f32, ofBits_one_f32]
  exact elu_scalar (x i)

/-- The host's exponential is the kernel's: one function of the extended reals. -/
theorem host_exp_eq {s : Shape} (x : FVec Ideal s .f32) : Host.exp x = exp x := rfl

/-! ### Reshapes

A reshape re-indexes an array by the row-major position: entry j of the result is the entry of the operand with the
same position.  So it undoes itself there and back, and it commutes with everything that acts entry by entry. -/

section Reshape
variable {s t : Shape} {φ : FTy}

/-- A reshape there and back is the identity. -/
theorem shapeCast_roundtrip {α : Type} (x : s.Idx → α) (h1 : s.ShapeCasts t) (h2 : t.ShapeCasts s) :
    shapeCast s (shapeCast t x h1) h2 = x := shapeCast_shapeCast x h1 h2

/-- A reshape commutes with any entry-by-entry function … -/
theorem shapeCast_map {α β : Type} (f : α → β) (x : s.Idx → α) (h : s.ShapeCasts t) :
    shapeCast t (fun i => f (x i)) h = fun j => f (shapeCast t x h j) := rfl
/-- … of two arrays as well … -/
theorem shapeCast_map₂ {α β γ : Type} (f : α → β → γ) (x : s.Idx → α) (y : s.Idx → β) (h : s.ShapeCasts t) :
    shapeCast t (fun i => f (x i) (y i)) h = fun j => f (shapeCast t x h j) (shapeCast t y h j) := rfl
/-- … so with a sum, -/
theorem shapeCast_addf (a b : FVec Ideal s φ) (h : s.ShapeCasts t) :
    shapeCast t (addf a b) h = addf (shapeCast t a h) (shapeCast t b h) := rfl
/-- a difference, -/
theorem shapeCast_subf (a b : FVec Ideal s φ) (h : s.ShapeCasts t) :
    shapeCast t (subf a b) h = subf (shapeCast t a h) (shapeCast t b h) := rfl
/-- a product, -/
theorem shapeCast_mulf (a b : FVec Ideal s φ) (h : s.ShapeCasts t) :
    shapeCast t (mulf a b) h = mulf (shapeCast t a h) (shapeCast t b h) := rfl
/-- a quotient, -/
theorem shapeCast_divf (a b : FVec Ideal s φ) (h : s.ShapeCasts t) :
    shapeCast t (divf a b) h = divf (shapeCast t a h) (shapeCast t b h) := rfl
/-- an exponential, -/
theorem shapeCast_exp (a : FVec Ideal s φ) (h : s.ShapeCasts t) :
    shapeCast t (exp a) h = exp (shapeCast t a h) := rfl
/-- a comparison, -/
theorem shapeCast_cmpf (p : CmpFPredicate) (a b : FVec Ideal s φ) (h : s.ShapeCasts t) :
    shapeCast t (cmpf p a b) h = cmpf p (shapeCast t a h) (shapeCast t b h) := rfl
/-- a select, -/
theorem shapeCast_select {α : Type} (c : IVec s 1) (a b : s.Idx → α) (h : s.ShapeCasts t) :
    shapeCast t (select c a b) h = select (shapeCast t c h) (shapeCast t a h) (shapeCast t b h) := rfl
/-- and elu; -/
theorem shapeCast_eluK (a : FVec Ideal s .f32) (h : s.ShapeCasts t) :
    shapeCast t (Cert.Spec.eluK a) h = Cert.Spec.eluK (shapeCast t a h) := rfl
/-- and a constant array reshaped is the constant array. -/
theorem shapeCast_broadcast {α : Type} (a : α) (h : s.ShapeCasts t) :
    shapeCast t (broadcast s a) h = broadcast t a := rfl

/-- Adding, in one shape, an array that was reshaped into it, and reshaping the sum back: the same as reshaping the
    other summand and adding the array as it was.  (With s = [20000,256], t = [20000,8,32]: the skip connection added
    to the per-head aggregate.) -/
theorem shapeCast_addf_shapeCast (a : FVec Ideal t φ) (k : FVec Ideal s φ) (h : s.ShapeCasts t) (h' : t.ShapeCasts s) :
    shapeCast s (addf a (shapeCast t k h)) h' = addf (shapeCast s a h') k := by
  rw [shapeCast_addf, shapeCast_shapeCast]

end Reshape

end Pure

end Cert.KernelIdeal.ExpFinal

end
-- ==== Proof.KValue.lean ====
/-
  The idealized kernel's result buffer as one function of the nine arguments. The last region's output array is
  the elu of aggregate + skip + bias over what it finds; what it finds is the host tail of region 2's array and
  region 0's arrays; region 2's array is the exponential of region 1's elu array shifted by the maximum of its
  block maxima, which is the supremum of the whole array; region 1 finds the gathered rows of region 0's score
  arrays; region 0's arrays are the sums of products of the arguments.
-/
import proofs.«164815_j20770461843840_2_alg».proof.Proof.KRun
import proofs.«164815_j20770461843840_2_alg».proof.Proof.Glue
import proofs.«164815_j20770461843840_2_alg».proof.Proof.KSpec
import proofs.«164815_j20770461843840_2_alg».proof.Proof.BridgeLib
import proofs.«164815_j20770461843840_2_alg».proof.Proof.EdgeElu
import proofs.«164815_j20770461843840_2_alg».proof.Proof.NodeProj
import proofs.«164815_j20770461843840_2_alg».proof.Proof.ExpFinal
import Idealize.ShloMosaic.Lib.ValueLayout

set_option maxRecDepth 16384

noncomputable section

open Idealize.ShloMosaic Idealize.ShloMosaic.TcCoe Idealize.SL.Sem Idealize.ShloMosaic.ValueIdx
open scoped BigOperators

namespace Cert.KernelIdeal.KValue
open Cert.KernelIdeal Cert.KernelIdeal.Gen Cert.KernelIdeal.Glue

variable (m : (ℓ : Loc nD τ sig) → Buf (Elt Ideal) ℓ) (ρ : Dev nD → PrngReg) (c : Dev nD)

/-- Region 0's output arrays as whole-array functions of the arguments. -/
theorem A8_eq : @Eq (S20000x256.Idx → EReal) ((dat0 (V1 m ρ) c).arrAt 8 cfg0.N)
    (Cert.Bridge.K.projArr (m ((c : Thread nD τ).loc main_arg0)) (m ((c : Thread nD τ).loc main_arg2))) := by
  funext i
  obtain ⟨r, j, rfl⟩ : ∃ (r : Fin 20000) (j : Fin 256), i = ix2 r j := ⟨i 0, i 1, eq_ix2 i⟩
  refine (NodeProj.final8 (V1 m ρ) c r j).trans ?_
  rw [V1_arg0 m ρ c, V1_arg2 m ρ c]
  rfl
theorem A9_eq : @Eq (S20000x256.Idx → EReal) ((dat0 (V1 m ρ) c).arrAt 9 cfg0.N)
    (Cert.Bridge.K.projArr (m ((c : Thread nD τ).loc main_arg0)) (m ((c : Thread nD τ).loc main_arg7))) := by
  funext i
  obtain ⟨r, j, rfl⟩ : ∃ (r : Fin 20000) (j : Fin 256), i = ix2 r j := ⟨i 0, i 1, eq_ix2 i⟩
  refine (NodeProj.final9 (V1 m ρ) c r j).trans ?_
  rw [V1_arg0 m ρ c, V1_arg7 m ρ c]
  rfl
theorem A10_eq : @Eq (S20000x8.Idx → EReal) ((dat0 (V1 m ρ) c).arrAt 10 cfg0.N)
    (Cert.Bridge.K.scoreArr (Cert.Bridge.K.projArr (m ((c : Thread nD τ).loc main_arg0)) (m ((c : Thread nD τ).loc main_arg2)))
      (m ((c : Thread nD τ).loc main_arg3)) (m ((c : Thread nD τ).loc main_arg4))) := by
  funext i
  obtain ⟨r, h, rfl⟩ : ∃ (r : Fin 20000) (h : Fin 8), i = ix2 r h := ⟨i 0, i 1, eq_ix2 i⟩
  refine (NodeProj.final10 (V1 m ρ) c r h).trans ?_
  rw [V1_arg0 m ρ c, V1_arg2 m ρ c, V1_arg3 m ρ c, V1_v4 m ρ c]
  unfold NodeProj.score Cert.Bridge.K.scoreArr
  rw [shapeCast_a_1a_apply]
  rfl
theorem A11_eq : @Eq (S20000x8.Idx → EReal) ((dat0 (V1 m ρ) c).arrAt 11 cfg0.N)
    (Cert.Bridge.K.scoreArr (Cert.Bridge.K.projArr (m ((c : Thread nD τ).loc main_arg0)) (m ((c : Thread nD τ).loc main_arg2)))
      (m ((c : Thread nD τ).loc main_arg5)) (m ((c : Thread nD τ).loc main_arg6))) := by
  funext i
  obtain ⟨r, h, rfl⟩ : ∃ (r : Fin 20000) (h : Fin 8), i = ix2 r h := ⟨i 0, i 1, eq_ix2 i⟩
  refine (NodeProj.final11 (V1 m ρ) c r h).trans ?_
  rw [V1_arg0 m ρ c, V1_arg2 m ρ c, V1_arg5 m ρ c, V1_v5 m ρ c]
  unfold NodeProj.score Cert.Bridge.K.scoreArr
  rw [shapeCast_a_1a_apply]
  rfl

/-- The elu array region 1 leaves. -/
theorem Y_eq : @Eq (FVec Ideal S20000x128 .f32) (EdgeElu.eluSum (V3 m ρ) c)
    (Cert.Bridge.K.Y (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))) := by
  unfold Cert.Bridge.K.Y
  show Cert.Spec.eluK (addf (V3 m ρ c main_v21 : FVec Ideal S20000x128 .f32) (V3 m ρ c main_v22 : FVec Ideal S20000x128 .f32)) = _
  rw [V3_v21 m ρ c, V3_v22 m ρ c, A10_eq m ρ c, A11_eq m ρ c]

/-- The result buffer at the last boundary, as the kernel's function of the nine arguments. -/
theorem value : @Eq (FVec Ideal S20000x256 .f32) (W8 m ρ c (Proc.devRef .tc main_v58))
    (Cert.Bridge.K.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8))) := by
  refine (W8_v58 m ρ c).trans ((ExpFinal.final3_3 (V7 m ρ) c).trans ?_)
  rw [V7_v56 m ρ c, V7_v6_2 m ρ c, V7_v57 m ρ c, A8_eq m ρ c, A9_eq m ρ c]
  have e26 : @Eq (FVec Ideal S20000x128 .f32) ((dat2 (V5 m ρ) c).arrAt 2 cfg2.N)
      (exp (subf (EdgeElu.eluSum (V3 m ρ) c) (broadcast S20000x128 (⨆ i, EdgeElu.eluSum (V3 m ρ) c i)))) := by
    refine (ExpFinal.final2_2 (V5 m ρ) c).trans ?_
    rw [V5_v23_0 m ρ c, V5_v25 m ρ c, Cert.Bridge.cast11, EdgeElu.gmax_eq (V3 m ρ) c, EdgeElu.final2 (V3 m ρ) c]
  rw [e26, Y_eq m ρ c]
  unfold Cert.Bridge.K.out
  refine congrArg Cert.Spec.eluK (congrArg (addf _) (funext fun i => ?_))
  obtain ⟨r, j, rfl⟩ : ∃ (r : Fin 20000) (j : Fin 256), i = ix2 r j := ⟨i 0, i 1, eq_ix2 i⟩
  exact shapeCast_a_1a_apply _ _ 0 j

/-- The run of the idealized kernel with its result as that function, the arguments unchanged. -/
theorem run : θ_run (defs (F := Ideal)) (onTc (τ := τ) (main (F := Ideal))) ⟨m, fun _ => 0, ρ⟩ (fun r => ∀ c : Dev nD,
      r.2.mem ((c.tc : Thread nD τ).loc main_v58)
        = Cert.Bridge.K.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (value m ρ c), (h c).2⟩) (Cert.KernelIdeal.KRun.run_value (F := Ideal) m ρ)

end Cert.KernelIdeal.KValue

end
-- ==== Proof.RefSpec.lean ====
/-
  The reference's result as a function of its nine arguments, stage by stage, each stage the printed operation
  applied to the earlier ones: the two rows of the edge list, the projection x·W_proj, the two score arrays
  proj·W + b, their per-edge sum, its elu, the global maximum, the shifted exponentials, the attention-weighted
  aggregation per target node, the skip product and the final elu.
-/
import proofs.«164815_j20770461843840_2_alg».proof.ReferenceIdeal
import proofs.«164815_j20770461843840_2_alg».proof.Proof.Gen.ReferenceIdeal
import Idealize.ShloMosaic.PureOps.Ideal

noncomputable section

open Idealize.ShloMosaic

/-! ## The reference's value, stage by stage -/
namespace Cert.Bridge.Ref
open Cert.ReferenceIdeal Cert.ReferenceIdeal.Facts₀

def src (ei : IVec S2x320000 32) : IVec S320000 32 :=
  shapeCast S320000 (extractStridedSlice S1x320000 ![0, 0] ei slices_S2x320000_S1x320000_0_0) shapeCasts_S1x320000_S320000
def tgt (ei : IVec S2x320000 32) : IVec S320000 32 :=
  shapeCast S320000 (extractStridedSlice S1x320000 ![1, 0] ei slices_S2x320000_S1x320000_1_0) shapeCasts_S1x320000_S320000
def wrap (x : IVec S320000 32) : IVec S320000x1 32 :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 20000#32))) x)
def proj (x : FVec Ideal S20000x256 .f32) (wp : FVec Ideal S256x256 .f32) : FVec Ideal S20000x256 .f32 :=
  Host.dotGeneral dot_S20000x256_S256x256_S20000x256_1_0_0_1_n_n none x wp
def score (p : FVec Ideal S20000x256 .f32) (w : FVec Ideal S256x8 .f32) (b : FVec Ideal S8 .f32) : FVec Ideal S20000x8 .f32 :=
  addf (Host.dotGeneral dot_S20000x256_S256x8_S20000x8_1_0_0_1_n_n none p w)
    (broadcastInDim S20000x8 ![0, 1] bcast_S1x8_S20000x8_0_1 (broadcastInDim S1x8 ![1] bcast_S8_S1x8_1 b))
/-- the reference's elu: x where x > 0, 1 · expm1 (x where x ≤ 0, else 0) elsewhere -/
def elu {s : Shape} (hb : S_.BroadcastsInDim s (![] : Fin 0 → Fin s.rank)) (x : FVec Ideal s .f32) : FVec Ideal s .f32 :=
  select (cmpf .ogt x (broadcastInDim s ![] hb (constant (F := Ideal) S_ .f32 0x00000000#32))) x
    (mulf (broadcastInDim s ![] hb (constant (F := Ideal) S_ .f32 0x3F800000#32))
      (Host.expm1 (select (cmpf .ogt x (broadcastInDim s ![] hb (constant (F := Ideal) S_ .f32 0x00000000#32)))
        (broadcastInDim s ![] hb (id (constant (F := Ideal) S_ .f32 0x00000000#32))) x)))
def fsum (ssrc stgt : FVec Ideal S20000x8 .f32) (s t : IVec S320000 32) : FVec Ideal S320000x8 .f32 :=
  addf (Host.gather gather_S20000x8_S320000x1_S320000x8_1_0_n_n_0_1_18 ssrc (wrap s))
    (Host.gather gather_S20000x8_S320000x1_S320000x8_1_0_n_n_0_1_18 stgt (wrap t))
def mx (e : FVec Ideal S320000x8 .f32) : FVec Ideal S_ .f32 :=
  Host.reduce FloatOps.maximumf e (constant (F := Ideal) S_ .f32 0xFF800000#32) reducesTo_S320000x8_S_d0_1 h_S_
def ex (e : FVec Ideal S320000x8 .f32) : FVec Ideal S320000x8 .f32 :=
  Host.exp (subf e (broadcastInDim S320000x8 ![] bcast_S_S320000x8 (mx e)))
def agg (exv : FVec Ideal S320000x8 .f32) (t s : IVec S320000 32) (p : FVec Ideal S20000x256 .f32) : FVec Ideal S20000x8x32 .f32 :=
  Host.scatterAdd scatter_S20000x8x32_S320000x1_S320000x8x32_12_0_0_1
    (broadcastInDim S20000x8x32 ![] bcast_S_S20000x8x32 (constant (F := Ideal) S_ .f32 0x00000000#32))
    (broadcastInDim S320000x1 ![0] bcast_S320000_S320000x1_0 t)
    (mulf
      (Host.gather gather_S20000x8x32_S320000x1_S320000x8x32_12_0_n_n_0_1_1832
        (shapeCast S20000x8x32 p shapeCasts_S20000x256_S20000x8x32) (wrap s))
      (broadcastInDim S320000x8x32 ![0, 1, 2] bcast_S320000x8x1_S320000x8x32_0_1_2
        (broadcastInDim S320000x8x1 ![0, 1] bcast_S320000x8_S320000x8x1_0_1
          (Host.divf exv
            (addf
              (Host.gather gather_S20000x8_S320000x1_S320000x8_1_0_n_n_0_1_18
                (Host.scatterAdd scatter_S20000x8_S320000x1_S320000x8_1_0_0_1
                  (broadcastInDim S20000x8 ![] bcast_S_S20000x8 (constant (F := Ideal) S_ .f32 0x00000000#32))
                  (broadcastInDim S320000x1 ![0] bcast_S320000_S320000x1_0 t)
                  exv)
                (wrap t))
              (broadcastInDim S320000x8 ![] bcast_S_S320000x8 (constant (F := Ideal) S_ .f32 0x2EDBE6FF#32)))))))
def pre (a : FVec Ideal S20000x8x32 .f32) (k : FVec Ideal S20000x256 .f32) (b : FVec Ideal S256 .f32) : FVec Ideal S20000x256 .f32 :=
  addf (shapeCast S20000x256 (addf a (shapeCast S20000x8x32 k shapeCasts_S20000x256_S20000x8x32)) shapeCasts_S20000x8x32_S20000x256)
    (broadcastInDim S20000x256 ![0, 1] bcast_S1x256_S20000x256_0_1 (broadcastInDim S1x256 ![1] bcast_S256_S1x256_1 b))

/-- The reference's result as a function of its nine arguments. -/
def out (x : FVec Ideal S20000x256 .f32) (ei : IVec S2x320000 32) (wp : FVec Ideal S256x256 .f32) (ws : FVec Ideal S256x8 .f32) (bs : FVec Ideal S8 .f32)
    (wt : FVec Ideal S256x8 .f32) (bt : FVec Ideal S8 .f32) (wk : FVec Ideal S256x256 .f32) (b : FVec Ideal S256 .f32) : FVec Ideal S20000x256 .f32 :=
  let p := proj x wp
  let e := elu bcast_S_S320000x8 (fsum (score p ws bs) (score p wt bt) (src ei) (tgt ei))
  elu bcast_S_S20000x256 (pre (agg (ex e) (tgt ei) (src ei) p) (proj x wk) b)

end Cert.Bridge.Ref

end
-- ==== Proof.RefRun.lean ====
/-
  The reference's run.  The reference is a host-only program: one straight line of 108 array operations once its
  two calls of `elu` (each calling two `where` functions) are unfolded at their call sites.  This module lists those
  operations in order (`ops`, in five consecutive stretches), shows @main is that line (`main_eq`), and proves that
  every weakly fair execution ends with the result buffer at `Cert.Bridge.Ref.out` of the launch contents of the nine
  arguments, and the arguments unchanged (`run`).
-/
import proofs.«164815_j20770461843840_2_alg».proof.ReferenceIdeal
import proofs.«164815_j20770461843840_2_alg».proof.Proof.Gen.ReferenceIdeal
import proofs.«164815_j20770461843840_2_alg».proof.Proof.RefSpec
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The operations, in order -/

/-- The edge indices, the projection, the two scores and their per-edge sum (the values up to the first `elu`'s operand). -/
abbrev opsA : List (HloOp τ sig (Elt Ideal)) :=
  [
    StableHlo.unary main_arg1 main_v0 ((extractStridedSlice S1x320000 ![0, 0] · slices_S2x320000_S1x320000_0_0) : (⟨S2x320000, .i32⟩ : BufTy).Contents (Elt Ideal) → (⟨S1x320000, .i32⟩ : BufTy).Contents (Elt Ideal)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt Ideal) → (⟨S1x320000, .i32⟩ : BufTy).Contents (Elt Ideal)),
    StableHlo.reshape main_v2 main_v3 rfl shapeCasts_S1x320000_S320000,
    StableHlo.binary main_arg0 main_arg2 main_v4 ((fun l r => Host.dotGeneral (F := Ideal) (φ₁ := .f32) (φ₂ := .f32) dot_S20000x256_S256x256_S20000x256_1_0_0_1_n_n none l r) : (⟨S20000x256, .f32⟩ : BufTy).Contents (Elt Ideal) → (⟨S256x256, .f32⟩ : BufTy).Contents (Elt Ideal) → (⟨S20000x256, .f32⟩ : BufTy).Contents (Elt Ideal)),
    StableHlo.binary main_v4 main_arg3 main_v5 ((fun l r => Host.dotGeneral (F := Ideal) (φ₁ := .f32) (φ₂ := .f32) dot_S20000x256_S256x8_S20000x8_1_0_0_1_n_n none l r) : (⟨S20000x256, .f32⟩ : BufTy).Contents (Elt Ideal) → (⟨S256x8, .f32⟩ : BufTy).Contents (Elt Ideal) → (⟨S20000x8, .f32⟩ : BufTy).Contents (Elt Ideal)),
    StableHlo.unary main_arg4 main_v6 (broadcastInDim S1x8 ![1] bcast_S8_S1x8_1 : (⟨S8, .f32⟩ : BufTy).Contents (Elt Ideal) → (⟨S1x8, .f32⟩ : BufTy).Contents (Elt Ideal)),
    StableHlo.unary main_v6 main_v7 (broadcastInDim S20000x8 ![0, 1] bcast_S1x8_S20000x8_0_1 : (⟨S1x8, .f32⟩ : BufTy).Contents (Elt Ideal) → (⟨S20000x8, .f32⟩ : BufTy).Contents (Elt Ideal)),
    StableHlo.binary main_v5 main_v7 main_v8 (addf (F := Ideal) (φ := .f32) : (⟨S20000x8, .f32⟩ : BufTy).Contents (Elt Ideal) → (⟨S20000x8, .f32⟩ : BufTy).Contents (Elt Ideal) → (⟨S20000x8, .f32⟩ : BufTy).Contents (Elt Ideal)),
    StableHlo.nullary main_c (constantI S_ 32 0#32),
    StableHlo.unary main_c main_v9 (broadcastInDim S320000 ![] bcast_S_S320000 : (⟨S_, .i32⟩ : BufTy).Contents (Elt Ideal) → (⟨S320000, .i32⟩ : BufTy).Contents (Elt Ideal)),
    StableHlo.binary main_v1 main_v9 main_v10 (cmpi .slt : (⟨S320000, .i32⟩ : BufTy).Contents (Elt Ideal) → (⟨S320000, .i32⟩ : BufTy).Contents (Elt Ideal) → (⟨S320000, .i1⟩ : BufTy).Contents (Elt Ideal)),
    StableHlo.nullary main_c_0 (constantI S_ 32 20000#32),
    StableHlo.unary main_c_0 main_v11 (broadcastInDim S320000 ![] bcast_S_S320000 : (⟨S_, .i32⟩ : BufTy).Contents (Elt Ideal) → (⟨S320000, .i32⟩ : BufTy).Contents (Elt Ideal)),
    StableHlo.binary main_v1 main_v11 main_v12 (addi : (⟨S320000, .i32⟩ : BufTy).Contents (Elt Ideal) → (⟨S320000, .i32⟩ : BufTy).Contents (Elt Ideal) → (⟨S320000, .i32⟩ : BufTy).Contents (Elt Ideal)),
    StableHlo.ternary main_v10 main_v12 main_v1 main_v13 (select : (⟨S320000, .i1⟩ : BufTy).Contents (Elt Ideal) → (⟨S320000, .i32⟩ : BufTy).Contents (Elt Ideal) → (⟨S320000, .i32⟩ : BufTy).Contents (Elt Ideal) → (⟨S320000, .i32⟩ : BufTy).Contents (Elt Ideal)),
    StableHlo.unary main_v13 main_v14 (broadcastInDim S320000x1 ![0] bcast_S320000_S320000x1_0 : (⟨S320000, .i32⟩ : BufTy).Contents (Elt Ideal) → (⟨S320000x1, .i32⟩ : BufTy).Contents (Elt Ideal)),
    StableHlo.binary main_v8 main_v14 main_v15 ((fun x i => Host.gather gather_S20000x8_S320000x1_S320000x8_1_0_n_n_0_1_18 x i) : (⟨S20000x8, .f32⟩ : BufTy).Contents (Elt Ideal) → (⟨S320000x1, .i32⟩ : BufTy).Contents (Elt Ideal) → (⟨S320000x8, .f32⟩ : BufTy).Contents (Elt Ideal)),
    StableHlo.binary main_v4 main_arg5 main_v16 ((fun l r => Host.dotGeneral (F := Ideal) (φ₁ := .f32) (φ₂ := .f32) dot_S20000x256_S256x8_S20000x8_1_0_0_1_n_n none l r) : (⟨S20000x256, .f32⟩ : BufTy).Contents (Elt Ideal) → (⟨S256x8, .f32⟩ : BufTy).Contents (Elt Ideal) → (⟨S20000x8, .f32⟩ : BufTy).Contents (Elt Ideal)),
    StableHlo.unary main_arg6 main_v17 (broadcastInDim S1x8 ![1] bcast_S8_S1x8_1 : (⟨S8, .f32⟩ : BufTy).Contents (Elt Ideal) → (⟨S1x8, .f32⟩ : BufTy).Contents (Elt Ideal)),
    StableHlo.unary main_v17 main_v18 (broadcastInDim S20000x8 ![0, 1] bcast_S1x8_S20000x8_0_1 : (⟨S1x8, .f32⟩ : BufTy).Contents (Elt Ideal) → (⟨S20000x8, .f32⟩ : BufTy).Contents (Elt Ideal)),
    StableHlo.binary main_v16 main_v18 main_v19 (addf (F := Ideal) (φ := .f32) : (⟨S20000x8, .f32⟩ : BufTy).Contents (Elt Ideal) → (⟨S20000x8, .f32⟩ : BufTy).Contents (Elt Ideal) → (⟨S20000x8, .f32⟩ : BufTy).Contents (Elt Ideal)),
    StableHlo.nullary main_c_1 (constantI S_ 32 0#32),
    StableHlo.unary main_c_1 main_v20 (broadcastInDim S320000 ![] bcast_S_S320000 : (⟨S_, .i32⟩ : BufTy).Contents (Elt Ideal) → (⟨S320000, .i32⟩ : BufTy).Contents (Elt Ideal)),
    StableHlo.binary main_v3 main_v20 main_v21 (cmpi .slt : (⟨S320000, .i32⟩ : BufTy).Contents (Elt Ideal) → (⟨S320000, .i32⟩ : BufTy).Contents (Elt Ideal) → (⟨S320000, .i1⟩ : BufTy).Contents (Elt Ideal)),
    StableHlo.nullary main_c_2 (constantI S_ 32 20000#32),
    StableHlo.unary main_c_2 main_v22 (broadcastInDim S320000 ![] bcast_S_S320000 : (⟨S_, .i32⟩ : BufTy).Contents (Elt Ideal) → (⟨S320000, .i32⟩ : BufTy).Contents (Elt Ideal)),
    StableHlo.binary main_v3 main_v22 main_v23 (addi : (⟨S320000, .i32⟩ : BufTy).Contents (Elt Ideal) → (⟨S320000, .i32⟩ : BufTy).Contents (Elt Ideal) → (⟨S320000, .i32⟩ : BufTy).Contents (Elt Ideal)),
    StableHlo.ternary main_v21 main_v23 main_v3 main_v24 (select : (⟨S320000, .i1⟩ : BufTy).Contents (Elt Ideal) → (⟨S320000, .i32⟩ : BufTy).Contents (Elt Ideal) → (⟨S320000, .i32⟩ : BufTy).Contents (Elt Ideal) → (⟨S320000, .i32⟩ : BufTy).Contents (Elt Ideal)),
    StableHlo.unary main_v24 main_v25 (broadcastInDim S320000x1 ![0] bcast_S320000_S320000x1_0 : (⟨S320000, .i32⟩ : BufTy).Contents (Elt Ideal) → (⟨S320000x1, .i32⟩ : BufTy).Contents (Elt Ideal)),
    StableHlo.binary main_v19 main_v25 main_v26 ((fun x i => Host.gather gather_S20000x8_S320000x1_S320000x8_1_0_n_n_0_1_18 x i) : (⟨S20000x8, .f32⟩ : BufTy).Contents (Elt Ideal) → (⟨S320000x1, .i32⟩ : BufTy).Contents (Elt Ideal) → (⟨S320000x8, .f32⟩ : BufTy).Contents (Elt Ideal)),
    StableHlo.binary main_v15 main_v26 main_v27 (addf (F := Ideal) (φ := .f32) : (⟨S320000x8, .f32⟩ : BufTy).Contents (Elt Ideal) → (⟨S320000x8, .f32⟩ : BufTy).Contents (Elt Ideal) → (⟨S320000x8, .f32⟩ : BufTy).Contents (Elt Ideal)) ]

/-- The first `elu`, unfolded: its own operations and those of the two `where` functions it calls. -/
abbrev opsB : List (HloOp τ sig (Elt Ideal)) :=
  [
    StableHlo.TRef.nullary main_call0.cst (constant (F := Ideal) S_ .f32 0x00000000#32),
    StableHlo.TRef.unary main_call0.cst main_call0.v0 (broadcastInDim S320000x8 ![] bcast_S_S320000x8),
    StableHlo.TRef.binary (.of main_v27 : TRef sig ⟨S320000x8, .f32⟩) main_call0.v0 main_call0.v1 (cmpf (F := Ideal) (φ := .f32) .ogt),
    StableHlo.TRef.nullary main_call0.cst_0 (constant (F := Ideal) S_ .f32 0x00000000#32),
    StableHlo.TRef.unary main_call0.cst_0 main_call0.v2 (broadcastInDim S320000x8 ![] bcast_S_S320000x8),
    StableHlo.TRef.binary (.of main_v27 : TRef sig ⟨S320000x8, .f32⟩) main_call0.v2 main_call0.v3 (cmpf (F := Ideal) (φ := .f32) .ogt),
    StableHlo.TRef.nullary main_call0.cst_1 (constant (F := Ideal) S_ .f32 0x00000000#32),
    StableHlo.TRef.unary main_call0.cst_1 main_call0.call0.v0 id,
    StableHlo.TRef.unary main_call0.call0.v0 main_call0.call0.v1 (broadcastInDim S320000x8 ![] bcast_S_S320000x8),
    StableHlo.TRef.ternary main_call0.v3 main_call0.call0.v1 (.of main_v27 : TRef sig ⟨S320000x8, .f32⟩) main_call0.call0.v2 select,
    StableHlo.TRef.unary main_call0.call0.v2 main_call0.v5 (Host.expm1 (F := Ideal) (φ := .f32)),
    StableHlo.TRef.nullary main_call0.cst_2 (constant (F := Ideal) S_ .f32 0x3F800000#32),
    StableHlo.TRef.unary main_call0.cst_2 main_call0.v6 (broadcastInDim S320000x8 ![] bcast_S_S320000x8),
    StableHlo.TRef.binary main_call0.v6 main_call0.v5 main_call0.v7 (mulf (F := Ideal) (φ := .f32)),
    StableHlo.TRef.ternary main_call0.v1 (.of main_v27 : TRef sig ⟨S320000x8, .f32⟩) main_call0.v7 main_call0.call1.v0 select ]

/-- The global maximum and the shifted exponentials. -/
abbrev opsC : List (HloOp τ sig (Elt Ideal)) :=
  [
    StableHlo.nullary main_cst (constant (F := Ideal) S_ .f32 0xFF800000#32),
    StableHlo.binary main_v28 main_cst main_v29 ((fun x v => Host.reduce (FloatOps.maximumf (F := Ideal) (φ := .f32)) x v reducesTo_S320000x8_S_d0_1 h_S_) : (⟨S320000x8, .f32⟩ : BufTy).Contents (Elt Ideal) → (⟨S_, .f32⟩ : BufTy).Contents (Elt Ideal) → (⟨S_, .f32⟩ : BufTy).Contents (Elt Ideal)),
    StableHlo.unary main_v29 main_v30 (broadcastInDim S320000x8 ![] bcast_S_S320000x8 : (⟨S_, .f32⟩ : BufTy).Contents (Elt Ideal) → (⟨S320000x8, .f32⟩ : BufTy).Contents (Elt Ideal)),
    StableHlo.binary main_v28 main_v30 main_v31 (subf (F := Ideal) (φ := .f32) : (⟨S320000x8, .f32⟩ : BufTy).Contents (Elt Ideal) → (⟨S320000x8, .f32⟩ : BufTy).Contents (Elt Ideal) → (⟨S320000x8, .f32⟩ : BufTy).Contents (Elt Ideal)),
    StableHlo.unary main_v31 main_v32 (Host.exp (F := Ideal) (φ := .f32) : (⟨S320000x8, .f32⟩ : BufTy).Contents (Elt Ideal) → (⟨S320000x8, .f32⟩ : BufTy).Contents (Elt Ideal)) ]

/-- The per-target sums, the attention weights, the weighted aggregation, the skip product and the bias (the values up to the second `elu`'s operand). -/
abbrev opsD : List (HloOp τ sig (Elt Ideal)) :=
  [
    StableHlo.nullary main_cst_3 (constant (F := Ideal) S_ .f32 0x00000000#32),
    StableHlo.unary main_cst_3 main_v33 (broadcastInDim S20000x8 ![] bcast_S_S20000x8 : (⟨S_, .f32⟩ : BufTy).Contents (Elt Ideal) → (⟨S20000x8, .f32⟩ : BufTy).Contents (Elt Ideal)),
    StableHlo.unary main_v3 main_v34 (broadcastInDim S320000x1 ![0] bcast_S320000_S320000x1_0 : (⟨S320000, .i32⟩ : BufTy).Contents (Elt Ideal) → (⟨S320000x1, .i32⟩ : BufTy).Contents (Elt Ideal)),
    StableHlo.ternary main_v33 main_v34 main_v32 main_v35 ((fun x i u => Host.scatterAdd (F := Ideal) (φ := .f32) scatter_S20000x8_S320000x1_S320000x8_1_0_0_1 x i u) : (⟨S20000x8, .f32⟩ : BufTy).Contents (Elt Ideal) → (⟨S320000x1, .i32⟩ : BufTy).Contents (Elt Ideal) → (⟨S320000x8, .f32⟩ : BufTy).Contents (Elt Ideal) → (⟨S20000x8, .f32⟩ : BufTy).Contents (Elt Ideal)),
    StableHlo.nullary main_c_4 (constantI S_ 32 0#32),
    StableHlo.unary main_c_4 main_v36 (broadcastInDim S320000 ![] bcast_S_S320000 : (⟨S_, .i32⟩ : BufTy).Contents (Elt Ideal) → (⟨S320000, .i32⟩ : BufTy).Contents (Elt Ideal)),
    StableHlo.binary main_v3 main_v36 main_v37 (cmpi .slt : (⟨S320000, .i32⟩ : BufTy).Contents (Elt Ideal) → (⟨S320000, .i32⟩ : BufTy).Contents (Elt Ideal) → (⟨S320000, .i1⟩ : BufTy).Contents (Elt Ideal)),
    StableHlo.nullary main_c_5 (constantI S_ 32 20000#32),
    StableHlo.unary main_c_5 main_v38 (broadcastInDim S320000 ![] bcast_S_S320000 : (⟨S_, .i32⟩ : BufTy).Contents (Elt Ideal) → (⟨S320000, .i32⟩ : BufTy).Contents (Elt Ideal)),
    StableHlo.binary main_v3 main_v38 main_v39 (addi : (⟨S320000, .i32⟩ : BufTy).Contents (Elt Ideal) → (⟨S320000, .i32⟩ : BufTy).Contents (Elt Ideal) → (⟨S320000, .i32⟩ : BufTy).Contents (Elt Ideal)),
    StableHlo.ternary main_v37 main_v39 main_v3 main_v40 (select : (⟨S320000, .i1⟩ : BufTy).Contents (Elt Ideal) → (⟨S320000, .i32⟩ : BufTy).Contents (Elt Ideal) → (⟨S320000, .i32⟩ : BufTy).Contents (Elt Ideal) → (⟨S320000, .i32⟩ : BufTy).Contents (Elt Ideal)),
    StableHlo.unary main_v40 main_v41 (broadcastInDim S320000x1 ![0] bcast_S320000_S320000x1_0 : (⟨S320000, .i32⟩ : BufTy).Contents (Elt Ideal) → (⟨S320000x1, .i32⟩ : BufTy).Contents (Elt Ideal)),
    StableHlo.binary main_v35 main_v41 main_v42 ((fun x i => Host.gather gather_S20000x8_S320000x1_S320000x8_1_0_n_n_0_1_18 x i) : (⟨S20000x8, .f32⟩ : BufTy).Contents (Elt Ideal) → (⟨S320000x1, .i32⟩ : BufTy).Contents (Elt Ideal) → (⟨S320000x8, .f32⟩ : BufTy).Contents (Elt Ideal)),
    StableHlo.nullary main_cst_6 (constant (F := Ideal) S_ .f32 0x2EDBE6FF#32),
    StableHlo.unary main_cst_6 main_v43 (broadcastInDim S320000x8 ![] bcast_S_S320000x8 : (⟨S_, .f32⟩ : BufTy).Contents (Elt Ideal) → (⟨S320000x8, .f32⟩ : BufTy).Contents (Elt Ideal)),
    StableHlo.binary main_v42 main_v43 main_v44 (addf (F := Ideal) (φ := .f32) : (⟨S320000x8, .f32⟩ : BufTy).Contents (Elt Ideal) → (⟨S320000x8, .f32⟩ : BufTy).Contents (Elt Ideal) → (⟨S320000x8, .f32⟩ : BufTy).Contents (Elt Ideal)),
    StableHlo.binary main_v32 main_v44 main_v45 (Host.divf (F := Ideal) (φ := .f32) : (⟨S320000x8, .f32⟩ : BufTy).Contents (Elt Ideal) → (⟨S320000x8, .f32⟩ : BufTy).Contents (Elt Ideal) → (⟨S320000x8, .f32⟩ : BufTy).Contents (Elt Ideal)),
    StableHlo.unary main_v45 main_v46 (broadcastInDim S320000x8x1 ![0, 1] bcast_S320000x8_S320000x8x1_0_1 : (⟨S320000x8, .f32⟩ : BufTy).Contents (Elt Ideal) → (⟨S320000x8x1, .f32⟩ : BufTy).Contents (Elt Ideal)),
    StableHlo.reshape main_v4 main_v47 rfl shapeCasts_S20000x256_S20000x8x32,
    StableHlo.nullary main_c_7 (constantI S_ 32 0#32),
    StableHlo.unary main_c_7 main_v48 (broadcastInDim S320000 ![] bcast_S_S320000 : (⟨S_, .i32⟩ : BufTy).Contents (Elt Ideal) → (⟨S320000, .i32⟩ : BufTy).Contents (Elt Ideal)),
    StableHlo.binary main_v1 main_v48 main_v49 (cmpi .slt : (⟨S320000, .i32⟩ : BufTy).Contents (Elt Ideal) → (⟨S320000, .i32⟩ : BufTy).Contents (Elt Ideal) → (⟨S320000, .i1⟩ : BufTy).Contents (Elt Ideal)),
    StableHlo.nullary main_c_8 (constantI S_ 32 20000#32),
    StableHlo.unary main_c_8 main_v50 (broadcastInDim S320000 ![] bcast_S_S320000 : (⟨S_, .i32⟩ : BufTy).Contents (Elt Ideal) → (⟨S320000, .i32⟩ : BufTy).Contents (Elt Ideal)),
    StableHlo.binary main_v1 main_v50 main_v51 (addi : (⟨S320000, .i32⟩ : BufTy).Contents (Elt Ideal) → (⟨S320000, .i32⟩ : BufTy).Contents (Elt Ideal) → (⟨S320000, .i32⟩ : BufTy).Contents (Elt Ideal)),
    StableHlo.ternary main_v49 main_v51 main_v1 main_v52 (select : (⟨S320000, .i1⟩ : BufTy).Contents (Elt Ideal) → (⟨S320000, .i32⟩ : BufTy).Contents (Elt Ideal) → (⟨S320000, .i32⟩ : BufTy).Contents (Elt Ideal) → (⟨S320000, .i32⟩ : BufTy).Contents (Elt Ideal)),
    StableHlo.unary main_v52 main_v53 (broadcastInDim S320000x1 ![0] bcast_S320000_S320000x1_0 : (⟨S320000, .i32⟩ : BufTy).Contents (Elt Ideal) → (⟨S320000x1, .i32⟩ : BufTy).Contents (Elt Ideal)),
    StableHlo.binary main_v47 main_v53 main_v54 ((fun x i => Host.gather gather_S20000x8x32_S320000x1_S320000x8x32_12_0_n_n_0_1_1832 x i) : (⟨S20000x8x32, .f32⟩ : BufTy).Contents (Elt Ideal) → (⟨S320000x1, .i32⟩ : BufTy).Contents (Elt Ideal) → (⟨S320000x8x32, .f32⟩ : BufTy).Contents (Elt Ideal)),
    StableHlo.unary main_v46 main_v55 (broadcastInDim S320000x8x32 ![0, 1, 2] bcast_S320000x8x1_S320000x8x32_0_1_2 : (⟨S320000x8x1, .f32⟩ : BufTy).Contents (Elt Ideal) → (⟨S320000x8x32, .f32⟩ : BufTy).Contents (Elt Ideal)),
    StableHlo.binary main_v54 main_v55 main_v56 (mulf (F := Ideal) (φ := .f32) : (⟨S320000x8x32, .f32⟩ : BufTy).Contents (Elt Ideal) → (⟨S320000x8x32, .f32⟩ : BufTy).Contents (Elt Ideal) → (⟨S320000x8x32, .f32⟩ : BufTy).Contents (Elt Ideal)),
    StableHlo.nullary main_cst_9 (constant (F := Ideal) S_ .f32 0x00000000#32),
    StableHlo.unary main_cst_9 main_v57 (broadcastInDim S20000x8x32 ![] bcast_S_S20000x8x32 : (⟨S_, .f32⟩ : BufTy).Contents (Elt Ideal) → (⟨S20000x8x32, .f32⟩ : BufTy).Contents (Elt Ideal)),
    StableHlo.unary main_v3 main_v58 (broadcastInDim S320000x1 ![0] bcast_S320000_S320000x1_0 : (⟨S320000, .i32⟩ : BufTy).Contents (Elt Ideal) → (⟨S320000x1, .i32⟩ : BufTy).Contents (Elt Ideal)),
    StableHlo.ternary main_v57 main_v58 main_v56 main_v59 ((fun x i u => Host.scatterAdd (F := Ideal) (φ := .f32) scatter_S20000x8x32_S320000x1_S320000x8x32_12_0_0_1 x i u) : (⟨S20000x8x32, .f32⟩ : BufTy).Contents (Elt Ideal) → (⟨S320000x1, .i32⟩ : BufTy).Contents (Elt Ideal) → (⟨S320000x8x32, .f32⟩ : BufTy).Contents (Elt Ideal) → (⟨S20000x8x32, .f32⟩ : BufTy).Contents (Elt Ideal)),
    StableHlo.binary main_arg0 main_arg7 main_v60 ((fun l r => Host.dotGeneral (F := Ideal) (φ₁ := .f32) (φ₂ := .f32) dot_S20000x256_S256x256_S20000x256_1_0_0_1_n_n none l r) : (⟨S20000x256, .f32⟩ : BufTy).Contents (Elt Ideal) → (⟨S256x256, .f32⟩ : BufTy).Contents (Elt Ideal) → (⟨S20000x256, .f32⟩ : BufTy).Contents (Elt Ideal)),
    StableHlo.reshape main_v60 main_v61 rfl shapeCasts_S20000x256_S20000x8x32,
    StableHlo.binary main_v59 main_v61 main_v62 (addf (F := Ideal) (φ := .f32) : (⟨S20000x8x32, .f32⟩ : BufTy).Contents (Elt Ideal) → (⟨S20000x8x32, .f32⟩ : BufTy).Contents (Elt Ideal) → (⟨S20000x8x32, .f32⟩ : BufTy).Contents (Elt Ideal)),
    StableHlo.reshape main_v62 main_v63 rfl shapeCasts_S20000x8x32_S20000x256,
    StableHlo.unary main_arg8 main_v64 (broadcastInDim S1x256 ![1] bcast_S256_S1x256_1 : (⟨S256, .f32⟩ : BufTy).Contents (Elt Ideal) → (⟨S1x256, .f32⟩ : BufTy).Contents (Elt Ideal)),
    StableHlo.unary main_v64 main_v65 (broadcastInDim S20000x256 ![0, 1] bcast_S1x256_S20000x256_0_1 : (⟨S1x256, .f32⟩ : BufTy).Contents (Elt Ideal) → (⟨S20000x256, .f32⟩ : BufTy).Contents (Elt Ideal)),
    StableHlo.binary main_v63 main_v65 main_v66 (addf (F := Ideal) (φ := .f32) : (⟨S20000x256, .f32⟩ : BufTy).Contents (Elt Ideal) → (⟨S20000x256, .f32⟩ : BufTy).Contents (Elt Ideal) → (⟨S20000x256, .f32⟩ : BufTy).Contents (Elt Ideal)) ]

/-- The second `elu`, unfolded as the first. -/
abbrev opsE : List (HloOp τ sig (Elt Ideal)) :=
  [
    StableHlo.TRef.nullary main_call1.cst (constant (F := Ideal) S_ .f32 0x00000000#32),
    StableHlo.TRef.unary main_call1.cst main_call1.v0 (broadcastInDim S20000x256 ![] bcast_S_S20000x256),
    StableHlo.TRef.binary (.of main_v66 : TRef sig ⟨S20000x256, .f32⟩) main_call1.v0 main_call1.v1 (cmpf (F := Ideal) (φ := .f32) .ogt),
    StableHlo.TRef.nullary main_call1.cst_0 (constant (F := Ideal) S_ .f32 0x00000000#32),
    StableHlo.TRef.unary main_call1.cst_0 main_call1.v2 (broadcastInDim S20000x256 ![] bcast_S_S20000x256),
    StableHlo.TRef.binary (.of main_v66 : TRef sig ⟨S20000x256, .f32⟩) main_call1.v2 main_call1.v3 (cmpf (F := Ideal) (φ := .f32) .ogt),
    StableHlo.TRef.nullary main_call1.cst_1 (constant (F := Ideal) S_ .f32 0x00000000#32),
    StableHlo.TRef.unary main_call1.cst_1 main_call1.call0.v0 id,
    StableHlo.TRef.unary main_call1.call0.v0 main_call1.call0.v1 (broadcastInDim S20000x256 ![] bcast_S_S20000x256),
    StableHlo.TRef.ternary main_call1.v3 main_call1.call0.v1 (.of main_v66 : TRef sig ⟨S20000x256, .f32⟩) main_call1.call0.v2 select,
    StableHlo.TRef.unary main_call1.call0.v2 main_call1.v5 (Host.expm1 (F := Ideal) (φ := .f32)),
    StableHlo.TRef.nullary main_call1.cst_2 (constant (F := Ideal) S_ .f32 0x3F800000#32),
    StableHlo.TRef.unary main_call1.cst_2 main_call1.v6 (broadcastInDim S20000x256 ![] bcast_S_S20000x256),
    StableHlo.TRef.binary main_call1.v6 main_call1.v5 main_call1.v7 (mulf (F := Ideal) (φ := .f32)),
    StableHlo.TRef.ternary main_call1.v1 (.of main_v66 : TRef sig ⟨S20000x256, .f32⟩) main_call1.v7 main_call1.call1.v0 select ]

/-- @main's 108 operations, in order. -/
abbrev ops : List (HloOp τ sig (Elt Ideal)) := opsA ++ (opsB ++ (opsC ++ (opsD ++ opsE)))

/-- Running two lines one after the other is running their concatenation. -/
theorem after_app : ∀ (l₁ l₂ : List (HloOp τ sig (Elt Ideal))) (V : Valuation τ sig (Elt Ideal)), after (l₁ ++ l₂) V = after l₂ (after l₁ V)
  | [], _, _ => rfl
  | op :: l₁, l₂, V => by rw [List.cons_append, after_cons, after_cons, after_app l₁ l₂]

theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The buffers after the whole line are those after its five stretches in turn. -/
theorem after_ops (V : Valuation τ sig (Elt Ideal)) :
    after ops V = after opsE (after opsD (after opsC (after opsB (after opsA V)))) := by
  simp only [ops, after_app]

theorem opsA_sub : (opsA : List (HloOp τ sig (Elt Ideal))).Forall fun op => op.bufs ⊆ tcRefs τ sig :=
  ⟨unary_bufs_sub .., reshape_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsA_fresh : (opsA : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers this stretch writes. -/
abbrev A_W : List (Ref sig .tc) := [main_v0, main_v1, main_v2, main_v3, main_v4, main_v5, main_v6, main_v7, main_v8, main_c, main_v9, main_v10, main_c_0, main_v11, main_v12, main_v13, main_v14, main_v15, main_v16, main_v17, main_v18, main_v19, main_c_1, main_v20, main_v21, main_c_2, main_v22, main_v23, main_v24, main_v25, main_v26, main_v27]
theorem opsA_writes : (opsA : List (HloOp τ sig (Elt Ideal))).Forall fun op => op.writes ⊆ (A_W.map (Proc.devRef (τ := τ) .tc)).toFinset :=
  ⟨Finset.singleton_subset_iff.2 (List.mem_toFinset.2 (List.mem_map_of_mem (show (main_v0 : Ref sig .tc) ∈ A_W by decide))),
    Finset.singleton_subset_iff.2 (List.mem_toFinset.2 (List.mem_map_of_mem (show (main_v1 : Ref sig .tc) ∈ A_W by decide))),
    Finset.singleton_subset_iff.2 (List.mem_toFinset.2 (List.mem_map_of_mem (show (main_v2 : Ref sig .tc) ∈ A_W by decide))),
    Finset.singleton_subset_iff.2 (List.mem_toFinset.2 (List.mem_map_of_mem (show (main_v3 : Ref sig .tc) ∈ A_W by decide))),
    Finset.singleton_subset_iff.2 (List.mem_toFinset.2 (List.mem_map_of_mem (show (main_v4 : Ref sig .tc) ∈ A_W by decide))),
    Finset.singleton_subset_iff.2 (List.mem_toFinset.2 (List.mem_map_of_mem (show (main_v5 : Ref sig .tc) ∈ A_W by decide))),
    Finset.singleton_subset_iff.2 (List.mem_toFinset.2 (List.mem_map_of_mem (show (main_v6 : Ref sig .tc) ∈ A_W by decide))),
    Finset.singleton_subset_iff.2 (List.mem_toFinset.2 (List.mem_map_of_mem (show (main_v7 : Ref sig .tc) ∈ A_W by decide))),
    Finset.singleton_subset_iff.2 (List.mem_toFinset.2 (List.mem_map_of_mem (show (main_v8 : Ref sig .tc) ∈ A_W by decide))),
    Finset.singleton_subset_iff.2 (List.mem_toFinset.2 (List.mem_map_of_mem (show (main_c : Ref sig .tc) ∈ A_W by decide))),
    Finset.singleton_subset_iff.2 (List.mem_toFinset.2 (List.mem_map_of_mem (show (main_v9 : Ref sig .tc) ∈ A_W by decide))),
    Finset.singleton_subset_iff.2 (List.mem_toFinset.2 (List.mem_map_of_mem (show (main_v10 : Ref sig .tc) ∈ A_W by decide))),
    Finset.singleton_subset_iff.2 (List.mem_toFinset.2 (List.mem_map_of_mem (show (main_c_0 : Ref sig .tc) ∈ A_W by decide))),
    Finset.singleton_subset_iff.2 (List.mem_toFinset.2 (List.mem_map_of_mem (show (main_v11 : Ref sig .tc) ∈ A_W by decide))),
    Finset.singleton_subset_iff.2 (List.mem_toFinset.2 (List.mem_map_of_mem (show (main_v12 : Ref sig .tc) ∈ A_W by decide))),
    Finset.singleton_subset_iff.2 (List.mem_toFinset.2 (List.mem_map_of_mem (show (main_v13 : Ref sig .tc) ∈ A_W by decide))),
    Finset.singleton_subset_iff.2 (List.mem_toFinset.2 (List.mem_map_of_mem (show (main_v14 : Ref sig .tc) ∈ A_W by decide))),
    Finset.singleton_subset_iff.2 (List.mem_toFinset.2 (List.mem_map_of_mem (show (main_v15 : Ref sig .tc) ∈ A_W by decide))),
    Finset.singleton_subset_iff.2 (List.mem_toFinset.2 (List.mem_map_of_mem (show (main_v16 : Ref sig .tc) ∈ A_W by decide))),
    Finset.singleton_subset_iff.2 (List.mem_toFinset.2 (List.mem_map_of_mem (show (main_v17 : Ref sig .tc) ∈ A_W by decide))),
    Finset.singleton_subset_iff.2 (List.mem_toFinset.2 (List.mem_map_of_mem (show (main_v18 : Ref sig .tc) ∈ A_W by decide))),
    Finset.singleton_subset_iff.2 (List.mem_toFinset.2 (List.mem_map_of_mem (show (main_v19 : Ref sig .tc) ∈ A_W by decide))),
    Finset.singleton_subset_iff.2 (List.mem_toFinset.2 (List.mem_map_of_mem (show (main_c_1 : Ref sig .tc) ∈ A_W by decide))),
    Finset.singleton_subset_iff.2 (List.mem_toFinset.2 (List.mem_map_of_mem (show (main_v20 : Ref sig .tc) ∈ A_W by decide))),
    Finset.singleton_subset_iff.2 (List.mem_toFinset.2 (List.mem_map_of_mem (show (main_v21 : Ref sig .tc) ∈ A_W by decide))),
    Finset.singleton_subset_iff.2 (List.mem_toFinset.2 (List.mem_map_of_mem (show (main_c_2 : Ref sig .tc) ∈ A_W by decide))),
    Finset.singleton_subset_iff.2 (List.mem_toFinset.2 (List.mem_map_of_mem (show (main_v22 : Ref sig .tc) ∈ A_W by decide))),
    Finset.singleton_subset_iff.2 (List.mem_toFinset.2 (List.mem_map_of_mem (show (main_v23 : Ref sig .tc) ∈ A_W by decide))),
    Finset.singleton_subset_iff.2 (List.mem_toFinset.2 (List.mem_map_of_mem (show (main_v24 : Ref sig .tc) ∈ A_W by decide))),
    Finset.singleton_subset_iff.2 (List.mem_toFinset.2 (List.mem_map_of_mem (show (main_v25 : Ref sig .tc) ∈ A_W by decide))),
    Finset.singleton_subset_iff.2 (List.mem_toFinset.2 (List.mem_map_of_mem (show (main_v26 : Ref sig .tc) ∈ A_W by decide))),
    Finset.singleton_subset_iff.2 (List.mem_toFinset.2 (List.mem_map_of_mem (show (main_v27 : Ref sig .tc) ∈ A_W by decide)))⟩
/-- A buffer this stretch does not write keeps its contents through it. -/
theorem A_keep (W : Valuation τ sig (Elt Ideal)) (r : Ref sig .tc) (h : r ∉ A_W) :
    after opsA W (Proc.devRef .tc r) = W (Proc.devRef .tc r) :=
  after_of_writes_sub opsA _ opsA_writes h

theorem opsB_sub : (opsB : List (HloOp τ sig (Elt Ideal))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsB_fresh : (opsB : List (HloOp τ sig (Elt Ideal))).Forall fun op => op.fresh = ∅ :=
  ⟨rfl, rfl, rfl, rfl, rfl, rfl, rfl, rfl, rfl, rfl, rfl, rfl, rfl, rfl, rfl⟩
/-- The buffers this stretch writes. -/
abbrev B_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v28]
theorem opsB_writes : (opsB : List (HloOp τ sig (Elt Ideal))).Forall fun op => op.writes ⊆ (B_W.map (Proc.devRef (τ := τ) .tc)).toFinset :=
  ⟨Finset.singleton_subset_iff.2 (List.mem_toFinset.2 (List.mem_map_of_mem (show (main_call0_cst : Ref sig .tc) ∈ B_W by decide))),
    Finset.singleton_subset_iff.2 (List.mem_toFinset.2 (List.mem_map_of_mem (show (main_call0_v0 : Ref sig .tc) ∈ B_W by decide))),
    Finset.singleton_subset_iff.2 (List.mem_toFinset.2 (List.mem_map_of_mem (show (main_call0_v1 : Ref sig .tc) ∈ B_W by decide))),
    Finset.singleton_subset_iff.2 (List.mem_toFinset.2 (List.mem_map_of_mem (show (main_call0_cst_0 : Ref sig .tc) ∈ B_W by decide))),
    Finset.singleton_subset_iff.2 (List.mem_toFinset.2 (List.mem_map_of_mem (show (main_call0_v2 : Ref sig .tc) ∈ B_W by decide))),
    Finset.singleton_subset_iff.2 (List.mem_toFinset.2 (List.mem_map_of_mem (show (main_call0_v3 : Ref sig .tc) ∈ B_W by decide))),
    Finset.singleton_subset_iff.2 (List.mem_toFinset.2 (List.mem_map_of_mem (show (main_call0_cst_1 : Ref sig .tc) ∈ B_W by decide))),
    Finset.singleton_subset_iff.2 (List.mem_toFinset.2 (List.mem_map_of_mem (show (main_call0_call0_v0 : Ref sig .tc) ∈ B_W by decide))),
    Finset.singleton_subset_iff.2 (List.mem_toFinset.2 (List.mem_map_of_mem (show (main_call0_call0_v1 : Ref sig .tc) ∈ B_W by decide))),
    Finset.singleton_subset_iff.2 (List.mem_toFinset.2 (List.mem_map_of_mem (show (main_call0_v4 : Ref sig .tc) ∈ B_W by decide))),
    Finset.singleton_subset_iff.2 (List.mem_toFinset.2 (List.mem_map_of_mem (show (main_call0_v5 : Ref sig .tc) ∈ B_W by decide))),
    Finset.singleton_subset_iff.2 (List.mem_toFinset.2 (List.mem_map_of_mem (show (main_call0_cst_2 : Ref sig .tc) ∈ B_W by decide))),
    Finset.singleton_subset_iff.2 (List.mem_toFinset.2 (List.mem_map_of_mem (show (main_call0_v6 : Ref sig .tc) ∈ B_W by decide))),
    Finset.singleton_subset_iff.2 (List.mem_toFinset.2 (List.mem_map_of_mem (show (main_call0_v7 : Ref sig .tc) ∈ B_W by decide))),
    Finset.singleton_subset_iff.2 (List.mem_toFinset.2 (List.mem_map_of_mem (show (main_v28 : Ref sig .tc) ∈ B_W by decide)))⟩
/-- A buffer this stretch does not write keeps its contents through it. -/
theorem B_keep (W : Valuation τ sig (Elt Ideal)) (r : Ref sig .tc) (h : r ∉ B_W) :
    after opsB W (Proc.devRef .tc r) = W (Proc.devRef .tc r) :=
  after_of_writes_sub opsB _ opsB_writes h

theorem opsC_sub : (opsC : List (HloOp τ sig (Elt Ideal))).Forall fun op => op.bufs ⊆ tcRefs τ sig :=
  ⟨nullary_bufs_sub .., binary_bufs_sub .., unary_bufs_sub .., binary_bufs_sub .., unary_bufs_sub ..⟩
theorem opsC_fresh : (opsC : List (HloOp τ sig (Elt Ideal))).Forall fun op => op.fresh = ∅ :=
  ⟨rfl, rfl, rfl, rfl, rfl⟩
/-- The buffers this stretch writes. -/
abbrev C_W : List (Ref sig .tc) := [main_cst, main_v29, main_v30, main_v31, main_v32]
theorem opsC_writes : (opsC : List (HloOp τ sig (Elt Ideal))).Forall fun op => op.writes ⊆ (C_W.map (Proc.devRef (τ := τ) .tc)).toFinset :=
  ⟨Finset.singleton_subset_iff.2 (List.mem_toFinset.2 (List.mem_map_of_mem (show (main_cst : Ref sig .tc) ∈ C_W by decide))),
    Finset.singleton_subset_iff.2 (List.mem_toFinset.2 (List.mem_map_of_mem (show (main_v29 : Ref sig .tc) ∈ C_W by decide))),
    Finset.singleton_subset_iff.2 (List.mem_toFinset.2 (List.mem_map_of_mem (show (main_v30 : Ref sig .tc) ∈ C_W by decide))),
    Finset.singleton_subset_iff.2 (List.mem_toFinset.2 (List.mem_map_of_mem (show (main_v31 : Ref sig .tc) ∈ C_W by decide))),
    Finset.singleton_subset_iff.2 (List.mem_toFinset.2 (List.mem_map_of_mem (show (main_v32 : Ref sig .tc) ∈ C_W by decide)))⟩
/-- A buffer this stretch does not write keeps its contents through it. -/
theorem C_keep (W : Valuation τ sig (Elt Ideal)) (r : Ref sig .tc) (h : r ∉ C_W) :
    after opsC W (Proc.devRef .tc r) = W (Proc.devRef .tc r) :=
  after_of_writes_sub opsC _ opsC_writes h

theorem opsD_sub : (opsD : List (HloOp τ sig (Elt Ideal))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., reshape_bufs_sub .., binary_bufs_sub .., reshape_bufs_sub .., unary_bufs_sub .., unary_bufs_sub .., binary_bufs_sub ..⟩
theorem opsD_fresh : (opsD : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers this stretch writes. -/
abbrev D_W : List (Ref sig .tc) := [main_cst_3, main_v33, main_v34, main_v35, main_c_4, main_v36, main_v37, main_c_5, main_v38, main_v39, main_v40, main_v41, main_v42, main_cst_6, main_v43, main_v44, main_v45, main_v46, main_v47, main_c_7, main_v48, main_v49, main_c_8, main_v50, main_v51, main_v52, main_v53, main_v54, main_v55, main_v56, main_cst_9, main_v57, main_v58, main_v59, main_v60, main_v61, main_v62, main_v63, main_v64, main_v65, main_v66]
theorem opsD_writes : (opsD : List (HloOp τ sig (Elt Ideal))).Forall fun op => op.writes ⊆ (D_W.map (Proc.devRef (τ := τ) .tc)).toFinset :=
  ⟨Finset.singleton_subset_iff.2 (List.mem_toFinset.2 (List.mem_map_of_mem (show (main_cst_3 : Ref sig .tc) ∈ D_W by decide))),
    Finset.singleton_subset_iff.2 (List.mem_toFinset.2 (List.mem_map_of_mem (show (main_v33 : Ref sig .tc) ∈ D_W by decide))),
    Finset.singleton_subset_iff.2 (List.mem_toFinset.2 (List.mem_map_of_mem (show (main_v34 : Ref sig .tc) ∈ D_W by decide))),
    Finset.singleton_subset_iff.2 (List.mem_toFinset.2 (List.mem_map_of_mem (show (main_v35 : Ref sig .tc) ∈ D_W by decide))),
    Finset.singleton_subset_iff.2 (List.mem_toFinset.2 (List.mem_map_of_mem (show (main_c_4 : Ref sig .tc) ∈ D_W by decide))),
    Finset.singleton_subset_iff.2 (List.mem_toFinset.2 (List.mem_map_of_mem (show (main_v36 : Ref sig .tc) ∈ D_W by decide))),
    Finset.singleton_subset_iff.2 (List.mem_toFinset.2 (List.mem_map_of_mem (show (main_v37 : Ref sig .tc) ∈ D_W by decide))),
    Finset.singleton_subset_iff.2 (List.mem_toFinset.2 (List.mem_map_of_mem (show (main_c_5 : Ref sig .tc) ∈ D_W by decide))),
    Finset.singleton_subset_iff.2 (List.mem_toFinset.2 (List.mem_map_of_mem (show (main_v38 : Ref sig .tc) ∈ D_W by decide))),
    Finset.singleton_subset_iff.2 (List.mem_toFinset.2 (List.mem_map_of_mem (show (main_v39 : Ref sig .tc) ∈ D_W by decide))),
    Finset.singleton_subset_iff.2 (List.mem_toFinset.2 (List.mem_map_of_mem (show (main_v40 : Ref sig .tc) ∈ D_W by decide))),
    Finset.singleton_subset_iff.2 (List.mem_toFinset.2 (List.mem_map_of_mem (show (main_v41 : Ref sig .tc) ∈ D_W by decide))),
    Finset.singleton_subset_iff.2 (List.mem_toFinset.2 (List.mem_map_of_mem (show (main_v42 : Ref sig .tc) ∈ D_W by decide))),
    Finset.singleton_subset_iff.2 (List.mem_toFinset.2 (List.mem_map_of_mem (show (main_cst_6 : Ref sig .tc) ∈ D_W by decide))),
    Finset.singleton_subset_iff.2 (List.mem_toFinset.2 (List.mem_map_of_mem (show (main_v43 : Ref sig .tc) ∈ D_W by decide))),
    Finset.singleton_subset_iff.2 (List.mem_toFinset.2 (List.mem_map_of_mem (show (main_v44 : Ref sig .tc) ∈ D_W by decide))),
    Finset.singleton_subset_iff.2 (List.mem_toFinset.2 (List.mem_map_of_mem (show (main_v45 : Ref sig .tc) ∈ D_W by decide))),
    Finset.singleton_subset_iff.2 (List.mem_toFinset.2 (List.mem_map_of_mem (show (main_v46 : Ref sig .tc) ∈ D_W by decide))),
    Finset.singleton_subset_iff.2 (List.mem_toFinset.2 (List.mem_map_of_mem (show (main_v47 : Ref sig .tc) ∈ D_W by decide))),
    Finset.singleton_subset_iff.2 (List.mem_toFinset.2 (List.mem_map_of_mem (show (main_c_7 : Ref sig .tc) ∈ D_W by decide))),
    Finset.singleton_subset_iff.2 (List.mem_toFinset.2 (List.mem_map_of_mem (show (main_v48 : Ref sig .tc) ∈ D_W by decide))),
    Finset.singleton_subset_iff.2 (List.mem_toFinset.2 (List.mem_map_of_mem (show (main_v49 : Ref sig .tc) ∈ D_W by decide))),
    Finset.singleton_subset_iff.2 (List.mem_toFinset.2 (List.mem_map_of_mem (show (main_c_8 : Ref sig .tc) ∈ D_W by decide))),
    Finset.singleton_subset_iff.2 (List.mem_toFinset.2 (List.mem_map_of_mem (show (main_v50 : Ref sig .tc) ∈ D_W by decide))),
    Finset.singleton_subset_iff.2 (List.mem_toFinset.2 (List.mem_map_of_mem (show (main_v51 : Ref sig .tc) ∈ D_W by decide))),
    Finset.singleton_subset_iff.2 (List.mem_toFinset.2 (List.mem_map_of_mem (show (main_v52 : Ref sig .tc) ∈ D_W by decide))),
    Finset.singleton_subset_iff.2 (List.mem_toFinset.2 (List.mem_map_of_mem (show (main_v53 : Ref sig .tc) ∈ D_W by decide))),
    Finset.singleton_subset_iff.2 (List.mem_toFinset.2 (List.mem_map_of_mem (show (main_v54 : Ref sig .tc) ∈ D_W by decide))),
    Finset.singleton_subset_iff.2 (List.mem_toFinset.2 (List.mem_map_of_mem (show (main_v55 : Ref sig .tc) ∈ D_W by decide))),
    Finset.singleton_subset_iff.2 (List.mem_toFinset.2 (List.mem_map_of_mem (show (main_v56 : Ref sig .tc) ∈ D_W by decide))),
    Finset.singleton_subset_iff.2 (List.mem_toFinset.2 (List.mem_map_of_mem (show (main_cst_9 : Ref sig .tc) ∈ D_W by decide))),
    Finset.singleton_subset_iff.2 (List.mem_toFinset.2 (List.mem_map_of_mem (show (main_v57 : Ref sig .tc) ∈ D_W by decide))),
    Finset.singleton_subset_iff.2 (List.mem_toFinset.2 (List.mem_map_of_mem (show (main_v58 : Ref sig .tc) ∈ D_W by decide))),
    Finset.singleton_subset_iff.2 (List.mem_toFinset.2 (List.mem_map_of_mem (show (main_v59 : Ref sig .tc) ∈ D_W by decide))),
    Finset.singleton_subset_iff.2 (List.mem_toFinset.2 (List.mem_map_of_mem (show (main_v60 : Ref sig .tc) ∈ D_W by decide))),
    Finset.singleton_subset_iff.2 (List.mem_toFinset.2 (List.mem_map_of_mem (show (main_v61 : Ref sig .tc) ∈ D_W by decide))),
    Finset.singleton_subset_iff.2 (List.mem_toFinset.2 (List.mem_map_of_mem (show (main_v62 : Ref sig .tc) ∈ D_W by decide))),
    Finset.singleton_subset_iff.2 (List.mem_toFinset.2 (List.mem_map_of_mem (show (main_v63 : Ref sig .tc) ∈ D_W by decide))),
    Finset.singleton_subset_iff.2 (List.mem_toFinset.2 (List.mem_map_of_mem (show (main_v64 : Ref sig .tc) ∈ D_W by decide))),
    Finset.singleton_subset_iff.2 (List.mem_toFinset.2 (List.mem_map_of_mem (show (main_v65 : Ref sig .tc) ∈ D_W by decide))),
    Finset.singleton_subset_iff.2 (List.mem_toFinset.2 (List.mem_map_of_mem (show (main_v66 : Ref sig .tc) ∈ D_W by decide)))⟩
/-- A buffer this stretch does not write keeps its contents through it. -/
theorem D_keep (W : Valuation τ sig (Elt Ideal)) (r : Ref sig .tc) (h : r ∉ D_W) :
    after opsD W (Proc.devRef .tc r) = W (Proc.devRef .tc r) :=
  after_of_writes_sub opsD _ opsD_writes h

theorem opsE_sub : (opsE : List (HloOp τ sig (Elt Ideal))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsE_fresh : (opsE : List (HloOp τ sig (Elt Ideal))).Forall fun op => op.fresh = ∅ :=
  ⟨rfl, rfl, rfl, rfl, rfl, rfl, rfl, rfl, rfl, rfl, rfl, rfl, rfl, rfl, rfl⟩
/-- The buffers this stretch writes. -/
abbrev E_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v67]
theorem opsE_writes : (opsE : List (HloOp τ sig (Elt Ideal))).Forall fun op => op.writes ⊆ (E_W.map (Proc.devRef (τ := τ) .tc)).toFinset :=
  ⟨Finset.singleton_subset_iff.2 (List.mem_toFinset.2 (List.mem_map_of_mem (show (main_call1_cst : Ref sig .tc) ∈ E_W by decide))),
    Finset.singleton_subset_iff.2 (List.mem_toFinset.2 (List.mem_map_of_mem (show (main_call1_v0 : Ref sig .tc) ∈ E_W by decide))),
    Finset.singleton_subset_iff.2 (List.mem_toFinset.2 (List.mem_map_of_mem (show (main_call1_v1 : Ref sig .tc) ∈ E_W by decide))),
    Finset.singleton_subset_iff.2 (List.mem_toFinset.2 (List.mem_map_of_mem (show (main_call1_cst_0 : Ref sig .tc) ∈ E_W by decide))),
    Finset.singleton_subset_iff.2 (List.mem_toFinset.2 (List.mem_map_of_mem (show (main_call1_v2 : Ref sig .tc) ∈ E_W by decide))),
    Finset.singleton_subset_iff.2 (List.mem_toFinset.2 (List.mem_map_of_mem (show (main_call1_v3 : Ref sig .tc) ∈ E_W by decide))),
    Finset.singleton_subset_iff.2 (List.mem_toFinset.2 (List.mem_map_of_mem (show (main_call1_cst_1 : Ref sig .tc) ∈ E_W by decide))),
    Finset.singleton_subset_iff.2 (List.mem_toFinset.2 (List.mem_map_of_mem (show (main_call1_call0_v0 : Ref sig .tc) ∈ E_W by decide))),
    Finset.singleton_subset_iff.2 (List.mem_toFinset.2 (List.mem_map_of_mem (show (main_call1_call0_v1 : Ref sig .tc) ∈ E_W by decide))),
    Finset.singleton_subset_iff.2 (List.mem_toFinset.2 (List.mem_map_of_mem (show (main_call1_v4 : Ref sig .tc) ∈ E_W by decide))),
    Finset.singleton_subset_iff.2 (List.mem_toFinset.2 (List.mem_map_of_mem (show (main_call1_v5 : Ref sig .tc) ∈ E_W by decide))),
    Finset.singleton_subset_iff.2 (List.mem_toFinset.2 (List.mem_map_of_mem (show (main_call1_cst_2 : Ref sig .tc) ∈ E_W by decide))),
    Finset.singleton_subset_iff.2 (List.mem_toFinset.2 (List.mem_map_of_mem (show (main_call1_v6 : Ref sig .tc) ∈ E_W by decide))),
    Finset.singleton_subset_iff.2 (List.mem_toFinset.2 (List.mem_map_of_mem (show (main_call1_v7 : Ref sig .tc) ∈ E_W by decide))),
    Finset.singleton_subset_iff.2 (List.mem_toFinset.2 (List.mem_map_of_mem (show (main_v67 : Ref sig .tc) ∈ E_W by decide)))⟩
/-- A buffer this stretch does not write keeps its contents through it. -/
theorem E_keep (W : Valuation τ sig (Elt Ideal)) (r : Ref sig .tc) (h : r ∉ E_W) :
    after opsE W (Proc.devRef .tc r) = W (Proc.devRef .tc r) :=
  after_of_writes_sub opsE _ opsE_writes h

theorem ops_sub : (ops : List (HloOp τ sig (Elt Ideal))).Forall fun op => op.bufs ⊆ tcRefs τ sig :=
  forall_app opsA_sub (forall_app opsB_sub (forall_app opsC_sub (forall_app opsD_sub opsE_sub)))
theorem ops_fresh : (ops : List (HloOp τ sig (Elt Ideal))).Forall fun op => op.fresh = ∅ :=
  forall_app opsA_fresh (forall_app opsB_fresh (forall_app opsC_fresh (forall_app opsD_fresh opsE_fresh)))

theorem scopedRefs_eq : (Finset.univ.filter fun b : Ref sig .tc => b.isScoped) = ∅ := by decide
theorem scopedSems_eq : (Finset.univ.filter fun sm : SemLoc sig => sm.isScoped .tc) = ∅ := by decide

-- 108 binds re-associated: the rewrite under the chain recurses once per statement
set_option maxRecDepth 4096 in
set_option maxHeartbeats 1600000 in
/-- @main is that straight line: its two windows and the functions' definitions unfolded at their calls, both sides are
    one chain of steps once sequencing is re-associated. -/
theorem main_eq (c : Dev nD) : main (F := Ideal) c = seq ops := by
  simp only [main, main_part0, main_part1, fn_elu.body, fn_elu_1.body, fn_where.body, fn_where_0.body, fn_where_2.body,
    fn_where_3.body, ops, opsA, opsB, opsC, opsD, opsE, List.cons_append, List.nil_append, seq, bind_assoc, pure_bind]

/-! ## What each stretch leaves, as the stages of the reference's value -/

attribute [local irreducible] Host.reduce Host.gather Host.scatterAdd in
set_option maxRecDepth 8192 in
set_option maxHeartbeats 1000000 in
/-- The first stretch leaves the source row in its buffer. -/
theorem A_src (W : Valuation τ sig (Elt Ideal)) :
    after opsA W (main_v1 : DevRef τ sig) = Cert.Bridge.Ref.src (W (main_arg1 : DevRef τ sig)) := by
  simp only [opsA]
  after_results_simp
  rfl

attribute [local irreducible] Host.reduce Host.gather Host.scatterAdd in
set_option maxRecDepth 8192 in
set_option maxHeartbeats 1000000 in
/-- The first stretch leaves the target row in its buffer. -/
theorem A_tgt (W : Valuation τ sig (Elt Ideal)) :
    after opsA W (main_v3 : DevRef τ sig) = Cert.Bridge.Ref.tgt (W (main_arg1 : DevRef τ sig)) := by
  simp only [opsA]
  after_results_simp
  rfl

attribute [local irreducible] Host.reduce Host.gather Host.scatterAdd in
set_option maxRecDepth 8192 in
set_option maxHeartbeats 1000000 in
/-- The first stretch leaves the projection in its buffer. -/
theorem A_proj (W : Valuation τ sig (Elt Ideal)) :
    after opsA W (main_v4 : DevRef τ sig) = Cert.Bridge.Ref.proj (W (main_arg0 : DevRef τ sig)) (W (main_arg2 : DevRef τ sig)) := by
  simp only [opsA]
  after_results_simp
  rfl

attribute [local irreducible] Host.reduce Host.gather Host.scatterAdd in
set_option maxRecDepth 8192 in
set_option maxHeartbeats 1000000 in
/-- The first stretch leaves the per-edge sum of the two scores in its buffer. -/
theorem A_fsum (W : Valuation τ sig (Elt Ideal)) :
    after opsA W (main_v27 : DevRef τ sig) = Cert.Bridge.Ref.fsum (Cert.Bridge.Ref.score (Cert.Bridge.Ref.proj (W (main_arg0 : DevRef τ sig)) (W (main_arg2 : DevRef τ sig))) (W (main_arg3 : DevRef τ sig)) (W (main_arg4 : DevRef τ sig))) (Cert.Bridge.Ref.score (Cert.Bridge.Ref.proj (W (main_arg0 : DevRef τ sig)) (W (main_arg2 : DevRef τ sig))) (W (main_arg5 : DevRef τ sig)) (W (main_arg6 : DevRef τ sig)))
        (Cert.Bridge.Ref.src (W (main_arg1 : DevRef τ sig))) (Cert.Bridge.Ref.tgt (W (main_arg1 : DevRef τ sig))) := by
  simp only [opsA]
  after_results_simp
  rfl

attribute [local irreducible] Host.reduce Host.gather Host.scatterAdd in
set_option maxRecDepth 8192 in
set_option maxHeartbeats 1000000 in
/-- The first `elu`'s operations leave `elu` of their operand. -/
theorem B_e (W : Valuation τ sig (Elt Ideal)) :
    after opsB W (main_v28 : DevRef τ sig) = Cert.Bridge.Ref.elu bcast_S_S320000x8 (W (main_v27 : DevRef τ sig)) := by
  simp only [opsB]
  after_results_simp
  rfl

attribute [local irreducible] Host.reduce Host.gather Host.scatterAdd in
set_option maxRecDepth 8192 in
set_option maxHeartbeats 1000000 in
/-- The third stretch leaves the exponentials of the scores less their global maximum. -/
theorem C_ex (W : Valuation τ sig (Elt Ideal)) :
    after opsC W (main_v32 : DevRef τ sig) = Cert.Bridge.Ref.ex (W (main_v28 : DevRef τ sig)) := by
  simp only [opsC]
  after_results_simp
  rfl

attribute [local irreducible] Host.reduce Host.gather Host.scatterAdd in
set_option maxRecDepth 8192 in
set_option maxHeartbeats 1000000 in
/-- The fourth stretch leaves the weighted aggregate plus the skip product plus the bias. -/
theorem D_pre (W : Valuation τ sig (Elt Ideal)) :
    after opsD W (main_v66 : DevRef τ sig) = Cert.Bridge.Ref.pre (Cert.Bridge.Ref.agg (W (main_v32 : DevRef τ sig)) (W (main_v3 : DevRef τ sig)) (W (main_v1 : DevRef τ sig)) (W (main_v4 : DevRef τ sig)))
        (Cert.Bridge.Ref.proj (W (main_arg0 : DevRef τ sig)) (W (main_arg7 : DevRef τ sig))) (W (main_arg8 : DevRef τ sig)) := by
  simp only [opsD]
  after_results_simp
  rfl

attribute [local irreducible] Host.reduce Host.gather Host.scatterAdd in
set_option maxRecDepth 8192 in
set_option maxHeartbeats 1000000 in
/-- The second `elu`'s operations leave `elu` of their operand. -/
theorem E_out (W : Valuation τ sig (Elt Ideal)) :
    after opsE W (main_v67 : DevRef τ sig) = Cert.Bridge.Ref.elu bcast_S_S20000x256 (W (main_v66 : DevRef τ sig)) := by
  simp only [opsE]
  after_results_simp
  rfl

/-! ## The whole line -/

/-- The result buffer after the whole line is `out` of the arguments: stretch by stretch, each stage carried as a name. -/
theorem out_eq (V : Valuation τ sig (Elt Ideal)) :
    after ops V (main_v67 : DevRef τ sig) = Cert.Bridge.Ref.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_ops]
  have a1 := A_src V
  have a3 := A_tgt V
  have a4 := A_proj V
  have a27 := A_fsum V
  have a_0 := A_keep V main_arg0 (by decide)
  have a_7 := A_keep V main_arg7 (by decide)
  have a_8 := A_keep V main_arg8 (by decide)
  generalize after opsA V = VA at a1 a3 a4 a27 a_0 a_7 a_8 ⊢
  have b28 := (B_e VA).trans (congrArg (Cert.Bridge.Ref.elu bcast_S_S320000x8) a27)
  have b1 := (B_keep VA main_v1 (by decide)).trans a1
  have b3 := (B_keep VA main_v3 (by decide)).trans a3
  have b4 := (B_keep VA main_v4 (by decide)).trans a4
  have b_0 := (B_keep VA main_arg0 (by decide)).trans a_0
  have b_7 := (B_keep VA main_arg7 (by decide)).trans a_7
  have b_8 := (B_keep VA main_arg8 (by decide)).trans a_8
  generalize after opsB VA = VB at b28 b1 b3 b4 b_0 b_7 b_8 ⊢
  have c32 := (C_ex VB).trans (congrArg Cert.Bridge.Ref.ex b28)
  have c1 := (C_keep VB main_v1 (by decide)).trans b1
  have c3 := (C_keep VB main_v3 (by decide)).trans b3
  have c4 := (C_keep VB main_v4 (by decide)).trans b4
  have c_0 := (C_keep VB main_arg0 (by decide)).trans b_0
  have c_7 := (C_keep VB main_arg7 (by decide)).trans b_7
  have c_8 := (C_keep VB main_arg8 (by decide)).trans b_8
  generalize after opsC VB = VC at c32 c1 c3 c4 c_0 c_7 c_8 ⊢
  have d66 := D_pre VC
  rw [c32, c3, c1, c4, c_0, c_7, c_8] at d66
  generalize after opsD VC = VD at d66 ⊢
  exact (E_out VD).trans (congrArg (Cert.Bridge.Ref.elu bcast_S_S20000x256) d66)

/-- A buffer none of the five stretches writes keeps its contents through the whole line. -/
theorem ops_keep (V : Valuation τ sig (Elt Ideal)) (r : Ref sig .tc) (hA : r ∉ A_W) (hB : r ∉ B_W) (hC : r ∉ C_W) (hD : r ∉ D_W) (hE : r ∉ E_W) :
    after ops V (Proc.devRef .tc r) = V (Proc.devRef .tc r) := by
  rw [after_ops, E_keep _ r hE, D_keep _ r hD, C_keep _ r hC, B_keep _ r hB, A_keep _ r hA]

/-- From any memory with zero counters, every weakly fair execution of @main terminates with the result buffer at `out` of
    the arguments' launch contents, and the nine arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v67) = Cert.Bridge.Ref.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h c main_v67).trans (out_eq (launchContents m c)),
      (h c main_arg0).trans (ops_keep (launchContents m c) main_arg0 (by decide) (by decide) (by decide) (by decide) (by decide)),
      (h c main_arg1).trans (ops_keep (launchContents m c) main_arg1 (by decide) (by decide) (by decide) (by decide) (by decide)),
      (h c main_arg2).trans (ops_keep (launchContents m c) main_arg2 (by decide) (by decide) (by decide) (by decide) (by decide)),
      (h c main_arg3).trans (ops_keep (launchContents m c) main_arg3 (by decide) (by decide) (by decide) (by decide) (by decide)),
      (h c main_arg4).trans (ops_keep (launchContents m c) main_arg4 (by decide) (by decide) (by decide) (by decide) (by decide)),
      (h c main_arg5).trans (ops_keep (launchContents m c) main_arg5 (by decide) (by decide) (by decide) (by decide) (by decide)),
      (h c main_arg6).trans (ops_keep (launchContents m c) main_arg6 (by decide) (by decide) (by decide) (by decide) (by decide)),
      (h c main_arg7).trans (ops_keep (launchContents m c) main_arg7 (by decide) (by decide) (by decide) (by decide) (by decide)),
      (h c main_arg8).trans (ops_keep (launchContents m c) main_arg8 (by decide) (by decide) (by decide) (by decide) (by decide))⟩)
    (run_seq scopedRefs_eq scopedSems_eq (defs (F := Ideal)) (main (F := Ideal)) (fun _ => ops) main_eq (fun _ => ops_sub) m ρ
      (fun _ => List.forall_iff_forall_mem.1 ops_fresh))

end Cert.ReferenceIdeal.RefRun

end
-- ==== Proof.Bridge.lean ====
/-
  The reference's function of the nine arguments is the kernel's. Stage by stage: the projections and scores are
  the same sums of products (the bias read through two broadcasts on one side, a reshape and a row broadcast on the
  other); the two elu spellings agree on every extended real; the flat elu array is the reshape of the per-edge
  one, so its supremum is the same and the shifted exponentials are reshapes of each other; the aggregation is the
  same operations on equal operands; and the reshape of a sum is the sum of the reshapes.
-/
import proofs.«164815_j20770461843840_2_alg».proof.Proof.RefSpec
import proofs.«164815_j20770461843840_2_alg».proof.Proof.KSpec
import proofs.«164815_j20770461843840_2_alg».proof.Proof.Glue
import proofs.«164815_j20770461843840_2_alg».proof.Proof.Spec
import proofs.«164815_j20770461843840_2_alg».proof.Proof.BridgeLib
import proofs.«164815_j20770461843840_2_alg».proof.Proof.NodeProj
import proofs.«164815_j20770461843840_2_alg».proof.Proof.EdgeElu
import proofs.«164815_j20770461843840_2_alg».proof.Proof.ExpFinal
import Idealize.ShloMosaic.PureOps.Ideal.Laws

set_option maxRecDepth 16384

noncomputable section

open Idealize.ShloMosaic Idealize.ShloMosaic.ValueIdx
open scoped BigOperators

/-! ## The two are one function -/
namespace Cert.Bridge
open Cert.KernelIdeal.Glue

open Cert.KernelIdeal.NodeProj (ref_dot256 ref_dot8)
open Cert.KernelIdeal.EdgeElu (max_total iSup_shapeCast)
open Cert.KernelIdeal.ExpFinal (host_exp_eq)

/-- The reference's elu is the kernel's: where x > 0 both are x; elsewhere the inner choice is x, expm1 x is exp x - 1, and 1 · y = y. -/
theorem elu_ref_eq {s : Shape} (hb : (⟨0, ![]⟩ : Shape).BroadcastsInDim s (![] : Fin 0 → Fin s.rank)) (x : FVec Ideal s .f32) :
    Ref.elu hb x = Cert.Spec.eluK x := by
  unfold Ref.elu
  exact Cert.KernelIdeal.ExpFinal.elu_ref_eq hb x

theorem proj_eq (x : FVec Ideal Cert.ReferenceIdeal.S20000x256 .f32) (w : FVec Ideal Cert.ReferenceIdeal.S256x256 .f32) : Ref.proj x w = K.projArr x w := by
  funext i
  obtain ⟨r, j, rfl⟩ : ∃ (r : Fin 20000) (j : Fin 256), i = ix2 r j := ⟨i 0, i 1, eq_ix2 i⟩
  exact ref_dot256 x w r j

theorem score_eq (p : FVec Ideal Cert.ReferenceIdeal.S20000x256 .f32) (w : FVec Ideal Cert.ReferenceIdeal.S256x8 .f32) (b : FVec Ideal Cert.ReferenceIdeal.S8 .f32) :
    Ref.score p w b = K.scoreArr p w b := by
  funext i
  obtain ⟨r, h, rfl⟩ : ∃ (r : Fin 20000) (h : Fin 8), i = ix2 r h := ⟨i 0, i 1, eq_ix2 i⟩
  show Host.dotGeneral (F := Ideal) Cert.ReferenceIdeal.dot_S20000x256_S256x8_S20000x8_1_0_0_1_n_n none p w (ix2 r h) + broadcastInDim _ _ _ _ (ix2 r h) = _
  rw [ref_dot8, bcastRows8]
  rfl

theorem src_eq (ei : IVec Cert.ReferenceIdeal.S2x320000 32) : Ref.src ei = srcK ei := rfl
theorem tgt_eq (ei : IVec Cert.ReferenceIdeal.S2x320000 32) : Ref.tgt ei = tgtK ei := rfl
theorem wrap_eq (x : IVec Cert.ReferenceIdeal.S320000 32) : Ref.wrap x = wrapIdx x := rfl

/-- The flat elu array is the reshape of the per-edge one. -/
theorem Y_eq (ssrc stgt : FVec Ideal Cert.ReferenceIdeal.S20000x8 .f32) (s t : IVec Cert.ReferenceIdeal.S320000 32) :
    Cert.Spec.eluK (addf (scoresFlat ssrc s) (scoresFlat stgt t))
      = shapeCast Cert.KernelIdeal.S20000x128 (Cert.Spec.eluK (Ref.fsum ssrc stgt s t)) Cert.KernelIdeal.Facts₀.shapeCasts_S320000x8_S20000x128 := rfl

theorem tail_eq (e : FVec Ideal Cert.KernelIdeal.S20000x128 .f32) (t s : IVec Cert.ReferenceIdeal.S320000 32) (p : FVec Ideal Cert.ReferenceIdeal.S20000x256 .f32) :
    tailK e t s p = shapeCast Cert.KernelIdeal.S20000x256
      (Ref.agg (shapeCast Cert.KernelIdeal.S320000x8 e Cert.KernelIdeal.Facts₀.shapeCasts_S20000x128_S320000x8) t s p) Cert.KernelIdeal.Facts₀.shapeCasts_S20000x8x32_S20000x256 := rfl

/-- The shifted exponentials: flat on the kernel's side, per edge on the reference's. -/
theorem ex_eq (E : FVec Ideal Cert.ReferenceIdeal.S320000x8 .f32) :
    shapeCast Cert.KernelIdeal.S320000x8
      (exp (subf (shapeCast Cert.KernelIdeal.S20000x128 E Cert.KernelIdeal.Facts₀.shapeCasts_S320000x8_S20000x128)
        (broadcast Cert.KernelIdeal.S20000x128 (⨆ i, shapeCast Cert.KernelIdeal.S20000x128 E Cert.KernelIdeal.Facts₀.shapeCasts_S320000x8_S20000x128 i))))
      Cert.KernelIdeal.Facts₀.shapeCasts_S20000x128_S320000x8 = Ref.ex E := by
  rw [iSup_shapeCast]
  unfold Ref.ex Ref.mx
  rw [host_exp_eq, bcastScalar, max_total]
  exact shapeCast_shapeCast (exp (subf E (broadcast Cert.ReferenceIdeal.S320000x8 (⨆ j, E j)))) _ _

/-- The last pre-activation: the reshape distributes over the sum, and the bias reads its entry in every row. -/
theorem pre_eq (a : FVec Ideal Cert.ReferenceIdeal.S20000x8x32 .f32) (k : FVec Ideal Cert.ReferenceIdeal.S20000x256 .f32) (b : FVec Ideal Cert.ReferenceIdeal.S256 .f32) :
    Ref.pre a k b = addf (addf (shapeCast Cert.KernelIdeal.S20000x256 a Cert.KernelIdeal.Facts₀.shapeCasts_S20000x8x32_S20000x256) k) (fun i => b (ix1 (K.col i))) := by
  unfold Ref.pre
  have h1 : shapeCast Cert.ReferenceIdeal.S20000x256 (addf a (shapeCast Cert.ReferenceIdeal.S20000x8x32 k Cert.ReferenceIdeal.Facts₀.shapeCasts_S20000x256_S20000x8x32)) Cert.ReferenceIdeal.Facts₀.shapeCasts_S20000x8x32_S20000x256
      = addf (shapeCast Cert.ReferenceIdeal.S20000x256 a Cert.ReferenceIdeal.Facts₀.shapeCasts_S20000x8x32_S20000x256)
          (shapeCast Cert.ReferenceIdeal.S20000x256 (shapeCast Cert.ReferenceIdeal.S20000x8x32 k Cert.ReferenceIdeal.Facts₀.shapeCasts_S20000x256_S20000x8x32) Cert.ReferenceIdeal.Facts₀.shapeCasts_S20000x8x32_S20000x256) := rfl
  rw [h1, shapeCast_shapeCast]
  refine congrArg (addf _) (funext fun i => ?_)
  obtain ⟨r, j, rfl⟩ : ∃ (r : Fin 20000) (j : Fin 256), i = ix2 r j := ⟨i 0, i 1, eq_ix2 i⟩
  exact bcastRows256 _ _ b r j

/-- The two programs compute one function of the nine arguments. -/
theorem out_eq (x : FVec Ideal Cert.ReferenceIdeal.S20000x256 .f32) (ei : IVec Cert.ReferenceIdeal.S2x320000 32) (wp : FVec Ideal Cert.ReferenceIdeal.S256x256 .f32)
    (ws : FVec Ideal Cert.ReferenceIdeal.S256x8 .f32) (bs : FVec Ideal Cert.ReferenceIdeal.S8 .f32) (wt : FVec Ideal Cert.ReferenceIdeal.S256x8 .f32) (bt : FVec Ideal Cert.ReferenceIdeal.S8 .f32)
    (wk : FVec Ideal Cert.ReferenceIdeal.S256x256 .f32) (b : FVec Ideal Cert.ReferenceIdeal.S256 .f32) :
    Ref.out x ei wp ws bs wt bt wk b = K.out x ei wp ws bs wt bt wk b := by
  unfold Ref.out K.out K.Y
  dsimp only
  rw [elu_ref_eq, elu_ref_eq, proj_eq, proj_eq, score_eq, score_eq, src_eq, tgt_eq, pre_eq, Y_eq, tail_eq, ex_eq]

end Cert.Bridge

end
-- ==== Proof.lean ====
/-
  The certificate of a graph-attention layer computed by four tiled kernels and the host operations between them,
  against its plain reference, over the extended reals.

  Both programs compute, from node features x, an edge list (src, tgt) and seven weight arrays,
    proj = x · W_proj,  s_src = proj · W_src + b_src,  s_tgt = proj · W_tgt + b_tgt,
    e = elu (s_src[src] + s_tgt[tgt]),  w = exp (e − max e),  att = w / (Σ_{same target} w + ε),
    out = elu (Σ_{edges into a node} att · proj[src] + x · W_skip + bias),
  with a negative node number counted from the end and the same literals 0, 1, −∞ and ε on both sides.
  The kernel differs in four ways, none of which changes a value over the extended reals: its matrix products are
  taken block of rows by block of rows, after a change of float format that is the identity here; its elu is
  written with exp x − 1 where the reference has 1 · expm1 x; the edge-level arithmetic runs on a [20000,128]
  reshape of the [320000,8] arrays, the maximum being taken first within each block of 2000 rows and then over the
  block maxima (a supremum of suprema is the supremum); and the last sum is taken after the reshape to [20000,256]
  where the reference reshapes after it. No law used needs finiteness, so the precondition is never opened.

  Modules: KRun (the kernel's run with its result buffer named), Glue (what the host stretches compute and what each
  region finds), NodeProj / EdgeElu / ExpFinal (each region's output arrays as whole-array functions of its inputs),
  KSpec and KValue (the kernel's result as one function of the nine arguments), RefSpec and RefRun (the same for the
  reference), Bridge (the two functions are one).
-/
import proofs.«164815_j20770461843840_2_alg».proof.Defs
import proofs.«164815_j20770461843840_2_alg».proof.Proof.Gen.Kernel
import proofs.«164815_j20770461843840_2_alg».proof.Proof.Gen.Kernel.Skeleton
import proofs.«164815_j20770461843840_2_alg».proof.Proof.Gen.Kernel.Launch
import proofs.«164815_j20770461843840_2_alg».proof.Proof.Gen.Kernel.Points
import proofs.«164815_j20770461843840_2_alg».proof.Proof.Gen.Kernel.Frame
import proofs.«164815_j20770461843840_2_alg».proof.Proof.Gen.KernelIdeal
import proofs.«164815_j20770461843840_2_alg».proof.Proof.Gen.KernelIdeal.Skeleton
import proofs.«164815_j20770461843840_2_alg».proof.Proof.Gen.KernelIdeal.Launch
import proofs.«164815_j20770461843840_2_alg».proof.Proof.Gen.KernelIdeal.Points
import proofs.«164815_j20770461843840_2_alg».proof.Proof.Gen.KernelIdeal.Frame
import proofs.«164815_j20770461843840_2_alg».proof.Proof.Gen.ReferenceIdeal
import proofs.«164815_j20770461843840_2_alg».proof.Proof.Gen.Pre_finite_inputs
import proofs.«164815_j20770461843840_2_alg».proof.Proof.KValue
import proofs.«164815_j20770461843840_2_alg».proof.Proof.RefRun
import proofs.«164815_j20770461843840_2_alg».proof.Proof.Bridge
import Idealize.ShloMosaic.Adequacy
import Idealize.ShloMosaic.Init

noncomputable section

namespace Cert.Proof

open Idealize.ShloMosaic Idealize.SL.Sem

/-- The three frames: the two kernels' are the launch of the four pipelines over the host stretches; the reference's is
    its run with the result forgotten. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefRun.run m ρ)

/-- The idealization rewrote nothing: the idealized kernel is the kernel's own text read over the extended reals. -/
theorem preserves : Cert.preserves_Kernel_KernelIdeal := trivial

/-- From memories agreeing on the nine arguments both programs end with the same result array: the kernel's run ends at
    its function of the arguments, the reference's at its own, and the two functions are one. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8⟩ := hagree c
  rw [h0, h1, h2, h3, h4, h5, h6, h7, h8]
  exact Cert.Bridge.out_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
